-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024 .f32) (main_arg10 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S3072x1024 : Shape := ⟨2, ![3072, 1024]⟩
abbrev S1024x3072 : Shape := ⟨2, ![1024, 3072]⟩
abbrev S3072 : Shape := ⟨1, ![3072]⟩
abbrev S1x3072 : Shape := ⟨2, ![1, 3072]⟩
abbrev S8192x1024 : Shape := ⟨2, ![8192, 1024]⟩
abbrev S512x1024 : Shape := ⟨2, ![512, 1024]⟩
abbrev S512x3072 : Shape := ⟨2, ![512, 3072]⟩
abbrev S1x256x1024 : Shape := ⟨3, ![1, 256, 1024]⟩
abbrev S1x2048x1024 : Shape := ⟨3, ![1, 2048, 1024]⟩
abbrev S256x1024 : Shape := ⟨2, ![256, 1024]⟩
abbrev S2048x1024 : Shape := ⟨2, ![2048, 1024]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩
abbrev S1x256x128 : Shape := ⟨3, ![1, 256, 128]⟩
abbrev S1x1024 : Shape := ⟨2, ![1, 1024]⟩
abbrev S512 : Shape := ⟨1, ![512]⟩
abbrev S512x1 : Shape := ⟨2, ![512, 1]⟩

abbrev nBuf : Space → Nat
  | .hbm => 32
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S3072x1024, .f32⟩
  | .hbm, ⟨12, _⟩ => ⟨S1024x3072, .f32⟩
  | .hbm, ⟨13, _⟩ => ⟨S1024x3072, .bf16⟩
  | .hbm, ⟨14, _⟩ => ⟨S3072, .f32⟩
  | .hbm, ⟨15, _⟩ => ⟨S1x3072, .f32⟩
  | .hbm, ⟨16, _⟩ => ⟨S8192x1024, .f32⟩
  | .hbm, ⟨17, _⟩ => ⟨S8192x1024, .bf16⟩
  | .hbm, ⟨18, _⟩ => ⟨S8192x1024, .bf16⟩
  | .hbm, ⟨19, _⟩ => ⟨S8192x1024, .bf16⟩
  | .hbm, ⟨20, _⟩ => ⟨S4x2048x1024, .bf16⟩
  | .hbm, ⟨21, _⟩ => ⟨S4x2048x1024, .bf16⟩
  | .hbm, ⟨22, _⟩ => ⟨S4x2048x1024, .bf16⟩
  | .hbm, ⟨23, _⟩ => ⟨S4x2048x1024, .bf16⟩
  | .hbm, ⟨24, _⟩ => ⟨S8192x1024, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x2048x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S1x2048x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 2 → Memref sig .tc .vmem S1x256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  concatenates_S1024x1024_S1024x1024_S1024x1024_S3072x1024_d0 : Shape.Concatenates [S1024x1024, S1024x1024, S1024x1024] S3072x1024 0
  transposes_S3072x1024_S1024x3072_1_0 : S3072x1024.Transposes [1, 0] S1024x3072
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  slices_S512x3072_o0_0_S512x1024 : S512x3072.Slices ![0, 0] S512x1024
  slices_S512x3072_o0_1024_S512x1024 : S512x3072.Slices ![0, 1024] S512x1024
  slices_S512x3072_o0_2048_S512x1024 : S512x3072.Slices ![0, 2048] S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S256x1024_o0_0_S256x128 : S256x1024.Slices ![0, 0] S256x128
  slices_S2048x1024_o0_0_S2048x128 : S2048x1024.Slices ![0, 0] S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  slices_S256x128_o0_64_S256x64 : S256x128.Slices ![0, 64] S256x64
  slices_S2048x128_o0_64_S2048x64 : S2048x128.Slices ![0, 64] S2048x64
  concatenates_S256x64_S256x64_S256x128_d1 : Shape.Concatenates [S256x64, S256x64] S256x128 1
  inb_S1x256x1024_S1x256x128_0_0_0 : ∀ a, (![0, 0, 0] : Fin 3 → Nat) a + S1x256x128.size a ≤ S1x256x1024.size a
  h_S1x256x128 : 0 < S1x256x128.numel
  shapeCasts_S1x256x128_S256x128 : S1x256x128.ShapeCasts S256x128
  shapeCasts_S256x128_S1x256x128 : S256x128.ShapeCasts S1x256x128
  packedbf16_S1x256x1024_S1x256x128_0_0_0 : (Rect.unit (s := S1x256x1024) ![0, 0, 0] S1x256x128.size inb_S1x256x1024_S1x256x128_0_0_0).PackedRows (EltTy.packing .bf16)
  slices_S256x1024_o0_128_S256x128 : S256x1024.Slices ![0, 128] S256x128
  slices_S2048x1024_o0_128_S2048x128 : S2048x1024.Slices ![0, 128] S2048x128
  inb_S1x256x1024_S1x256x128_0_0_128 : ∀ a, (![0, 0, 128] : Fin 3 → Nat) a + S1x256x128.size a ≤ S1x256x1024.size a
  packedbf16_S1x256x1024_S1x256x128_0_0_128 : (Rect.unit (s := S1x256x1024) ![0, 0, 128] S1x256x128.size inb_S1x256x1024_S1x256x128_0_0_128).PackedRows (EltTy.packing .bf16)
  slices_S256x1024_o0_256_S256x128 : S256x1024.Slices ![0, 256] S256x128
  slices_S2048x1024_o0_256_S2048x128 : S2048x1024.Slices ![0, 256] S2048x128
  inb_S1x256x1024_S1x256x128_0_0_256 : ∀ a, (![0, 0, 256] : Fin 3 → Nat) a + S1x256x128.size a ≤ S1x256x1024.size a
  packedbf16_S1x256x1024_S1x256x128_0_0_256 : (Rect.unit (s := S1x256x1024) ![0, 0, 256] S1x256x128.size inb_S1x256x1024_S1x256x128_0_0_256).PackedRows (EltTy.packing .bf16)
  slices_S256x1024_o0_384_S256x128 : S256x1024.Slices ![0, 384] S256x128
  slices_S2048x1024_o0_384_S2048x128 : S2048x1024.Slices ![0, 384] S2048x128
  inb_S1x256x1024_S1x256x128_0_0_384 : ∀ a, (![0, 0, 384] : Fin 3 → Nat) a + S1x256x128.size a ≤ S1x256x1024.size a
  packedbf16_S1x256x1024_S1x256x128_0_0_384 : (Rect.unit (s := S1x256x1024) ![0, 0, 384] S1x256x128.size inb_S1x256x1024_S1x256x128_0_0_384).PackedRows (EltTy.packing .bf16)
  slices_S256x1024_o0_512_S256x128 : S256x1024.Slices ![0, 512] S256x128
  slices_S2048x1024_o0_512_S2048x128 : S2048x1024.Slices ![0, 512] S2048x128
  inb_S1x256x1024_S1x256x128_0_0_512 : ∀ a, (![0, 0, 512] : Fin 3 → Nat) a + S1x256x128.size a ≤ S1x256x1024.size a
  packedbf16_S1x256x1024_S1x256x128_0_0_512 : (Rect.unit (s := S1x256x1024) ![0, 0, 512] S1x256x128.size inb_S1x256x1024_S1x256x128_0_0_512).PackedRows (EltTy.packing .bf16)
  slices_S256x1024_o0_640_S256x128 : S256x1024.Slices ![0, 640] S256x128
  slices_S2048x1024_o0_640_S2048x128 : S2048x1024.Slices ![0, 640] S2048x128
  inb_S1x256x1024_S1x256x128_0_0_640 : ∀ a, (![0, 0, 640] : Fin 3 → Nat) a + S1x256x128.size a ≤ S1x256x1024.size a
  packedbf16_S1x256x1024_S1x256x128_0_0_640 : (Rect.unit (s := S1x256x1024) ![0, 0, 640] S1x256x128.size inb_S1x256x1024_S1x256x128_0_0_640).PackedRows (EltTy.packing .bf16)
  slices_S256x1024_o0_768_S256x128 : S256x1024.Slices ![0, 768] S256x128
  slices_S2048x1024_o0_768_S2048x128 : S2048x1024.Slices ![0, 768] S2048x128
  inb_S1x256x1024_S1x256x128_0_0_768 : ∀ a, (![0, 0, 768] : Fin 3 → Nat) a + S1x256x128.size a ≤ S1x256x1024.size a
  packedbf16_S1x256x1024_S1x256x128_0_0_768 : (Rect.unit (s := S1x256x1024) ![0, 0, 768] S1x256x128.size inb_S1x256x1024_S1x256x128_0_0_768).PackedRows (EltTy.packing .bf16)
  slices_S256x1024_o0_896_S256x128 : S256x1024.Slices ![0, 896] S256x128
  slices_S2048x1024_o0_896_S2048x128 : S2048x1024.Slices ![0, 896] S2048x128
  inb_S1x256x1024_S1x256x128_0_0_896 : ∀ a, (![0, 0, 896] : Fin 3 → Nat) a + S1x256x128.size a ≤ S1x256x1024.size a
  packedbf16_S1x256x1024_S1x256x128_0_0_896 : (Rect.unit (s := S1x256x1024) ![0, 0, 896] S1x256x128.size inb_S1x256x1024_S1x256x128_0_0_896).PackedRows (EltTy.packing .bf16)
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  dot_S512x1024_S1024x3072_S512x3072_1_0_0_1_n_n_wf : DotDims.WF S512x1024 S1024x3072 S512x3072 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x1024.size a
  hwx0_3 : ∀ i : grid0.Coords, EltTy.bits .bf16 = 32 ∨ (Rect.block (s := S8192x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S4x2048x1024.size a
  hwx1_0 : ∀ i : grid1.Coords, EltTy.bits .bf16 = 32 ∨ (Rect.block (s := S4x2048x1024) S1x256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x1024.size a ≤ S4x2048x1024.size a
  hwx1_3 : ∀ i : grid1.Coords, EltTy.bits .bf16 = 32 ∨ (Rect.block (s := S4x2048x1024) S1x256x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S8192x1024.size a
  hwx2_3 : ∀ i : grid2.Coords, EltTy.bits .f32 = 32 ∨ (Rect.block (s := S8192x1024) S512x1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1024.size a ≤ S1x1024.size a
  hwx2_5 : ∀ i : grid2.Coords, EltTy.bits .f32 = 32 ∨ (Rect.block (s := S1x1024) S1x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1024.size a ≤ S8192x1024.size a
  hwx2_6 : ∀ i : grid2.Coords, EltTy.bits .f32 = 32 ∨ (Rect.block (s := S8192x1024) S512x1024.size (cc2_transform_6 i) (hinb2_6 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v5) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v7) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x2048x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x2048x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S512x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v15) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v16) S1x1024.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v17) S512x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩
abbrev S4x2048 : Shape := ⟨2, ![4, 2048]⟩
abbrev S4x2048x1 : Shape := ⟨3, ![4, 2048, 1]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x16x64, .f32⟩
  | .hbm, ⟨16, _⟩ => ⟨S4x16x2048x64, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x16x64, .f32⟩
  | .hbm, ⟨22, _⟩ => ⟨S4x16x2048x64, .f32⟩
  | .hbm, ⟨23, _⟩ => ⟨S4x2048x1024, .f32⟩
  | .hbm, ⟨24, _⟩ => ⟨S1x1x1024, .f32⟩
  | .hbm, ⟨25, _⟩ => ⟨S4x2048x1024, .f32⟩
  | .hbm, ⟨26, _⟩ => ⟨S4x2048x1024, .f32⟩
  | .hbm, ⟨27, _⟩ => ⟨S4x2048x16x64, .f32⟩
  | .hbm, ⟨28, _⟩ => ⟨S4x16x2048x64, .f32⟩
  | .hbm, ⟨29, _⟩ => ⟨S4x16x2048x2048, .f32⟩
  | .hbm, ⟨30, _⟩ => ⟨S_, .f32⟩
  | .hbm, ⟨31, _⟩ => ⟨S_, .f32⟩
  | .hbm, ⟨32, _⟩ => ⟨S4x16x2048x2048, .f32⟩
  | .hbm, ⟨33, _⟩ => ⟨S4x16x2048x2048, .f32⟩
  | .hbm, ⟨34, _⟩ => ⟨S_, .f32⟩
  | .hbm, ⟨35, _⟩ => ⟨S4x16x2048, .f32⟩
  | .hbm, ⟨36, _⟩ => ⟨S_, .f32⟩
  | .hbm, ⟨37, _⟩ => ⟨S4x16x2048, .f32⟩
  | .hbm, ⟨38, _⟩ => ⟨S4x16x2048, .f32⟩
  | .hbm, ⟨39, _⟩ => ⟨S4x16x2048x1, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .f32⟩
  | .hbm, ⟨43, _⟩ => ⟨S_, .f32⟩
  | .hbm, ⟨44, _⟩ => ⟨S4x16x2048, .f32⟩
  | .hbm, ⟨45, _⟩ => ⟨S4x16x2048x1, .f32⟩
  | .hbm, ⟨46, _⟩ => ⟨S4x16x2048x2048, .f32⟩
  | .hbm, ⟨47, _⟩ => ⟨S4x16x2048x2048, .f32⟩
  | .hbm, ⟨48, _⟩ => ⟨S4x16x2048x64, .f32⟩
  | .hbm, ⟨49, _⟩ => ⟨S4x2048x16x64, .f32⟩
  | .hbm, ⟨50, _⟩ => ⟨S4x2048x1024, .f32⟩
  | .hbm, ⟨51, _⟩ => ⟨S4x2048x1024, .f32⟩
  | .hbm, ⟨52, _⟩ => ⟨S1x1x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x1024, .f32⟩
  | .hbm, ⟨63, _⟩ => ⟨S4x2048x1024, .f32⟩
  | .hbm, ⟨64, _⟩ => ⟨S4x2048x1024, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x1024, .f32⟩
  | .hbm, ⟨72, _⟩ => ⟨S4x2048x1024, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S4x2048x1, .f32⟩
  | .hbm, ⟨77, _⟩ => ⟨S4x2048x1024, .f32⟩
  | .hbm, ⟨78, _⟩ => ⟨S4x2048x1024, .f32⟩
  | .hbm, ⟨79, _⟩ => ⟨S1x1x1024, .f32⟩
  | .hbm, ⟨80, _⟩ => ⟨S4x2048x1024, .f32⟩
  | .hbm, ⟨81, _⟩ => ⟨S4x2048x1024, .f32⟩
  | .hbm, ⟨82, _⟩ => ⟨S1x1x1024, .f32⟩
  | .hbm, ⟨83, _⟩ => ⟨S4x2048x1024, .f32⟩
  | .hbm, ⟨84, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_3 : Ref sig .tc := ⟨.hbm, 56, rfl⟩
abbrev main_v41 : Ref sig .tc := ⟨.hbm, 57, rfl⟩
abbrev main_v42 : Ref sig .tc := ⟨.hbm, 58, rfl⟩
abbrev main_cst_4 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_5 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  reducesTo_S4x2048x1024_S4x2048_d2 : S4x2048x1024.ReducesTo [2] S4x2048
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x1024_0_1_2 : S4x2048x1.BroadcastsInDim S4x2048x1024 (![0, 1, 2] : Fin 3 → Fin S4x2048x1024.rank)
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.KFrameDefs.lean ====
import proofs.«142345_j19559281066284_2_alg».proof.Proof.Gen.Kernel.Launch
import proofs.«142345_j19559281066284_2_alg».proof.Proof.Gen.Kernel.Skeleton
import proofs.«142345_j19559281066284_2_alg».proof.Proof.Gen.Kernel.Points
import proofs.«142345_j19559281066284_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at
variable (V : (c : Dev nD) → (b : Ref sig .tc) → Buf (Elt F) ((c : Thread nD τ).loc b))

/-! # REGION 0 of @main: custom_call 0 (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0

/-! ## What the body leaves in each output window's buffer -/

/-- Window 3's staging buffer after the body, from the input windows' blocks: its one store as a piece. -/
def out0_3 (x0 : Vec F S512x1024 .f32) (x1 : Vec F S1024x3072 .bf16) (x2 : Vec F S1x3072 .f32) : Vec F S512x1024 .bf16 :=
  View.canon [⟨r0_0, k0_pay2 (View.ld x0 r0_0) (View.ld x1 r0_1) (View.ld x2 r0_2)⟩]
/-- Window 4's staging buffer after the body. -/
def out0_4 (x0 : Vec F S512x1024 .f32) (x1 : Vec F S1024x3072 .bf16) (x2 : Vec F S1x3072 .f32) : Vec F S512x1024 .bf16 :=
  View.canon [⟨r0_0, k0_pay3 (View.ld x0 r0_0) (View.ld x1 r0_1) (View.ld x2 r0_2)⟩]
/-- Window 5's staging buffer after the body. -/
def out0_5 (x0 : Vec F S512x1024 .f32) (x1 : Vec F S1024x3072 .bf16) (x2 : Vec F S1x3072 .f32) : Vec F S512x1024 .bf16 :=
  View.canon [⟨r0_0, k0_pay4 (View.ld x0 r0_0) (View.ld x1 r0_1) (View.ld x2 r0_2)⟩]

/-! ## The pipeline's proof data -/

/-- The proof data of pipeline 0 on core `c`: the arrays as the region finds them (`V`); after the body at
    point `t` each input's buffer at its block and each output's at `out0_W` of the input blocks; the invariant
    holds the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! # REGION 1 of @main: custom_call 1 (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S1x256x1024 := Rect.unit (s := S1x256x1024) ![0, 0, 0] S1x256x1024.size inb_S1x256x1024_S1x256x1024_0_0_0
abbrev r1_1 : Rect S1x2048x1024 := Rect.unit (s := S1x2048x1024) ![0, 0, 0] S1x2048x1024.size inb_S1x2048x1024_S1x2048x1024_0_0_0
abbrev r1_c0 : Rect S1x256x1024 := Rect.unit (s := S1x256x1024) ![0, 0, 0] S1x256x128.size inb_S1x256x1024_S1x256x128_0_0_0
abbrev r1_c128 : Rect S1x256x1024 := Rect.unit (s := S1x256x1024) ![0, 0, 128] S1x256x128.size inb_S1x256x1024_S1x256x128_0_0_128
abbrev r1_c256 : Rect S1x256x1024 := Rect.unit (s := S1x256x1024) ![0, 0, 256] S1x256x128.size inb_S1x256x1024_S1x256x128_0_0_256
abbrev r1_c384 : Rect S1x256x1024 := Rect.unit (s := S1x256x1024) ![0, 0, 384] S1x256x128.size inb_S1x256x1024_S1x256x128_0_0_384
abbrev r1_c512 : Rect S1x256x1024 := Rect.unit (s := S1x256x1024) ![0, 0, 512] S1x256x128.size inb_S1x256x1024_S1x256x128_0_0_512
abbrev r1_c640 : Rect S1x256x1024 := Rect.unit (s := S1x256x1024) ![0, 0, 640] S1x256x128.size inb_S1x256x1024_S1x256x128_0_0_640
abbrev r1_c768 : Rect S1x256x1024 := Rect.unit (s := S1x256x1024) ![0, 0, 768] S1x256x128.size inb_S1x256x1024_S1x256x128_0_0_768
abbrev r1_c896 : Rect S1x256x1024 := Rect.unit (s := S1x256x1024) ![0, 0, 896] S1x256x128.size inb_S1x256x1024_S1x256x128_0_0_896

/-! ## What the body leaves in the output window's buffer -/

/-- Window 3's staging buffer after the body, from the input windows' blocks: its eight column stores as pieces,
    LAST FIRST; each payload over the loads as the body's parts hand them on. -/
def out1_3 (x0 : Vec F S1x256x1024 .bf16) (x1 x2 : Vec F S1x2048x1024 .bf16) : Vec F S1x256x1024 .bf16 :=
  View.canon [
    ⟨r1_c896, k1_pay1 (k1_pay34 (k1_pay2 (View.ld x0 r1_0))) (k1_pay35 (k1_pay3 (View.ld x1 r1_1))) (k1_pay36 (k1_pay4 (View.ld x2 r1_1))) (k1_pay37 (k1_pay4 (View.ld x2 r1_1))) (k1_pay38 (k1_pay2 (View.ld x0 r1_0)) (k1_pay3 (View.ld x1 r1_1)))⟩,
    ⟨r1_c768, k1_pay33 (k1_pay27 (k1_pay2 (View.ld x0 r1_0))) (k1_pay28 (k1_pay3 (View.ld x1 r1_1))) (k1_pay29 (k1_pay4 (View.ld x2 r1_1))) (k1_pay30 (k1_pay2 (View.ld x0 r1_0))) (k1_pay31 (k1_pay3 (View.ld x1 r1_1))) (k1_pay32 (k1_pay4 (View.ld x2 r1_1))) (constant S256x2048 .f32 0x00000000#32)⟩,
    ⟨r1_c640, k1_pay26 (k1_pay23 (k1_pay2 (View.ld x0 r1_0))) (k1_pay24 (k1_pay3 (View.ld x1 r1_1))) (k1_pay25 (k1_pay4 (View.ld x2 r1_1)))⟩,
    ⟨r1_c512, k1_pay22 (k1_pay2 (View.ld x0 r1_0)) (k1_pay3 (View.ld x1 r1_1)) (k1_pay4 (View.ld x2 r1_1))⟩,
    ⟨r1_c384, k1_pay21 (k1_pay2 (View.ld x0 r1_0)) (k1_pay3 (View.ld x1 r1_1)) (k1_pay4 (View.ld x2 r1_1))⟩,
    ⟨r1_c256, k1_pay20 (k1_pay19 (k1_pay2 (View.ld x0 r1_0)) (k1_pay3 (View.ld x1 r1_1)) (k1_pay4 (View.ld x2 r1_1)))⟩,
    ⟨r1_c128, k1_pay18 (k1_pay16 (k1_pay2 (View.ld x0 r1_0)) (k1_pay3 (View.ld x1 r1_1)) (k1_pay4 (View.ld x2 r1_1))) (k1_pay17 (k1_pay2 (View.ld x0 r1_0)) (k1_pay3 (View.ld x1 r1_1)) (k1_pay4 (View.ld x2 r1_1)))⟩,
    ⟨r1_c0, k1_pay12 (k1_pay8 (View.ld x0 r1_0) (View.ld x1 r1_1) (View.ld x2 r1_1)) (k1_pay9 (View.ld x2 r1_1)) (k1_pay10 (View.ld x0 r1_0) (View.ld x1 r1_1)) (k1_pay11 (View.ld x0 r1_0) (View.ld x1 r1_1))⟩]

/-! ## The pipeline's proof data -/

/-- The proof data of pipeline 1 on core `c`: the arrays as the region finds them (`V`); after the body at
    point `t` each input's buffer at its block and each output's at `out1_W` of the input blocks; the invariant
    holds the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! # REGION 2 of @main: custom_call 2 (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output window's buffer -/

/-- Window 6's staging buffer after the body, from the input windows' blocks: its one store as a piece. -/
def out2_6 (x0 : Vec F S512x1024 .bf16) (x1 : Vec F S1024x1024 .bf16) (x2 : Vec F S1x1024 .f32) (x3 : Vec F S512x1024 .f32) (x4 x5 : Vec F S1x1024 .f32) : Vec F S512x1024 .f32 :=
  View.canon [⟨r2_0, k2_pay1 (View.ld x0 r2_0) (View.ld x1 r2_1) (View.ld x2 r2_2) (View.ld x3 r2_0) (View.ld x4 r2_2) (View.ld x5 r2_2)⟩]

/-! ## The pipeline's proof data -/

/-- The proof data of pipeline 2 on core `c`: the arrays as the region finds them (`V`); after the body at
    point `t` each input's buffer at its block and each output's at `out2_W` of the input blocks; the invariant
    holds the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

end Regions

/-! # The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)

/-! ## The proof data family -/

/-- Every pipeline's proof data, each at its region's entry contents — a literal `match` on the pipeline. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

end Cert.Kernel.Fr

end
-- ==== Proof.KFrameR0.lean ====
import proofs.«142345_j19559281066284_2_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 0 of @main: custom_call 0 (pipeline 0), at the entry contents `V` -/

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The stores cover each output window's buffer -/

/-- Its stores tile the buffer (checked by evaluation), so they cover it. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Its stores tile the buffer (checked by evaluation), so they cover it. -/
theorem cover0_4 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Its stores tile the buffer (checked by evaluation), so they cover it. -/
theorem cover0_5 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 2000000 in
/-- The kernel body on whole staging memrefs, the inputs' at read contents `xW` and the outputs' at anything, runs to
    the continuation holding the inputs' as they were and each output's at `out0_W` of the inputs': the printed
    functions are their skeletons, run symbolically through every part call. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## Each input's buffer before the body -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.KFrameR1.lean ====
import proofs.«142345_j19559281066284_2_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 1 of @main: custom_call 1 (pipeline 1), at the entry contents `V` -/

/-- Input window 0's current staging buffer holds its block at every point, fetched there or not, for ANY proof
    data whose array is `V`'s (`hA`) and whose body leaves the block in place (`hafter`): unfetched, the index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The stores cover each output window's buffer -/

/-- Its stores tile the buffer (checked by evaluation), so they cover it. -/
theorem cover1_3 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S1x256x1024.Idx) :
    ∃ pc ∈ ([⟨r1_c896, p0⟩, ⟨r1_c768, p1⟩, ⟨r1_c640, p2⟩, ⟨r1_c512, p3⟩, ⟨r1_c384, p4⟩, ⟨r1_c256, p5⟩, ⟨r1_c128, p6⟩, ⟨r1_c0, p7⟩] : List (View.Piece (Elt F) S1x256x1024 .bf16)), y ∈ pc.1.set :=
  View.cover_of_tiled [⟨r1_c896, p0⟩, ⟨r1_c768, p1⟩, ⟨r1_c640, p2⟩, ⟨r1_c512, p3⟩, ⟨r1_c384, p4⟩, ⟨r1_c256, p5⟩, ⟨r1_c128, p6⟩, ⟨r1_c0, p7⟩] S1x256x128.size (by rfl) y

/-! ## The body's triple -/

set_option maxHeartbeats 8000000 in
/-- The kernel body on whole staging memrefs, the inputs' at read contents `xW` and the outputs' at anything, runs to
    the continuation holding the inputs' as they were and each output's at `out1_W` of the inputs': the printed
    functions are their skeletons, run symbolically through every part call. -/
theorem sound_kernel1 (c : Dev nD) (E : Set ℕ) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole)
    (x0 : Vec F S1x256x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _ _ _ _ _ _ _)

/-! ## Each input's buffer before the body -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Fr

end
-- ==== Proof.KFrameR2.lean ====
import proofs.«142345_j19559281066284_2_alg».proof.Proof.KFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 2 of @main: custom_call 2 (pipeline 2), at the entry contents `V` -/

/-- Input window 0's current staging buffer holds its block at every point, fetched there or not, for ANY proof
    data whose array is `V`'s (`hA`) and whose body leaves the block in place (`hafter`): unfetched, the index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof
    data whose array is `V`'s (`hA`) and whose body leaves the block in place (`hafter`): unfetched, the index has
    not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof
    data whose array is `V`'s (`hA`) and whose body leaves the block in place (`hafter`): unfetched, the index has
    not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for ANY proof
    data whose array is `V`'s (`hA`) and whose body leaves the block in place (`hafter`): unfetched, the index has
    not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The stores cover each output window's buffer -/

/-- Its stores tile the buffer (checked by evaluation), so they cover it. -/
theorem cover2_6 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 2000000 in
/-- The kernel body on whole staging memrefs, the inputs' at read contents `xW` and the outputs' at anything, runs to
    the continuation holding the inputs' as they were and each output's at `out2_W` of the inputs': the printed
    functions are their skeletons, run symbolically through every part call. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole)
    (x0 : Vec F S512x1024 .bf16) (x1 : Vec F S1024x1024 .bf16) (x2 : Vec F S1x1024 .f32) (x3 : Vec F S512x1024 .f32) (x4 : Vec F S1x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__outproj_ln_kernel i arg1 harg1 arg2 harg2 arg3 harg3 arg4 harg4 arg5 harg5 arg6 harg6 arg7 harg7) K := by
  simp only [cc2__outproj_ln_kernel_eq_skeleton]; unfold cc2__outproj_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## Each input's buffer before the body -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr

end
-- ==== Proof.KFrameRun.lean ====
import proofs.«142345_j19559281066284_2_alg».proof.Proof.KFrameR0
import proofs.«142345_j19559281066284_2_alg».proof.Proof.KFrameR1
import proofs.«142345_j19559281066284_2_alg».proof.Proof.KFrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched: no host operation writes one and no region has one among its arrays, so the
    fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide : main_arg8 ∉ hostOps3_W)
    _ = W5 m ρ c (Proc.devRef .tc main_arg8) := W6_of_ne m ρ c main_arg8 (by decide)
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide : main_arg9 ∉ hostOps3_W)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide : main_arg10 ∉ hostOps3_W)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`.
    Its arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`.
    Its arrays split out of the unscoped buffers and put back at the exit contents; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`.
    Its arrays split out of the unscoped buffers and put back at the exit contents; the generator register into the
    class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per custom_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state every unscoped buffer holds the fold's last
    contents `W7`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every final state has the argument arrays as launched — each argument's buffer is unscoped, so `run_all`
    gives its final contents as `W7`'s, which walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩) (run_all m ρ)

end Cert.Kernel.Fr

end
-- ==== Proof.IFrameDefs.lean ====
import proofs.«142345_j19559281066284_2_alg».proof.Proof.Gen.KernelIdeal.Launch
import proofs.«142345_j19559281066284_2_alg».proof.Proof.Gen.KernelIdeal.Skeleton
import proofs.«142345_j19559281066284_2_alg».proof.Proof.Gen.KernelIdeal.Points
import proofs.«142345_j19559281066284_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at
variable (V : (c : Dev nD) → (b : Ref sig .tc) → Buf (Elt F) ((c : Thread nD τ).loc b))

/-! # REGION 0 of @main: custom_call 0 (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S1x3072 := Rect.unit (s := S1x3072) ![0, 0] S1x3072.size inb_S1x3072_S1x3072_0_0

/-! ## What the body leaves in each output window's buffer -/

/-- Window 3's staging buffer after the body, from the input windows' blocks: its one store as a piece. -/
def out0_3 (x0 : Vec F S512x1024 .f32) (x1 : Vec F S1024x3072 .bf16) (x2 : Vec F S1x3072 .f32) : Vec F S512x1024 .bf16 :=
  View.canon [⟨r0_0, k0_pay2 (View.ld x0 r0_0) (View.ld x1 r0_1) (View.ld x2 r0_2)⟩]
/-- Window 4's staging buffer after the body. -/
def out0_4 (x0 : Vec F S512x1024 .f32) (x1 : Vec F S1024x3072 .bf16) (x2 : Vec F S1x3072 .f32) : Vec F S512x1024 .bf16 :=
  View.canon [⟨r0_0, k0_pay3 (View.ld x0 r0_0) (View.ld x1 r0_1) (View.ld x2 r0_2)⟩]
/-- Window 5's staging buffer after the body. -/
def out0_5 (x0 : Vec F S512x1024 .f32) (x1 : Vec F S1024x3072 .bf16) (x2 : Vec F S1x3072 .f32) : Vec F S512x1024 .bf16 :=
  View.canon [⟨r0_0, k0_pay4 (View.ld x0 r0_0) (View.ld x1 r0_1) (View.ld x2 r0_2)⟩]

/-! ## The pipeline's proof data -/

/-- The proof data of pipeline 0 on core `c`: the arrays as the region finds them (`V`); after the body at
    point `t` each input's buffer at its block and each output's at `out0_W` of the input blocks; the invariant
    holds the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]
theorem after0_5 (c : Dev nD) (t : Fin cfg0.N) : (dat0 V c).after 5 t = out0_5 (iblk0 V c 0 t) (iblk0 V c 1 t) (iblk0 V c 2 t) := by dsimp only [dat0]

/-! # REGION 1 of @main: custom_call 1 (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S1x256x1024 := Rect.unit (s := S1x256x1024) ![0, 0, 0] S1x256x1024.size inb_S1x256x1024_S1x256x1024_0_0_0
abbrev r1_1 : Rect S1x2048x1024 := Rect.unit (s := S1x2048x1024) ![0, 0, 0] S1x2048x1024.size inb_S1x2048x1024_S1x2048x1024_0_0_0
abbrev r1_c0 : Rect S1x256x1024 := Rect.unit (s := S1x256x1024) ![0, 0, 0] S1x256x128.size inb_S1x256x1024_S1x256x128_0_0_0
abbrev r1_c128 : Rect S1x256x1024 := Rect.unit (s := S1x256x1024) ![0, 0, 128] S1x256x128.size inb_S1x256x1024_S1x256x128_0_0_128
abbrev r1_c256 : Rect S1x256x1024 := Rect.unit (s := S1x256x1024) ![0, 0, 256] S1x256x128.size inb_S1x256x1024_S1x256x128_0_0_256
abbrev r1_c384 : Rect S1x256x1024 := Rect.unit (s := S1x256x1024) ![0, 0, 384] S1x256x128.size inb_S1x256x1024_S1x256x128_0_0_384
abbrev r1_c512 : Rect S1x256x1024 := Rect.unit (s := S1x256x1024) ![0, 0, 512] S1x256x128.size inb_S1x256x1024_S1x256x128_0_0_512
abbrev r1_c640 : Rect S1x256x1024 := Rect.unit (s := S1x256x1024) ![0, 0, 640] S1x256x128.size inb_S1x256x1024_S1x256x128_0_0_640
abbrev r1_c768 : Rect S1x256x1024 := Rect.unit (s := S1x256x1024) ![0, 0, 768] S1x256x128.size inb_S1x256x1024_S1x256x128_0_0_768
abbrev r1_c896 : Rect S1x256x1024 := Rect.unit (s := S1x256x1024) ![0, 0, 896] S1x256x128.size inb_S1x256x1024_S1x256x128_0_0_896

/-! ## What the body leaves in the output window's buffer -/

/-- Window 3's staging buffer after the body, from the input windows' blocks: its eight column stores as pieces,
    LAST FIRST; each payload over the loads as the body's parts hand them on. -/
def out1_3 (x0 : Vec F S1x256x1024 .bf16) (x1 x2 : Vec F S1x2048x1024 .bf16) : Vec F S1x256x1024 .bf16 :=
  View.canon [
    ⟨r1_c896, k1_pay1 (k1_pay34 (k1_pay2 (View.ld x0 r1_0))) (k1_pay35 (k1_pay3 (View.ld x1 r1_1))) (k1_pay36 (k1_pay4 (View.ld x2 r1_1))) (k1_pay37 (k1_pay4 (View.ld x2 r1_1))) (k1_pay38 (k1_pay2 (View.ld x0 r1_0)) (k1_pay3 (View.ld x1 r1_1)))⟩,
    ⟨r1_c768, k1_pay33 (k1_pay27 (k1_pay2 (View.ld x0 r1_0))) (k1_pay28 (k1_pay3 (View.ld x1 r1_1))) (k1_pay29 (k1_pay4 (View.ld x2 r1_1))) (k1_pay30 (k1_pay2 (View.ld x0 r1_0))) (k1_pay31 (k1_pay3 (View.ld x1 r1_1))) (k1_pay32 (k1_pay4 (View.ld x2 r1_1))) (constant S256x2048 .f32 0x00000000#32)⟩,
    ⟨r1_c640, k1_pay26 (k1_pay23 (k1_pay2 (View.ld x0 r1_0))) (k1_pay24 (k1_pay3 (View.ld x1 r1_1))) (k1_pay25 (k1_pay4 (View.ld x2 r1_1)))⟩,
    ⟨r1_c512, k1_pay22 (k1_pay2 (View.ld x0 r1_0)) (k1_pay3 (View.ld x1 r1_1)) (k1_pay4 (View.ld x2 r1_1))⟩,
    ⟨r1_c384, k1_pay21 (k1_pay2 (View.ld x0 r1_0)) (k1_pay3 (View.ld x1 r1_1)) (k1_pay4 (View.ld x2 r1_1))⟩,
    ⟨r1_c256, k1_pay20 (k1_pay19 (k1_pay2 (View.ld x0 r1_0)) (k1_pay3 (View.ld x1 r1_1)) (k1_pay4 (View.ld x2 r1_1)))⟩,
    ⟨r1_c128, k1_pay18 (k1_pay16 (k1_pay2 (View.ld x0 r1_0)) (k1_pay3 (View.ld x1 r1_1)) (k1_pay4 (View.ld x2 r1_1))) (k1_pay17 (k1_pay2 (View.ld x0 r1_0)) (k1_pay3 (View.ld x1 r1_1)) (k1_pay4 (View.ld x2 r1_1)))⟩,
    ⟨r1_c0, k1_pay12 (k1_pay8 (View.ld x0 r1_0) (View.ld x1 r1_1) (View.ld x2 r1_1)) (k1_pay9 (View.ld x2 r1_1)) (k1_pay10 (View.ld x0 r1_0) (View.ld x1 r1_1)) (k1_pay11 (View.ld x0 r1_0) (View.ld x1 r1_1))⟩]

/-! ## The pipeline's proof data -/

/-- The proof data of pipeline 1 on core `c`: the arrays as the region finds them (`V`); after the body at
    point `t` each input's buffer at its block and each output's at `out1_W` of the input blocks; the invariant
    holds the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! # REGION 2 of @main: custom_call 2 (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses -/

abbrev r2_0 : Rect S512x1024 := Rect.unit (s := S512x1024) ![0, 0] S512x1024.size inb_S512x1024_S512x1024_0_0
abbrev r2_1 : Rect S1024x1024 := Rect.unit (s := S1024x1024) ![0, 0] S1024x1024.size inb_S1024x1024_S1024x1024_0_0
abbrev r2_2 : Rect S1x1024 := Rect.unit (s := S1x1024) ![0, 0] S1x1024.size inb_S1x1024_S1x1024_0_0

/-! ## What the body leaves in the output window's buffer -/

/-- Window 6's staging buffer after the body, from the input windows' blocks: its one store as a piece. -/
def out2_6 (x0 : Vec F S512x1024 .bf16) (x1 : Vec F S1024x1024 .bf16) (x2 : Vec F S1x1024 .f32) (x3 : Vec F S512x1024 .f32) (x4 x5 : Vec F S1x1024 .f32) : Vec F S512x1024 .f32 :=
  View.canon [⟨r2_0, k2_pay1 (View.ld x0 r2_0) (View.ld x1 r2_1) (View.ld x2 r2_2) (View.ld x3 r2_0) (View.ld x4 r2_2) (View.ld x5 r2_2)⟩]

/-! ## The pipeline's proof data -/

/-- The proof data of pipeline 2 on core `c`: the arrays as the region finds them (`V`); after the body at
    point `t` each input's buffer at its block and each output's at `out2_W` of the input blocks; the invariant
    holds the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

end Regions

/-! # The buffer contents at each segment boundary: a fold through @main -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`). -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`). -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (the return). -/
abbrev W7 : Dev nD → Valuation τ sig (Elt F) := fun c => StableHlo.after hostOps3 (W6 m ρ c)

/-! ## The proof data family -/

/-- Every pipeline's proof data, each at its region's entry contents — a literal `match` on the pipeline. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c

end Cert.KernelIdeal.Fr

end
-- ==== Proof.IFrameR0.lean ====
import proofs.«142345_j19559281066284_2_alg».proof.Proof.IFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 0 of @main: custom_call 0 (pipeline 0), at the entry contents `V` -/

/-- Input window 0's current staging buffer holds its block at every point, fetched there or not, for ANY proof
    data whose array is `V`'s (`hA`) and whose body leaves the block in place (`hafter`): unfetched, the index has
    not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for ANY proof
    data whose array is `V`'s (`hA`) and whose body leaves the block in place (`hafter`): unfetched, the index has
    not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for ANY proof
    data whose array is `V`'s (`hA`) and whose body leaves the block in place (`hafter`): unfetched, the index has
    not moved; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The stores cover each output window's buffer -/

/-- Its stores tile the buffer (checked by evaluation), so they cover it. -/
theorem cover0_3 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Its stores tile the buffer (checked by evaluation), so they cover it. -/
theorem cover0_4 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-- Its stores tile the buffer (checked by evaluation), so they cover it. -/
theorem cover0_5 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 2000000 in
/-- The kernel body on whole staging memrefs, the inputs' at read contents `xW` and the outputs' at anything, runs to
    the continuation holding the inputs' as they were and each output's at `out0_W` of the inputs': the printed
    functions are their skeletons, run symbolically through every part call. -/
theorem sound_kernel0 (c : Dev nD) (E : Set ℕ) (i : grid0.Coords) (arg1 : Memref sig .tc .vmem S512x1024 .f32) (harg1 : arg1.IsWhole) (arg2 : Memref sig .tc .vmem S1024x3072 .bf16) (harg2 : arg2.IsWhole) (arg3 : Memref sig .tc .vmem S1x3072 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole)
    (x0 : Vec F S512x1024 .f32) (x1 : Vec F S1024x3072 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2) ∗ owns (c : Thread nD τ) arg6 fullShare (out0_5 x0 x1 x2)) -∗ K ⟨⟩))
      ⊢ wp frame (wpE (defs₀ (F := F)) Variants.none c none) E (cc0__qkv_kernel i arg1 harg1 arg2 harg2 arg3 harg3 arg4 harg4 arg5 harg5 arg6 harg6) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-! ## Each input's buffer before the body -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.IFrameR1.lean ====
import proofs.«142345_j19559281066284_2_alg».proof.Proof.IFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 1 of @main: custom_call 1 (pipeline 1), at the entry contents `V` -/

/-- Input window 0's current staging buffer holds its block at every point, fetched there or not, for ANY proof
    data whose array is `V`'s (`hA`) and whose body leaves the block in place (`hafter`): unfetched, the index has
    not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for ANY proof
    data whose array is `V`'s (`hA`) and whose body leaves the block in place (`hafter`): unfetched, the index has
    not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for ANY proof
    data whose array is `V`'s (`hA`) and whose body leaves the block in place (`hafter`): unfetched, the index has
    not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The stores cover each output window's buffer -/

/-- Its stores tile the buffer (checked by evaluation), so they cover it. -/
theorem cover1_3 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S1x256x1024.Idx) :
    ∃ pc ∈ ([⟨r1_c896, p0⟩, ⟨r1_c768, p1⟩, ⟨r1_c640, p2⟩, ⟨r1_c512, p3⟩, ⟨r1_c384, p4⟩, ⟨r1_c256, p5⟩, ⟨r1_c128, p6⟩, ⟨r1_c0, p7⟩] : List (View.Piece (Elt F) S1x256x1024 .bf16)), y ∈ pc.1.set :=
  View.cover_of_tiled [⟨r1_c896, p0⟩, ⟨r1_c768, p1⟩, ⟨r1_c640, p2⟩, ⟨r1_c512, p3⟩, ⟨r1_c384, p4⟩, ⟨r1_c256, p5⟩, ⟨r1_c128, p6⟩, ⟨r1_c0, p7⟩] S1x256x128.size (by rfl) y

/-! ## The body's triple -/

set_option maxHeartbeats 8000000 in
/-- The kernel body on whole staging memrefs, the inputs' at read contents `xW` and the outputs' at anything, runs to
    the continuation holding the inputs' as they were and each output's at `out1_W` of the inputs': the printed
    functions are their skeletons, run symbolically through every part call. -/
theorem sound_kernel1 (c : Dev nD) (E : Set ℕ) (i : grid1.Coords) (arg2 : Memref sig .tc .vmem S1x256x1024 .bf16) (harg2 : arg2.IsWhole) (arg3 : Memref sig .tc .vmem S1x2048x1024 .bf16) (harg3 : arg3.IsWhole) (arg4 : Memref sig .tc .vmem S1x2048x1024 .bf16) (harg4 : arg4.IsWhole) (arg5 : Memref sig .tc .vmem S1x256x1024 .bf16) (harg5 : arg5.IsWhole)
    (x0 : Vec F S1x256x1024 .bf16) (x1 : Vec F S1x2048x1024 .bf16) (x2 : Vec F S1x2048x1024 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out1_3 x0 x1 x2)) -∗ K ⟨⟩))
      ⊢ wp frame (wpE (defs₀ (F := F)) Variants.none c none) E (cc1__attn_kernel i arg2 harg2 arg3 harg3 arg4 harg4 arg5 harg5) K := by
  simp only [cc1__attn_kernel_eq_skeleton]; unfold cc1__attn_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover1_3 _ _ _ _ _ _ _ _)

/-! ## Each input's buffer before the body -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Fr

end
-- ==== Proof.IFrameR2.lean ====
import proofs.«142345_j19559281066284_2_alg».proof.Proof.IFrameDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! # REGION 2 of @main: custom_call 2 (pipeline 2), at the entry contents `V` -/

/-- Input window 0's current staging buffer holds its block at every point, fetched there or not, for ANY proof
    data whose array is `V`'s (`hA`) and whose body leaves the block in place (`hafter`): unfetched, the index has
    not moved; the window is uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for ANY proof
    data whose array is `V`'s (`hA`) and whose body leaves the block in place (`hafter`): unfetched, the index has
    not moved; the window is uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for ANY proof
    data whose array is `V`'s (`hA`) and whose body leaves the block in place (`hafter`): unfetched, the index has
    not moved; the window is uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for ANY proof
    data whose array is `V`'s (`hA`) and whose body leaves the block in place (`hafter`): unfetched, the index has
    not moved; the window is uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for ANY proof
    data whose array is `V`'s (`hA`) and whose body leaves the block in place (`hafter`): unfetched, the index has
    not moved; the window is uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for ANY proof
    data whose array is `V`'s (`hA`) and whose body leaves the block in place (`hafter`): unfetched, the index has
    not moved; the window is uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The stores cover each output window's buffer -/

/-- Its stores tile the buffer (checked by evaluation), so they cover it. -/
theorem cover2_6 (p0 : Vec F S512x1024 .f32) (y : S512x1024.Idx) :
    ∃ pc ∈ ([⟨r2_0, p0⟩] : List (View.Piece (Elt F) S512x1024 .f32)), y ∈ pc.1.set :=
  View.cover_of_tiled [⟨r2_0, p0⟩] S512x1024.size (by rfl) y

/-! ## The body's triple -/

set_option maxHeartbeats 2000000 in
/-- The kernel body on whole staging memrefs, the inputs' at read contents `xW` and the outputs' at anything, runs to
    the continuation holding the inputs' as they were and each output's at `out2_W` of the inputs': the printed
    functions are their skeletons, run symbolically through every part call. -/
theorem sound_kernel2 (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S512x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole)
    (x0 : Vec F S512x1024 .bf16) (x1 : Vec F S1024x1024 .bf16) (x2 : Vec F S1x1024 .f32) (x3 : Vec F S512x1024 .f32) (x4 : Vec F S1x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out2_6 x0 x1 x2 x3 x4 x5)) -∗ K ⟨⟩))
      ⊢ wp frame (wpE (defs₀ (F := F)) Variants.none c none) E (cc2__outproj_ln_kernel i arg1 harg1 arg2 harg2 arg3 harg3 arg4 harg4 arg5 harg5 arg6 harg6 arg7 harg7) K := by
  simp only [cc2__outproj_ln_kernel_eq_skeleton]; unfold cc2__outproj_ln_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## Each input's buffer before the body -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr

end
-- ==== Proof.IFrameRun.lean ====
import proofs.«142345_j19559281066284_2_alg».proof.Proof.IFrameR0
import proofs.«142345_j19559281066284_2_alg».proof.Proof.IFrameR1
import proofs.«142345_j19559281066284_2_alg».proof.Proof.IFrameR2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full-size extents: the elaborator's structural look recurses once per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The arguments end as launched: no host operation writes one and no region has one among its arrays, so the
    fold at an argument's buffer walks back to the launch memory -/

theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := StableHlo.after_of_writes_sub hostOps3 _ hostOps3_writes (by decide : main_arg0 ∉ hostOps3_W)
    _ = W5 m ρ c (Proc.devRef .tc main_arg0) := W6_of_ne m ρ c main_arg0 (by decide)
    _ = W4 m ρ c (Proc.devRef .tc main_arg0) := StableHlo.after_of_writes_sub hostOps2 _ hostOps2_writes (by decide : main_arg0 ∉ hostOps2_W)
    _ = W3 m ρ c (Proc.devRef .tc main_arg0) := W4_of_ne m ρ c main_arg0 (by decide)
    _ = W2 m ρ c (Proc.devRef .tc main_arg0) := StableHlo.after_of_writes_sub hostOps1 _ hostOps1_writes (by decide : main_arg0 ∉ hostOps1_W)
    _ = W1 m ρ c (Proc.devRef .tc main_arg0) := W2_of_ne m ρ c main_arg0 (by decide)
    _ = W0 m ρ c (Proc.devRef .tc main_arg0) := StableHlo.after_of_writes_sub hostOps0 _ hostOps0_writes (by decide : main_arg0 ∉ hostOps0_W)
    _ = m ((c : Thread nD τ).loc main_arg0) := rfl

theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := StableHlo.after_of_writes_sub hostOps3 _ hostOps3_writes (by decide : main_arg1 ∉ hostOps3_W)
    _ = W5 m ρ c (Proc.devRef .tc main_arg1) := W6_of_ne m ρ c main_arg1 (by decide)
    _ = W4 m ρ c (Proc.devRef .tc main_arg1) := StableHlo.after_of_writes_sub hostOps2 _ hostOps2_writes (by decide : main_arg1 ∉ hostOps2_W)
    _ = W3 m ρ c (Proc.devRef .tc main_arg1) := W4_of_ne m ρ c main_arg1 (by decide)
    _ = W2 m ρ c (Proc.devRef .tc main_arg1) := StableHlo.after_of_writes_sub hostOps1 _ hostOps1_writes (by decide : main_arg1 ∉ hostOps1_W)
    _ = W1 m ρ c (Proc.devRef .tc main_arg1) := W2_of_ne m ρ c main_arg1 (by decide)
    _ = W0 m ρ c (Proc.devRef .tc main_arg1) := StableHlo.after_of_writes_sub hostOps0 _ hostOps0_writes (by decide : main_arg1 ∉ hostOps0_W)
    _ = m ((c : Thread nD τ).loc main_arg1) := rfl

theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := StableHlo.after_of_writes_sub hostOps3 _ hostOps3_writes (by decide : main_arg2 ∉ hostOps3_W)
    _ = W5 m ρ c (Proc.devRef .tc main_arg2) := W6_of_ne m ρ c main_arg2 (by decide)
    _ = W4 m ρ c (Proc.devRef .tc main_arg2) := StableHlo.after_of_writes_sub hostOps2 _ hostOps2_writes (by decide : main_arg2 ∉ hostOps2_W)
    _ = W3 m ρ c (Proc.devRef .tc main_arg2) := W4_of_ne m ρ c main_arg2 (by decide)
    _ = W2 m ρ c (Proc.devRef .tc main_arg2) := StableHlo.after_of_writes_sub hostOps1 _ hostOps1_writes (by decide : main_arg2 ∉ hostOps1_W)
    _ = W1 m ρ c (Proc.devRef .tc main_arg2) := W2_of_ne m ρ c main_arg2 (by decide)
    _ = W0 m ρ c (Proc.devRef .tc main_arg2) := StableHlo.after_of_writes_sub hostOps0 _ hostOps0_writes (by decide : main_arg2 ∉ hostOps0_W)
    _ = m ((c : Thread nD τ).loc main_arg2) := rfl

theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := StableHlo.after_of_writes_sub hostOps3 _ hostOps3_writes (by decide : main_arg3 ∉ hostOps3_W)
    _ = W5 m ρ c (Proc.devRef .tc main_arg3) := W6_of_ne m ρ c main_arg3 (by decide)
    _ = W4 m ρ c (Proc.devRef .tc main_arg3) := StableHlo.after_of_writes_sub hostOps2 _ hostOps2_writes (by decide : main_arg3 ∉ hostOps2_W)
    _ = W3 m ρ c (Proc.devRef .tc main_arg3) := W4_of_ne m ρ c main_arg3 (by decide)
    _ = W2 m ρ c (Proc.devRef .tc main_arg3) := StableHlo.after_of_writes_sub hostOps1 _ hostOps1_writes (by decide : main_arg3 ∉ hostOps1_W)
    _ = W1 m ρ c (Proc.devRef .tc main_arg3) := W2_of_ne m ρ c main_arg3 (by decide)
    _ = W0 m ρ c (Proc.devRef .tc main_arg3) := StableHlo.after_of_writes_sub hostOps0 _ hostOps0_writes (by decide : main_arg3 ∉ hostOps0_W)
    _ = m ((c : Thread nD τ).loc main_arg3) := rfl

theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := StableHlo.after_of_writes_sub hostOps3 _ hostOps3_writes (by decide : main_arg4 ∉ hostOps3_W)
    _ = W5 m ρ c (Proc.devRef .tc main_arg4) := W6_of_ne m ρ c main_arg4 (by decide)
    _ = W4 m ρ c (Proc.devRef .tc main_arg4) := StableHlo.after_of_writes_sub hostOps2 _ hostOps2_writes (by decide : main_arg4 ∉ hostOps2_W)
    _ = W3 m ρ c (Proc.devRef .tc main_arg4) := W4_of_ne m ρ c main_arg4 (by decide)
    _ = W2 m ρ c (Proc.devRef .tc main_arg4) := StableHlo.after_of_writes_sub hostOps1 _ hostOps1_writes (by decide : main_arg4 ∉ hostOps1_W)
    _ = W1 m ρ c (Proc.devRef .tc main_arg4) := W2_of_ne m ρ c main_arg4 (by decide)
    _ = W0 m ρ c (Proc.devRef .tc main_arg4) := StableHlo.after_of_writes_sub hostOps0 _ hostOps0_writes (by decide : main_arg4 ∉ hostOps0_W)
    _ = m ((c : Thread nD τ).loc main_arg4) := rfl

theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := StableHlo.after_of_writes_sub hostOps3 _ hostOps3_writes (by decide : main_arg5 ∉ hostOps3_W)
    _ = W5 m ρ c (Proc.devRef .tc main_arg5) := W6_of_ne m ρ c main_arg5 (by decide)
    _ = W4 m ρ c (Proc.devRef .tc main_arg5) := StableHlo.after_of_writes_sub hostOps2 _ hostOps2_writes (by decide : main_arg5 ∉ hostOps2_W)
    _ = W3 m ρ c (Proc.devRef .tc main_arg5) := W4_of_ne m ρ c main_arg5 (by decide)
    _ = W2 m ρ c (Proc.devRef .tc main_arg5) := StableHlo.after_of_writes_sub hostOps1 _ hostOps1_writes (by decide : main_arg5 ∉ hostOps1_W)
    _ = W1 m ρ c (Proc.devRef .tc main_arg5) := W2_of_ne m ρ c main_arg5 (by decide)
    _ = W0 m ρ c (Proc.devRef .tc main_arg5) := StableHlo.after_of_writes_sub hostOps0 _ hostOps0_writes (by decide : main_arg5 ∉ hostOps0_W)
    _ = m ((c : Thread nD τ).loc main_arg5) := rfl

theorem W7_main_arg6 (c : Dev nD) : W7 m ρ c (Proc.devRef .tc main_arg6) = m ((c : Thread nD τ).loc main_arg6) :=
  calc W7 m ρ c (Proc.devRef .tc main_arg6)
    _ = W6 m ρ c (Proc.devRef .tc main_arg6) := StableHlo.after_of_writes_sub hostOps3 _ hostOps3_writes (by decide : main_arg6 ∉ hostOps3_W)
    _ = W5 m ρ c (Proc.devRef .tc main_arg6) := W6_of_ne m ρ c main_arg6 (by decide)
    _ = W4 m ρ c (Proc.devRef .tc main_arg6) := StableHlo.after_of_writes_sub hostOps2 _ hostOps2_writes (by decide : main_arg6 ∉ hostOps2_W)
    _ = W3 m ρ c (Proc.devRef .tc main_arg6) := W4_of_ne m ρ c main_arg6 (by decide)
    _ = W2 m ρ c (Proc.devRef .tc main_arg6) := StableHlo.after_of_writes_sub hostOps1 _ hostOps1_writes (by decide : main_arg6 ∉ hostOps1_W)
    _ = W1 m ρ c (Proc.devRef .tc main_arg6) := W2_of_ne m ρ c main_arg6 (by decide)
    _ = W0 m ρ c (Proc.devRef .tc main_arg6) := StableHlo.after_of_writes_sub hostOps0 _ hostOps0_writes (by decide : main_arg6 ∉ hostOps0_W)
    _ = m ((c : Thread nD τ).loc main_arg6) := rfl

theorem W7_main_arg7 (c : Dev nD) : W7 m ρ c (Proc.devRef .tc main_arg7) = m ((c : Thread nD τ).loc main_arg7) :=
  calc W7 m ρ c (Proc.devRef .tc main_arg7)
    _ = W6 m ρ c (Proc.devRef .tc main_arg7) := StableHlo.after_of_writes_sub hostOps3 _ hostOps3_writes (by decide : main_arg7 ∉ hostOps3_W)
    _ = W5 m ρ c (Proc.devRef .tc main_arg7) := W6_of_ne m ρ c main_arg7 (by decide)
    _ = W4 m ρ c (Proc.devRef .tc main_arg7) := StableHlo.after_of_writes_sub hostOps2 _ hostOps2_writes (by decide : main_arg7 ∉ hostOps2_W)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W7_main_arg8 (c : Dev nD) : W7 m ρ c (Proc.devRef .tc main_arg8) = m ((c : Thread nD τ).loc main_arg8) :=
  calc W7 m ρ c (Proc.devRef .tc main_arg8)
    _ = W6 m ρ c (Proc.devRef .tc main_arg8) := StableHlo.after_of_writes_sub hostOps3 _ hostOps3_writes (by decide : main_arg8 ∉ hostOps3_W)
    _ = W5 m ρ c (Proc.devRef .tc main_arg8) := W6_of_ne m ρ c main_arg8 (by decide)
    _ = W4 m ρ c (Proc.devRef .tc main_arg8) := StableHlo.after_of_writes_sub hostOps2 _ hostOps2_writes (by decide : main_arg8 ∉ hostOps2_W)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W7_main_arg9 (c : Dev nD) : W7 m ρ c (Proc.devRef .tc main_arg9) = m ((c : Thread nD τ).loc main_arg9) :=
  calc W7 m ρ c (Proc.devRef .tc main_arg9)
    _ = W6 m ρ c (Proc.devRef .tc main_arg9) := StableHlo.after_of_writes_sub hostOps3 _ hostOps3_writes (by decide : main_arg9 ∉ hostOps3_W)
    _ = W5 m ρ c (Proc.devRef .tc main_arg9) := W6_of_ne m ρ c main_arg9 (by decide)
    _ = W4 m ρ c (Proc.devRef .tc main_arg9) := StableHlo.after_of_writes_sub hostOps2 _ hostOps2_writes (by decide : main_arg9 ∉ hostOps2_W)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W7_main_arg10 (c : Dev nD) : W7 m ρ c (Proc.devRef .tc main_arg10) = m ((c : Thread nD τ).loc main_arg10) :=
  calc W7 m ρ c (Proc.devRef .tc main_arg10)
    _ = W6 m ρ c (Proc.devRef .tc main_arg10) := StableHlo.after_of_writes_sub hostOps3 _ hostOps3_writes (by decide : main_arg10 ∉ hostOps3_W)
    _ = W5 m ρ c (Proc.devRef .tc main_arg10) := W6_of_ne m ρ c main_arg10 (by decide)
    _ = W4 m ρ c (Proc.devRef .tc main_arg10) := StableHlo.after_of_writes_sub hostOps2 _ hostOps2_writes (by decide : main_arg10 ∉ hostOps2_W)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W7`, the
    generator register at some state. -/
abbrev Tₙ (c : Dev nD) : sProp 𝕄 := iprop(StableHlo.held (c : Thread nD τ) (Pipeline.ucRefs τ sig) (W7 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`.
    Its arrays split out of the unscoped buffers and put back at the exit contents; the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`.
    Its arrays split out of the unscoped buffers and put back at the exit contents; the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`.
    Its arrays split out of the unscoped buffers and put back at the exit contents; the generator register into the
    class invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 7 segments in order: a host segment per stretch from its boundary's contents, a region per custom_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and in every final state every unscoped buffer holds the fold's last
    contents `W7`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- THE FRAME: every final state has the argument arrays as launched — each argument's buffer is unscoped, so `run_all`
    gives its final contents as `W7`'s, which walk back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run _ _ _).mono (fun r h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c),
     (h c _ (mem_uc main_arg6 (by decide))).trans (W7_main_arg6 m ρ c),
     (h c _ (mem_uc main_arg7 (by decide))).trans (W7_main_arg7 m ρ c),
     (h c _ (mem_uc main_arg8 (by decide))).trans (W7_main_arg8 m ρ c),
     (h c _ (mem_uc main_arg9 (by decide))).trans (W7_main_arg9 m ρ c),
     (h c _ (mem_uc main_arg10 (by decide))).trans (W7_main_arg10 m ρ c)⟩) (run_all m ρ)

end Cert.KernelIdeal.Fr

end
-- ==== Proof.LibRowOps.lean ====
/-
  Row-wise reductions and column broadcasts of a matrix, read at an index, over the extended reals.

  For an a × b matrix: the maximum (or sum) over a row, whether taken by a vector reduction from a neutral
  accumulator or by the host's reduce from an initial value, is at row p the fold of max (or the sum) over the b
  columns of the entries (p, j). A vector of a entries stood up as an a × 1 column reads entry p at (p, 0), and
  that column spread over b columns reads (p, 0) at every (p, q); both in the vector spelling (shape cast, broadcast)
  and in the host's (broadcast in dimensions).
-/
import Idealize.ShloMosaic.Lib.Pipeline.Value
import Idealize.ShloMosaic.Lib.ValueIdx
import Idealize.ShloMosaic.PureOps.Ideal.Laws
import Idealize.ShloMosaic.PureOps.Reduce

noncomputable section

open scoped BigOperators

namespace Idealize.ShloMosaic.RowOps

open Idealize.ShloMosaic Idealize.ShloMosaic.ValueIdx

variable {a b : Nat} {α : Type}

/-- A vector stood up as a column: entry p sits at (p, 0). -/
theorem colCast_apply (v : (⟨1, ![a]⟩ : Shape).Idx → α) (h : (⟨1, ![a]⟩ : Shape).ShapeCasts ⟨2, ![a, 1]⟩) (p : Fin a) :
    shapeCast ⟨2, ![a, 1]⟩ v h (ix2 p (0 : Fin 1)) = v (ix1 p) :=
  shapeCast_apply v h (ix2 p (0 : Fin 1)) (ix1 p) (by
    rw [Shape.rowMajor_val_one, Shape.rowMajor_val_two]; show p.val = p.val * 1 + 0; omega)

/-- A column spread over b columns reads its entry (p, 0) at every (p, q). -/
theorem colBcast_apply (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The host's column of a vector: entry p sits at (p, 0). -/
theorem colInDim_apply (v : (⟨1, ![a]⟩ : Shape).Idx → α) (h : (⟨1, ![a]⟩ : Shape).BroadcastsInDim ⟨2, ![a, 1]⟩ ![0])
    (p : Fin a) : broadcastInDim ⟨2, ![a, 1]⟩ ![0] h v (ix2 p (0 : Fin 1)) = v (ix1 p) := by
  refine broadcastInDim_apply ![0] h v (ix2 p (0 : Fin 1)) (ix1 p) fun ax => ?_
  match ax with
  | ⟨0, _⟩ =>
    show p.val = if a = 1 then 0 else p.val
    split
    · have := p.isLt; omega
    · rfl

/-- The host's spread of a column over b columns reads its entry (p, 0) at every (p, q). -/
theorem colInDim2_apply (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply ![0, 1] h w (ix2 p q) (ix2 p (0 : Fin 1)) fun ax => ?_
  match ax with
  | ⟨0, _⟩ =>
    show p.val = if a = 1 then 0 else p.val
    split
    · have := p.isLt; omega
    · rfl
  | ⟨1, _⟩ => rfl

/-- Row p with column k put back is (p, k). -/
theorem lift_row (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A vector reduction's row maximum: the fold of max over the row's entries from the accumulator's value. -/
theorem rowMax_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun j => src (ix2 p j)) := by
  refine (Ideal.multiReduction_maximumf_single src acc h hφ hacc (ix1 p)).trans ?_
  have hf : (src ∘ h.lift (ix1 p)) = fun k : Fin b => src (ix2 p k) := funext fun k => congrArg src (lift_row h p k)
  exact congrArg (fun f => Finset.fold max (Ideal.ofBits .f32 acc) f (Finset.univ : Finset (Fin b))) hf

/-- The host's row maximum: the fold of max over the row's entries from the initial value. -/
theorem rowMax_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce FloatOps.maximumf x init h' hu (ix1 p)
      = (Finset.univ : Finset (Fin b)).fold max (init (Shape.Idx.first hu)) (fun j => x (ix2 p j)) := by
  rw [Host.reduce_eq_fold_single FloatOps.maximumf x init h' h hu]
  have hf : (x ∘ h.lift (ix1 p)) = fun k : Fin b => x (ix2 p k) := funext fun k => congrArg x (lift_row h p k)
  exact congrArg (fun f => Finset.fold max (init (Shape.Idx.first hu)) f (Finset.univ : Finset (Fin b))) hf

/-- A vector reduction's row sum. -/
theorem rowSum_vector (src : FVec Ideal ⟨2, ![a, b]⟩ .f32) (acc : BitVec 32)
    (h : (⟨2, ![a, b]⟩ : Shape).Reduces [1] (⟨1, ![a]⟩ : Shape)) (hφ : FKind.Formats .f32)
    (hacc : acc = FKind.add.neutral .f32 hφ) (p : Fin a) :
    multiReduction .add [1] ⟨1, ![a]⟩ src acc h hφ hacc (ix1 p) = ∑ j : Fin b, src (ix2 p j) := by
  refine (Ideal.multiReduction_add_single src acc h hφ hacc (ix1 p)).trans ?_
  exact Finset.sum_congr rfl fun k _ => congrArg src (lift_row h p k)

/-- The host's row sum: the initial value plus the sum of the row's entries. -/
theorem rowSum_host (x : FVec Ideal ⟨2, ![a, b]⟩ .f32) (init : (⟨0, ![]⟩ : Shape).Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd x init h' hu (ix1 p) = init (Shape.Idx.first hu) + ∑ j : Fin b, x (ix2 p j) := by
  show Ideal.hostReduceAdd h' x (init (Shape.Idx.first hu)) (ix1 p) = _
  rw [Ideal.hostReduceAdd_single h' h]
  exact congrArg (fun s => init (Shape.Idx.first hu) + s) (Finset.sum_congr rfl fun k _ => congrArg x (lift_row h p k))

end Idealize.ShloMosaic.RowOps

end
-- ==== Proof.LibRowSoftmax.lean ====
/-
  A row softmax taken with vector operations, read at an index, over the extended reals.

  For a row s of b extended reals and a float word acc, the row's maximum is the fold of max over its entries
  from the value acc denotes; each entry's weight is exp (s j − maximum) divided by the sum over the row of
  those exponentials. For an a × b matrix S the vector operations compute exactly this, row by row: a
  reduction <maximumf> over the columns, stood up as an a × 1 column and spread back over the b columns, taken
  off S, exponentiated; then a reduction <add> of the exponentials, stood up and spread the same way, dividing
  them. Read at (p, j) the result is the weight of entry j in row p of S.
-/
import proofs.«142345_j19559281066284_2_alg».proof.Proof.LibRowOps

noncomputable section

open scoped BigOperators

namespace Idealize.ShloMosaic.RowSoftmax

open Idealize.ShloMosaic Idealize.ShloMosaic.ValueIdx Idealize.ShloMosaic.RowOps

/-- The largest entry of a row, folded from the value the float word `acc` denotes. -/
def rowMax (acc : BitVec 32) {n : Nat} (s : Fin n → EReal) : EReal :=
  (Finset.univ : Finset (Fin n)).fold max (Ideal.ofBits .f32 acc) s

/-- The exponential of an entry after the row's maximum is taken off. -/
def expo (acc : BitVec 32) {n : Nat} (s : Fin n → EReal) (j : Fin n) : EReal := Ideal.exp (s j - rowMax acc s)

/-- An entry's softmax weight in its row. -/
def weight (acc : BitVec 32) {n : Nat} (s : Fin n → EReal) (j : Fin n) : EReal :=
  Ideal.div (expo acc s j) (∑ k : Fin n, expo acc s k)

/-- The row's maximum is at least the value it was folded from, so taking the larger of the two changes nothing. -/
theorem max_init_rowMax (acc : BitVec 32) {n : Nat} (s : Fin n → EReal) :
    max (Ideal.ofBits .f32 acc) (rowMax acc s) = rowMax acc s :=
  max_eq_right ((Finset.le_fold_max _).mpr (Or.inl le_rfl))

variable {a b : Nat}

/-- The matrix of exponentials exp (S − row maximum), as the vector operations compute it. -/
def expShift (S : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf S (broadcastTo ⟨2, ![a, b]⟩
    (shapeCast ⟨2, ![a, 1]⟩ (multiReduction .maximumf [1] ⟨1, ![a]⟩ S acc h hφ hacc) hc) hb))

/-- The row softmax of a matrix, as the vector operations compute it. -/
def softmaxVec (S : FVec Ideal ⟨2, ![a, b]⟩ .f32) (acc zero : BitVec 32)
    (h : (⟨2, ![a, b]⟩ : Shape).Reduces [1] (⟨1, ![a]⟩ : Shape)) (hφ : FKind.Formats .f32)
    (hacc : acc = FKind.maximumf.neutral .f32 hφ) (hzero : zero = FKind.add.neutral .f32 hφ)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (expShift S acc h hφ hacc hc hb) (broadcastTo ⟨2, ![a, b]⟩
    (shapeCast ⟨2, ![a, 1]⟩ (multiReduction .add [1] ⟨1, ![a]⟩ (expShift S acc h hφ hacc hc hb) zero h hφ hzero) hc) hb)

/-- The exponentials at (p, j): exp of entry j of row p less that row's maximum. -/
theorem expShift_apply (S : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    expShift S acc h hφ hacc hc hb (ix2 p j) = expo acc (fun k => S (ix2 p k)) j := by
  show Ideal.exp (S (ix2 p j) - broadcastTo ⟨2, ![a, b]⟩
    (shapeCast ⟨2, ![a, 1]⟩ (multiReduction .maximumf [1] ⟨1, ![a]⟩ S acc h hφ hacc) hc) hb (ix2 p j)) = _
  rw [colBcast_apply, colCast_apply, rowMax_vector]
  rfl

/-- The row softmax at (p, j): the weight of entry j in row p. -/
theorem softmaxVec_apply (S : FVec Ideal ⟨2, ![a, b]⟩ .f32) (acc zero : BitVec 32)
    (h : (⟨2, ![a, b]⟩ : Shape).Reduces [1] (⟨1, ![a]⟩ : Shape)) (hφ : FKind.Formats .f32)
    (hacc : acc = FKind.maximumf.neutral .f32 hφ) (hzero : zero = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (j : Fin b) :
    softmaxVec S acc zero h hφ hacc hzero hc hb (ix2 p j) = weight acc (fun k => S (ix2 p k)) j := by
  show Ideal.div (expShift S acc h hφ hacc hc hb (ix2 p j)) (broadcastTo ⟨2, ![a, b]⟩
    (shapeCast ⟨2, ![a, 1]⟩ (multiReduction .add [1] ⟨1, ![a]⟩ (expShift S acc h hφ hacc hc hb) zero h hφ hzero) hc) hb
      (ix2 p j)) = _
  rw [colBcast_apply, colCast_apply, rowSum_vector]
  simp only [expShift_apply]
  rfl

end Idealize.ShloMosaic.RowSoftmax

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.LibTransDot.lean ====
/-
  A matrix product with the right operand transposed, read at an index, over the extended reals.

  For the dimension numbers of an M×K by N×K product (contract the left operand's second axis with the
  right operand's second axis; no batch axes: lhs · rhsᵀ) the entry (i, j) of the product is the sum over k of
  lhs (i, k) · rhs (j, k): stated once for a `tpu.matmul` accumulating into the zero splat and once for the
  host's `dot_general`, for any extents M, K, N. The contraction index of such a product has one axis of
  extent K, and the sum over it is re-indexed by that coordinate.
-/
import Idealize.ShloMosaic.Lib.ValueIdx
import Idealize.ShloMosaic.PureOps.Ideal.Laws

noncomputable section

open scoped BigOperators

namespace Idealize.ShloMosaic.TransDot

open Idealize.ShloMosaic Idealize.ShloMosaic.ValueIdx

variable {M K N : Nat}

/-- The left operand's row coordinate is the result's row coordinate. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction coordinate. -/
theorem lhs_col (j : (⟨2, ![M, N]⟩ : Shape).Idx) (q : (DotDims.transposedRhs M K N).contr.Idx) :
    ((DotDims.transposedRhs M K N).lhsIdx j q 1).val = (q ⟨0, show 0 < (DotDims.transposedRhs M K N).contr.rank from Nat.one_pos⟩).val :=
  (DotDims.transposedRhs M K N).lhsIdx_val_of_single rfl j q

/-- The right operand's row coordinate is the result's column coordinate. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction coordinate. -/
theorem rhs_col (j : (⟨2, ![M, N]⟩ : Shape).Idx) (q : (DotDims.transposedRhs M K N).contr.Idx) :
    ((DotDims.transposedRhs M K N).rhsIdx j q 1).val = (q ⟨0, show 0 < (DotDims.transposedRhs M K N).contr.rank from Nat.one_pos⟩).val :=
  (DotDims.transposedRhs M K N).rhsIdx_val_of_single rfl j q

/-- The sum over the contraction index is the sum over k of lhs (i, k) · rhs (j, k). -/
theorem sum_contr (lhs : (⟨2, ![M, K]⟩ : Shape).Idx → EReal) (rhs : (⟨2, ![N, K]⟩ : Shape).Idx → EReal)
    (i : Fin M) (j : Fin N) :
    (∑ q : (DotDims.transposedRhs M K N).contr.Idx,
        lhs ((DotDims.transposedRhs M K N).lhsIdx (ix2 i j) q) * rhs ((DotDims.transposedRhs M K N).rhsIdx (ix2 i j) q))
      = ∑ k : Fin K, lhs (ix2 i k) * rhs (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs_row _ _
      | ⟨1, _⟩ => exact (lhs_col _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs_row _ _
      | ⟨1, _⟩ => exact (rhs_col _ _).trans hk)
  rw [el, er]

/-- A `tpu.matmul` of these dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) :=
  (Ideal.matmul_constant_zero_apply (DotDims.transposedRhs M K N) prec lhs rhs (ix2 i j)).trans (sum_contr lhs rhs i j)

/-- The host's `dot_general` of these dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (i : Fin M) (j : Fin N) :
    FloatOps.dotGeneral (DotDims.transposedRhs M K N) prec sched lhs rhs (ix2 i j)
      = ∑ k : Fin K, lhs (ix2 i k) * rhs (ix2 j k) :=
  (Ideal.dotGeneral_apply (DotDims.transposedRhs M K N) prec sched lhs rhs (ix2 i j)).trans (sum_contr lhs rhs i j)

end Idealize.ShloMosaic.TransDot

end
-- ==== Proof.AttnHead.lean ====
/-
  One head of the attention, and the pair of heads a grid point stores as one block of 128 columns, as the
  vector operations compute them, read at an index over the extended reals.

  For a block q of 256 query rows and blocks k, v of 2048 key and value rows, each of 64 columns: the scores
  are q·kᵀ scaled by the f32 word of 1/8, a 256 × 2048 matrix; its rows go through the softmax (row maximum from
  the word of −∞, exponentials, row sum from the zero word, quotient); the context is that matrix times v, a
  256 × 64 matrix whose entry (r, c) is the sum over the key rows j of the weight of j in row r times v (j, c).
  Two heads side by side make the 256 × 128 block that is stored: its columns 0 … 63 are the first head's context,
  its columns 64 … 127 the second's.
-/
import proofs.«142345_j19559281066284_2_alg».proof.KernelIdeal
import proofs.«142345_j19559281066284_2_alg».proof.Proof.LibRowSoftmax
import proofs.«142345_j19559281066284_2_alg».proof.Proof.LibPlainDot
import proofs.«142345_j19559281066284_2_alg».proof.Proof.LibTransDot
import Idealize.ShloMosaic.Lib.Pipeline.Value
import Idealize.ShloMosaic.Lib.ValueIdx

noncomputable section

open scoped BigOperators

namespace Cert.KernelIdeal.HeadV

open Cert.KernelIdeal Idealize.ShloMosaic Idealize.ShloMosaic.ValueIdx Idealize.ShloMosaic.RowSoftmax

variable [Facts]
open Facts₀ Facts

/-- The scaled scores of a head: q·kᵀ times the word of 1/8. -/
def headS (q : FVec Ideal S256x64 .bf16) (k : FVec Ideal S2048x64 .bf16) : FVec Ideal S256x2048 .f32 :=
  mulf (matmul dot_S256x64_S2048x64_S256x2048_1_1_0_0_n_n none q k (constant S256x2048 .f32 0x00000000#32))
    (broadcast S256x2048 (Scalar.ofBits .f32 0x3E000000#32))

/-- The exponentials of the scores less their row maxima. -/
def headE (q : FVec Ideal S256x64 .bf16) (k : FVec Ideal S2048x64 .bf16) : FVec Ideal S256x2048 .f32 :=
  exp (subf (headS q k) (broadcastTo S256x2048 (shapeCast S256x1
    (multiReduction .maximumf [1] S256 (headS q k) 0xFF800000#32 reduces_S256x2048_S256 (.inl rfl) rfl)
    shapeCasts_S256_S256x1) broadcasts_S256x1_S256x2048))

/-- The row sums of the exponentials, spread back over the columns. -/
def headL (q : FVec Ideal S256x64 .bf16) (k : FVec Ideal S2048x64 .bf16) : FVec Ideal S256x2048 .f32 :=
  broadcastTo S256x2048 (shapeCast S256x1
    (multiReduction .add [1] S256 (headE q k) 0x00000000#32 reduces_S256x2048_S256 (.inl rfl) rfl)
    shapeCasts_S256_S256x1) broadcasts_S256x1_S256x2048

/-- The context of a head from its exponentials, their row sums and the value rows. -/
def ctxOf (e l : FVec Ideal S256x2048 .f32) (v : FVec Ideal S2048x64 .bf16) : FVec Ideal S256x64 .f32 :=
  matmul dot_S256x2048_S2048x64_S256x64_1_0_0_1_n_n none (truncf .bf16 (divf e l) bitsLt_bf16_f32) v
    (constant S256x64 .f32 0x00000000#32)

/-- The context of a head. -/
def headCtx (q : FVec Ideal S256x64 .bf16) (k v : FVec Ideal S2048x64 .bf16) : FVec Ideal S256x64 .f32 :=
  ctxOf (headE q k) (headL q k) v

/-- Two contexts side by side, as the block of 128 columns that is stored. -/
def sideBySide (c0 c1 : FVec Ideal S256x64 .f32) : FVec Ideal S1x256x128 .bf16 :=
  shapeCast S1x256x128 (truncf .bf16 (concatenate S256x128 1 [⟨S256x64, c0⟩, ⟨S256x64, c1⟩]
    concatenates_S256x64_S256x64_S256x128_d1) bitsLt_bf16_f32) shapeCasts_S256x128_S1x256x128

/-- The two heads of a block of 128 columns of q, k, v. -/
def pairOut (q : FVec Ideal S256x128 .bf16) (k v : FVec Ideal S2048x128 .bf16) : FVec Ideal S1x256x128 .bf16 :=
  sideBySide
    (headCtx (extractStridedSlice S256x64 ![0, 0] q slices_S256x128_o0_0_S256x64)
      (extractStridedSlice S2048x64 ![0, 0] k slices_S2048x128_o0_0_S2048x64)
      (extractStridedSlice S2048x64 ![0, 0] v slices_S2048x128_o0_0_S2048x64))
    (headCtx (extractStridedSlice S256x64 ![0, 64] q slices_S256x128_o0_64_S256x64)
      (extractStridedSlice S2048x64 ![0, 64] k slices_S2048x128_o0_64_S2048x64)
      (extractStridedSlice S2048x64 ![0, 64] v slices_S2048x128_o0_64_S2048x64))

/-- The word of 1/8 as an extended real. -/
abbrev scaleW : EReal := Ideal.ofBits .f32 0x3E000000#32

/-- A score: the inner product of query row r and key row j, scaled. -/
theorem headS_apply (q : FVec Ideal S256x64 .bf16) (k : FVec Ideal S2048x64 .bf16) (r : Fin 256) (j : Fin 2048) :
    headS q k (ix2 r j) = (∑ d : Fin 64, q (ix2 r d) * k (ix2 j d)) * scaleW := by
  unfold headS
  refine congrArg (· * scaleW) ?_
  exact TransDot.matmul_zero_apply (M := 256) (K := 64) (N := 2048) none q k r j

/-- The quotient of the exponentials by their row sums is the row softmax of the scores. -/
theorem weights_apply (q : FVec Ideal S256x64 .bf16) (k : FVec Ideal S2048x64 .bf16) (r : Fin 256) (j : Fin 2048) :
    divf (headE q k) (headL q k) (ix2 r j)
      = weight 0xFF800000#32 (fun j' => (∑ d : Fin 64, q (ix2 r d) * k (ix2 j' d)) * scaleW) j := by
  refine (softmaxVec_apply (a := 256) (b := 2048) (headS q k) 0xFF800000#32 0x00000000#32 reduces_S256x2048_S256 (.inl rfl) rfl rfl
    shapeCasts_S256_S256x1 broadcasts_S256x1_S256x2048 r j).trans ?_
  exact congrArg (fun s => weight 0xFF800000#32 s j) (funext fun j' => headS_apply q k r j')

/-- The context at (r, c): the weighted sum of column c of the value rows. -/
theorem headCtx_apply (q : FVec Ideal S256x64 .bf16) (k v : FVec Ideal S2048x64 .bf16) (r : Fin 256) (c : Fin 64) :
    headCtx q k v (ix2 r c)
      = ∑ j : Fin 2048, weight 0xFF800000#32 (fun j' => (∑ d : Fin 64, q (ix2 r d) * k (ix2 j' d)) * scaleW) j * v (ix2 j c) := by
  unfold headCtx ctxOf
  refine (PlainDot.matmul_zero_apply (M := 256) (K := 2048) (N := 64) none _ v r c).trans ?_
  exact Finset.sum_congr rfl fun j _ => congrArg (· * v (ix2 j c)) (weights_apply q k r j)

/-- A block of w columns cut out of a matrix at column offset o: entry (r, c) is the matrix's entry (r, o + c). -/
theorem colSlice_apply {α : Type} {a b w : Nat} (o : Nat) (x : (⟨2, ![a, b]⟩ : Shape).Idx → α)
    (h : (⟨2, ![a, b]⟩ : Shape).Slices ![0, o] ⟨2, ![a, w]⟩) (r : Fin a) (c : Fin w) (hb : o + c.val < b) :
    extractStridedSlice ⟨2, ![a, w]⟩ ![0, o] x h (ix2 r c) = x (ix2 r (⟨o + c.val, hb⟩ : Fin b)) :=
  extractStridedSlice_apply ![0, o] x h (ix2 r c) (ix2 r (⟨o + c.val, hb⟩ : Fin b)) fun ax => by
    match ax with
    | ⟨0, _⟩ => show r.val = 0 + r.val; omega
    | ⟨1, _⟩ => rfl

/-- The stored block at (0, r, c) for c < 64: the first context at (r, c). -/
theorem sideBySide_lo (c0 c1 : FVec Ideal S256x64 .f32) (r : Fin 256) (c : Fin 64) :
    sideBySide c0 c1 (ix3 (0 : Fin 1) r (⟨c.val, by have := c.isLt; omega⟩ : Fin 128)) = c0 (ix2 r c) := by
  unfold sideBySide
  refine (shapeCast_apply _ shapeCasts_S256x128_S1x256x128 (ix3 (0 : Fin 1) r (⟨c.val, by have := c.isLt; omega⟩ : Fin 128))
    (ix2 r (⟨c.val, by have := c.isLt; omega⟩ : Fin 128)) ?_).trans ?_
  · rw [Shape.rowMajor_val_two, Shape.rowMajor_val_three]
    show r.val * 128 + c.val = (0 * 256 + r.val) * 128 + c.val
    omega
  · exact concatenate_pair_apply_left (1 : Fin S256x128.rank) c0 c1 concatenates_S256x64_S256x64_S256x128_d1
      (ix2 r (⟨c.val, by have := c.isLt; omega⟩ : Fin 128)) rfl (ix2 r c) fun b => by
        match b with
        | ⟨0, _⟩ => rfl
        | ⟨1, _⟩ => rfl

/-- The stored block at (0, r, 64 + c): the second context at (r, c). -/
theorem sideBySide_hi (c0 c1 : FVec Ideal S256x64 .f32) (r : Fin 256) (c : Fin 64) :
    sideBySide c0 c1 (ix3 (0 : Fin 1) r (⟨64 + c.val, by have := c.isLt; omega⟩ : Fin 128)) = c1 (ix2 r c) := by
  unfold sideBySide
  refine (shapeCast_apply _ shapeCasts_S256x128_S1x256x128 (ix3 (0 : Fin 1) r (⟨64 + c.val, by have := c.isLt; omega⟩ : Fin 128))
    (ix2 r (⟨64 + c.val, by have := c.isLt; omega⟩ : Fin 128)) ?_).trans ?_
  · rw [Shape.rowMajor_val_two, Shape.rowMajor_val_three]
    show r.val * 128 + (64 + c.val) = (0 * 256 + r.val) * 128 + (64 + c.val)
    omega
  · exact concatenate_pair_apply_right (1 : Fin S256x128.rank) c0 c1 concatenates_S256x64_S256x64_S256x128_d1
      (ix2 r (⟨64 + c.val, by have := c.isLt; omega⟩ : Fin 128)) rfl rfl (ix2 r c)
      (fun b hb => by
        match b with
        | ⟨0, _⟩ => rfl
        | ⟨1, _⟩ => exact absurd rfl hb)
      (by show c.val + 64 = 64 + c.val; omega)

/-- Head s (0 or 1) of a block of 128 columns, at (r, c): the weighted sum over the key rows, the scores taken over
    the head's 64 columns s·64 … s·64 + 63 of the block. -/
def pairVal (q : FVec Ideal S256x128 .bf16) (k v : FVec Ideal S2048x128 .bf16) (r : Fin 256) (s : Nat) (hs : s < 2)
    (c : Fin 64) : EReal :=
  ∑ j : Fin 2048, weight 0xFF800000#32 (fun j' => (∑ d : Fin 64,
      q (ix2 r (⟨s * 64 + d.val, by have := d.isLt; omega⟩ : Fin 128)) * k (ix2 j' (⟨s * 64 + d.val, by have := d.isLt; omega⟩ : Fin 128))) * scaleW) j
    * v (ix2 j (⟨s * 64 + c.val, by have := c.isLt; omega⟩ : Fin 128))

/-- The stored block of a pair of heads at (0, r, c) for c < 64. -/
theorem pairOut_lo (q : FVec Ideal S256x128 .bf16) (k v : FVec Ideal S2048x128 .bf16) (r : Fin 256) (c : Fin 64) :
    pairOut q k v (ix3 (0 : Fin 1) r (⟨c.val, by have := c.isLt; omega⟩ : Fin 128)) = pairVal q k v r 0 (by omega) c := by
  unfold pairOut pairVal
  rw [sideBySide_lo, headCtx_apply]
  refine Finset.sum_congr rfl fun j _ => ?_
  have hv := colSlice_apply (a := 2048) (b := 128) (w := 64) 0 v slices_S2048x128_o0_0_S2048x64 j c (by have := c.isLt; omega)
  rw [hv]
  refine congrArg (· * _) (congrArg (fun s => weight 0xFF800000#32 s j) (funext fun j' => congrArg (· * scaleW) ?_))
  refine Finset.sum_congr rfl fun d _ => ?_
  rw [colSlice_apply (a := 256) (b := 128) (w := 64) 0 q slices_S256x128_o0_0_S256x64 r d (by have := d.isLt; omega),
    colSlice_apply (a := 2048) (b := 128) (w := 64) 0 k slices_S2048x128_o0_0_S2048x64 j' d (by have := d.isLt; omega)]

/-- The stored block of a pair of heads at (0, r, 64 + c). -/
theorem pairOut_hi (q : FVec Ideal S256x128 .bf16) (k v : FVec Ideal S2048x128 .bf16) (r : Fin 256) (c : Fin 64) :
    pairOut q k v (ix3 (0 : Fin 1) r (⟨64 + c.val, by have := c.isLt; omega⟩ : Fin 128)) = pairVal q k v r 1 (by omega) c := by
  unfold pairOut pairVal
  rw [sideBySide_hi, headCtx_apply]
  refine Finset.sum_congr rfl fun j _ => ?_
  have hv := colSlice_apply (a := 2048) (b := 128) (w := 64) 64 v slices_S2048x128_o0_64_S2048x64 j c (by have := c.isLt; omega)
  rw [hv]
  refine congrArg₂ (· * ·) (congrArg (fun s => weight 0xFF800000#32 s j) (funext fun j' => congrArg (· * scaleW) ?_)) ?_
  · refine Finset.sum_congr rfl fun d _ => ?_
    rw [colSlice_apply (a := 256) (b := 128) (w := 64) 64 q slices_S256x128_o0_64_S256x64 r d (by have := d.isLt; omega),
      colSlice_apply (a := 2048) (b := 128) (w := 64) 64 k slices_S2048x128_o0_64_S2048x64 j' d (by have := d.isLt; omega)]
  · exact congrArg v (congrArg (ix2 j) (Fin.ext (by show 64 + c.val = 1 * 64 + c.val; omega)))

end Cert.KernelIdeal.HeadV

end
-- ==== Proof.AttnSpec.lean ====
/-
  Multi-head attention followed by a residual layer norm, as one function of the argument arrays.

  x is a batch of 4 sequences of 2048 rows of 1024 features. Three affine maps of each row give the queries,
  keys and values; the 1024 features are 16 heads of 64 columns, and column e lies in head e / 64. For a query row
  i and a key row j of one sequence, the score in a head is the inner product of the head's 64 columns of the two
  rows, scaled by the f32 word of 1/8; the scores of row i over the 2048 key rows go through the softmax, and the
  context row is the weighted sum of the value rows. A fourth affine map of the context rows plus the input row is
  normalised over its 1024 features (mean and mean square deviation by division by the f32 word of 1024, the f32 word
  of 1e-5 added under the reciprocal square root), scaled by gamma and shifted by beta. Everything is stated over the
  extended reals with the float words kept as words.
-/
import Idealize.ShloMosaic.Lib.ValueIdx
import Idealize.ShloMosaic.PureOps.Ideal
import proofs.«142345_j19559281066284_2_alg».proof.Proof.LibRowSoftmax

noncomputable section

open scoped BigOperators

namespace Cert.AttnSpec

open Idealize.ShloMosaic Idealize.ShloMosaic.ValueIdx Idealize.ShloMosaic.RowSoftmax

/-- A batch of sequences, a square weight matrix, a feature vector. -/
abbrev SX : Shape := ⟨3, ![4, 2048, 1024]⟩
abbrev SW : Shape := ⟨2, ![1024, 1024]⟩
abbrev SB : Shape := ⟨1, ![1024]⟩

/-- Column k of the head that column e lies in. -/
def hcol (e : Fin 1024) (k : Fin 64) : Fin 1024 := ⟨e.val / 64 * 64 + k.val, by have := e.isLt; have := k.isLt; omega⟩

/-- An affine map of row (bi, s): feature e of x·Wᵀ + b. -/
def lin (x : SX.Idx → EReal) (W : SW.Idx → EReal) (b : SB.Idx → EReal) (bi : Fin 4) (s : Fin 2048) (e : Fin 1024) : EReal :=
  (∑ d : Fin 1024, x (ix3 bi s d) * W (ix2 e d)) + b (ix1 e)

/-- The scale of the scores: the f32 word of 1/8. -/
def scale : EReal := Ideal.ofBits .f32 0x3E000000#32

/-- The score of query row i against key row j in the head of column e. -/
def score (q kk : Fin 4 → Fin 2048 → Fin 1024 → EReal) (bi : Fin 4) (e : Fin 1024) (i j : Fin 2048) : EReal :=
  (∑ k : Fin 64, q bi i (hcol e k) * kk bi j (hcol e k)) * scale

/-- The context: the softmax weights of row i's scores times the value rows, at column e. -/
def ctx (q kk v : Fin 4 → Fin 2048 → Fin 1024 → EReal) (bi : Fin 4) (i : Fin 2048) (e : Fin 1024) : EReal :=
  ∑ j : Fin 2048, weight 0xFF800000#32 (fun j' => score q kk bi e i j') j * v bi j e

/-- The output projection of the context rows plus the input row. -/
def resid (c : Fin 4 → Fin 2048 → Fin 1024 → EReal) (x : SX.Idx → EReal) (Wo : SW.Idx → EReal) (bo : SB.Idx → EReal)
    (bi : Fin 4) (s : Fin 2048) (e : Fin 1024) : EReal :=
  ((∑ d : Fin 1024, c bi s d * Wo (ix2 e d)) + bo (ix1 e)) + x (ix3 bi s e)

/-- The f32 words of 1024 and of 1e-5. -/
def nfeat : EReal := Ideal.ofBits .f32 0x44800000#32
def eps : EReal := Ideal.ofBits .f32 0x3727C5AC#32

/-- The mean of a row of 1024 features. -/
def mean (y : Fin 1024 → EReal) : EReal := Ideal.div (∑ e : Fin 1024, y e) nfeat

/-- The normalised row: deviation from the mean times the reciprocal square root of the mean square deviation
    plus eps, scaled and shifted feature by feature. -/
def lnorm (y : Fin 1024 → EReal) (g b : SB.Idx → EReal) (e : Fin 1024) : EReal :=
  (y e - mean y) * Ideal.rsqrt (mean (fun e' => (y e' - mean y) * (y e' - mean y)) + eps) * g (ix1 e) + b (ix1 e)

/-- The whole function at row (bi, s), feature e. -/
def out (x : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) (g b : SB.Idx → EReal)
    (bi : Fin 4) (s : Fin 2048) (e : Fin 1024) : EReal :=
  lnorm (fun e' => resid (ctx (lin x Wq bq) (lin x Wk bk) (lin x Wv bv)) x Wo bo bi s e') g b e

/-- The whole function as an array. -/
def outArr (x : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) (g b : SB.Idx → EReal) :
    SX.Idx → EReal :=
  fun i => out x Wq bq Wk bk Wv bv Wo bo g b ⟨(i 0).val, (i 0).isLt⟩ ⟨(i 1).val, (i 1).isLt⟩ ⟨(i 2).val, (i 2).isLt⟩

theorem outArr_ix3 (x : SX.Idx → EReal) (Wq : SW.Idx → EReal) (bq : SB.Idx → EReal) (Wk : SW.Idx → EReal) (bk : SB.Idx → EReal)
    (Wv : SW.Idx → EReal) (bv : SB.Idx → EReal) (Wo : SW.Idx → EReal) (bo : SB.Idx → EReal) (g b : SB.Idx → EReal)
    (bi : Fin 4) (s : Fin 2048) (e : Fin 1024) :
    outArr x Wq bq Wk bk Wv bv Wo bo g b (ix3 bi s e) = out x Wq bq Wk bk Wv bv Wo bo g b bi s e := rfl

end Cert.AttnSpec

end
-- ==== Proof.AttnPieces.lean ====
/-
  The block of 256 × 1024 context entries a grid point of the attention stores, as one function of its index.

  The block is stored as eight pieces of 128 columns, the piece at column offset o being the pair of heads on the
  columns o … o + 127 of the point's query block and of the sequence's key and value rows. Read at (0, r, e) every
  piece is the same function: the sum over the key rows j of the softmax weight of j among row r's scores in the head
  of column e, times the value entry (j, e); and the eight pieces tile the block.
-/
import proofs.«142345_j19559281066284_2_alg».proof.Proof.IFrameDefs
import proofs.«142345_j19559281066284_2_alg».proof.Proof.AttnHead
import proofs.«142345_j19559281066284_2_alg».proof.Proof.AttnSpec

noncomputable section

open scoped BigOperators

namespace Cert.KernelIdeal.HeadV

open Cert.KernelIdeal Cert.KernelIdeal.Gen Cert.KernelIdeal.Fr
open Idealize.ShloMosaic Idealize.ShloMosaic.ValueIdx Idealize.ShloMosaic.RowSoftmax
open Cert.AttnSpec (hcol)

variable [Facts]

/-- The pair of heads on the 128 columns at offset o of a query block and the key and value rows. -/
def pairAt (o : Nat) (hq : S256x1024.Slices ![0, o] S256x128) (hk : S2048x1024.Slices ![0, o] S2048x128)
    (Q : FVec Ideal S256x1024 .bf16) (K V : FVec Ideal S2048x1024 .bf16) : FVec Ideal S1x256x128 .bf16 :=
  pairOut (extractStridedSlice S256x128 ![0, o] Q hq) (extractStridedSlice S2048x128 ![0, o] K hk)
    (extractStridedSlice S2048x128 ![0, o] V hk)

/-- The block stored at column offset 0 is the pair of heads on columns 0 … 127. -/
theorem pay_c0 (x0 : FVec Ideal S1x256x1024 .bf16) (x1 x2 : FVec Ideal S1x2048x1024 .bf16) :
    k1_pay12 (k1_pay8 x0 x1 x2) (k1_pay9 x2) (k1_pay10 x0 x1) (k1_pay11 x0 x1)
      = pairAt 0 slices_S256x1024_o0_0_S256x128 slices_S2048x1024_o0_0_S2048x128 (k1_pay2 x0) (k1_pay3 x1) (k1_pay4 x2) := rfl

/-- The block stored at column offset 128 is the pair of heads on columns 128 … 255. -/
theorem pay_c128 (x0 : FVec Ideal S1x256x1024 .bf16) (x1 x2 : FVec Ideal S1x2048x1024 .bf16) :
    k1_pay18 (k1_pay16 (k1_pay2 x0) (k1_pay3 x1) (k1_pay4 x2)) (k1_pay17 (k1_pay2 x0) (k1_pay3 x1) (k1_pay4 x2))
      = pairAt 128 slices_S256x1024_o0_128_S256x128 slices_S2048x1024_o0_128_S2048x128 (k1_pay2 x0) (k1_pay3 x1) (k1_pay4 x2) := rfl

/-- The block stored at column offset 256 is the pair of heads on columns 256 … 383. -/
theorem pay_c256 (x0 : FVec Ideal S1x256x1024 .bf16) (x1 x2 : FVec Ideal S1x2048x1024 .bf16) :
    k1_pay20 (k1_pay19 (k1_pay2 x0) (k1_pay3 x1) (k1_pay4 x2))
      = pairAt 256 slices_S256x1024_o0_256_S256x128 slices_S2048x1024_o0_256_S2048x128 (k1_pay2 x0) (k1_pay3 x1) (k1_pay4 x2) := rfl

/-- The block stored at column offset 384 is the pair of heads on columns 384 … 511. -/
theorem pay_c384 (x0 : FVec Ideal S1x256x1024 .bf16) (x1 x2 : FVec Ideal S1x2048x1024 .bf16) :
    k1_pay21 (k1_pay2 x0) (k1_pay3 x1) (k1_pay4 x2)
      = pairAt 384 slices_S256x1024_o0_384_S256x128 slices_S2048x1024_o0_384_S2048x128 (k1_pay2 x0) (k1_pay3 x1) (k1_pay4 x2) := rfl

/-- The block stored at column offset 512 is the pair of heads on columns 512 … 639. -/
theorem pay_c512 (x0 : FVec Ideal S1x256x1024 .bf16) (x1 x2 : FVec Ideal S1x2048x1024 .bf16) :
    k1_pay22 (k1_pay2 x0) (k1_pay3 x1) (k1_pay4 x2)
      = pairAt 512 slices_S256x1024_o0_512_S256x128 slices_S2048x1024_o0_512_S2048x128 (k1_pay2 x0) (k1_pay3 x1) (k1_pay4 x2) := rfl

/-- The block stored at column offset 640 is the pair of heads on columns 640 … 767. -/
theorem pay_c640 (x0 : FVec Ideal S1x256x1024 .bf16) (x1 x2 : FVec Ideal S1x2048x1024 .bf16) :
    k1_pay26 (k1_pay23 (k1_pay2 x0)) (k1_pay24 (k1_pay3 x1)) (k1_pay25 (k1_pay4 x2))
      = pairAt 640 slices_S256x1024_o0_640_S256x128 slices_S2048x1024_o0_640_S2048x128 (k1_pay2 x0) (k1_pay3 x1) (k1_pay4 x2) := rfl

/-- The block stored at column offset 768 is the pair of heads on columns 768 … 895. -/
theorem pay_c768 (x0 : FVec Ideal S1x256x1024 .bf16) (x1 x2 : FVec Ideal S1x2048x1024 .bf16) :
    k1_pay33 (k1_pay27 (k1_pay2 x0)) (k1_pay28 (k1_pay3 x1)) (k1_pay29 (k1_pay4 x2)) (k1_pay30 (k1_pay2 x0)) (k1_pay31 (k1_pay3 x1)) (k1_pay32 (k1_pay4 x2)) (constant S256x2048 .f32 0x00000000#32)
      = pairAt 768 slices_S256x1024_o0_768_S256x128 slices_S2048x1024_o0_768_S2048x128 (k1_pay2 x0) (k1_pay3 x1) (k1_pay4 x2) := rfl

/-- The block stored at column offset 896 is the pair of heads on columns 896 … 1023. -/
theorem pay_c896 (x0 : FVec Ideal S1x256x1024 .bf16) (x1 x2 : FVec Ideal S1x2048x1024 .bf16) :
    k1_pay1 (k1_pay34 (k1_pay2 x0)) (k1_pay35 (k1_pay3 x1)) (k1_pay36 (k1_pay4 x2)) (k1_pay37 (k1_pay4 x2)) (k1_pay38 (k1_pay2 x0) (k1_pay3 x1))
      = pairAt 896 slices_S256x1024_o0_896_S256x128 slices_S2048x1024_o0_896_S2048x128 (k1_pay2 x0) (k1_pay3 x1) (k1_pay4 x2) := rfl

/-- The context entry (r, e) of a query block against the key and value rows: the weighted sum over the key rows,
    the scores over the 64 columns of the head of column e. -/
def rowCtx (Q : FVec Ideal S256x1024 .bf16) (K V : FVec Ideal S2048x1024 .bf16) (r : Fin 256) (e : Fin 1024) : EReal :=
  ∑ j : Fin 2048, weight 0xFF800000#32 (fun j' => (∑ d : Fin 64, Q (ix2 r (hcol e d)) * K (ix2 j' (hcol e d))) * scaleW) j
    * V (ix2 j e)

/-- The pair of heads at offset o, read at (0, r, c): the context entry (r, o + c). -/
theorem pairAt_apply (o : Nat) (ho : o % 64 = 0) (hob : o + 128 ≤ 1024) (hq : S256x1024.Slices ![0, o] S256x128)
    (hk : S2048x1024.Slices ![0, o] S2048x128) (Q : FVec Ideal S256x1024 .bf16) (K V : FVec Ideal S2048x1024 .bf16)
    (r : Fin 256) (c : Fin 128) :
    pairAt o hq hk Q K V (ix3 (0 : Fin 1) r c) = rowCtx Q K V r (⟨o + c.val, by have := c.isLt; omega⟩ : Fin 1024) := by
  unfold pairAt rowCtx
  by_cases hc : c.val < 64
  · refine (pairOut_lo _ _ _ r ⟨c.val, hc⟩).trans ?_
    unfold pairVal
    refine Finset.sum_congr rfl fun j _ => ?_
    rw [colSlice_apply (a := 2048) (b := 1024) (w := 128) o V hk j _ (by show o + (0 * 64 + c.val) < 1024; omega)]
    refine congrArg₂ (· * ·) (congrArg (fun s => weight 0xFF800000#32 s j) (funext fun j' => congrArg (· * scaleW) ?_)) ?_
    · refine Finset.sum_congr rfl fun d _ => ?_
      have hd := d.isLt
      rw [colSlice_apply (a := 256) (b := 1024) (w := 128) o Q hq r _ (by show o + (0 * 64 + d.val) < 1024; omega),
        colSlice_apply (a := 2048) (b := 1024) (w := 128) o K hk j' _ (by show o + (0 * 64 + d.val) < 1024; omega)]
      have e : (⟨o + (0 * 64 + d.val), by omega⟩ : Fin 1024) = hcol ⟨o + c.val, by omega⟩ d :=
        Fin.ext (by show o + (0 * 64 + d.val) = (o + c.val) / 64 * 64 + d.val; omega)
      exact congrArg₂ (· * ·) (congrArg Q (congrArg (ix2 r) e)) (congrArg K (congrArg (ix2 j') e))
    · exact congrArg V (congrArg (ix2 j) (Fin.ext (by show o + (0 * 64 + c.val) = o + c.val; omega)))
  · have hc2 : c.val - 64 < 64 := by have := c.isLt; omega
    have ec : c = (⟨64 + (⟨c.val - 64, hc2⟩ : Fin 64).val, by show 64 + (c.val - 64) < 128; omega⟩ : Fin 128) :=
      Fin.ext (by show c.val = 64 + (c.val - 64); omega)
    rw [ec]
    refine (pairOut_hi _ _ _ r ⟨c.val - 64, hc2⟩).trans ?_
    unfold pairVal
    refine Finset.sum_congr rfl fun j _ => ?_
    rw [colSlice_apply (a := 2048) (b := 1024) (w := 128) o V hk j _ (by show o + (1 * 64 + (c.val - 64)) < 1024; omega)]
    refine congrArg₂ (· * ·) (congrArg (fun s => weight 0xFF800000#32 s j) (funext fun j' => congrArg (· * scaleW) ?_)) ?_
    · refine Finset.sum_congr rfl fun d _ => ?_
      have hd := d.isLt
      rw [colSlice_apply (a := 256) (b := 1024) (w := 128) o Q hq r _ (by show o + (1 * 64 + d.val) < 1024; omega),
        colSlice_apply (a := 2048) (b := 1024) (w := 128) o K hk j' _ (by show o + (1 * 64 + d.val) < 1024; omega)]
      have e : (⟨o + (1 * 64 + d.val), by omega⟩ : Fin 1024)
          = hcol ⟨o + (64 + (c.val - 64)), by have := c.isLt; omega⟩ d :=
        Fin.ext (by show o + (1 * 64 + d.val) = (o + (64 + (c.val - 64))) / 64 * 64 + d.val; omega)
      exact congrArg₂ (· * ·) (congrArg Q (congrArg (ix2 r) e)) (congrArg K (congrArg (ix2 j') e))
    · exact congrArg V (congrArg (ix2 j) (Fin.ext (by show o + (1 * 64 + (c.val - 64)) = o + (64 + (c.val - 64)); omega)))

/-- The block as one function of its index (b, r, e): the context entry (r, e) of the block's rows. -/
def attnBlk (x0 : FVec Ideal S1x256x1024 .bf16) (x1 x2 : FVec Ideal S1x2048x1024 .bf16) : S1x256x1024.Idx → EReal :=
  fun i => rowCtx (k1_pay2 x0) (k1_pay3 x1) (k1_pay4 x2) ⟨(i 1).val, (i 1).isLt⟩ ⟨(i 2).val, (i 2).isLt⟩

/-- A piece at column offset o is the block's function on its rectangle. -/
theorem piece_eq (o : Nat) (ho : o % 64 = 0) (hob : o + 128 ≤ 1024)
    (inb : ∀ a, (![0, 0, o] : Fin 3 → Nat) a + S1x256x128.size a ≤ S1x256x1024.size a)
    (hq : S256x1024.Slices ![0, o] S256x128) (hk : S2048x1024.Slices ![0, o] S2048x128)
    (x0 : FVec Ideal S1x256x1024 .bf16) (x1 x2 : FVec Ideal S1x2048x1024 .bf16)
    (x : (Rect.unit (s := S1x256x1024) ![0, 0, o] S1x256x128.size inb).shape.Idx) :
    pairAt o hq hk (k1_pay2 x0) (k1_pay3 x1) (k1_pay4 x2) x
      = attnBlk x0 x1 x2 ((Rect.unit (s := S1x256x1024) ![0, 0, o] S1x256x128.size inb).emb x) := by
  obtain ⟨z, r, c, rfl⟩ : ∃ (z : Fin 1) (r : Fin 256) (c : Fin 128), x = ix3 z r c := ⟨x 0, x 1, x 2, eq_ix3 x⟩
  obtain rfl : z = 0 := Subsingleton.elim _ _
  refine (pairAt_apply o ho hob hq hk _ _ _ r c).trans ?_
  unfold attnBlk
  exact congrArg₂ (rowCtx (k1_pay2 x0) (k1_pay3 x1) (k1_pay4 x2))
    (Fin.ext (by show r.val = 0 + 1 * r.val; omega)) (Fin.ext (by show o + c.val = o + 1 * c.val; omega))

/-- The eight rectangles tile the block. -/
theorem cover8 (p0 p1 p2 p3 p4 p5 p6 p7 : Vec Ideal S1x256x128 .bf16) (y : S1x256x1024.Idx) :
    ∃ pc ∈ ([⟨r1_c896, p7⟩, ⟨r1_c768, p6⟩, ⟨r1_c640, p5⟩, ⟨r1_c512, p4⟩, ⟨r1_c384, p3⟩, ⟨r1_c256, p2⟩, ⟨r1_c128, p1⟩, ⟨r1_c0, p0⟩]
      : List (View.Piece (Elt Ideal) S1x256x1024 .bf16)), y ∈ pc.1.set :=
  View.cover_of_tiled [⟨r1_c896, p7⟩, ⟨r1_c768, p6⟩, ⟨r1_c640, p5⟩, ⟨r1_c512, p4⟩, ⟨r1_c384, p3⟩, ⟨r1_c256, p2⟩, ⟨r1_c128, p1⟩, ⟨r1_c0, p0⟩]
    S1x256x128.size (by rfl) y

/-- What a grid point leaves in the output block is the block's function. -/
theorem out1_3_eq (x0 : FVec Ideal S1x256x1024 .bf16) (x1 x2 : FVec Ideal S1x2048x1024 .bf16) :
    out1_3 (F := Ideal) x0 x1 x2 = attnBlk x0 x1 x2 := by
  have hz : (![0, 0, 0] : Fin 3 → Nat) = fun _ => 0 := by funext a; fin_cases a <;> rfl
  funext y
  unfold out1_3
  simp only [View.ld_unit_zero (S := S1x256x1024) hz, View.ld_unit_zero (S := S1x2048x1024) hz]
  rw [pay_c0, pay_c128, pay_c256, pay_c384, pay_c512, pay_c640, pay_c768, pay_c896]
  refine View.canon_apply_of_pieces (attnBlk x0 x1 x2) _ (fun p hp => ?_) y (cover8 _ _ _ _ _ _ _ _ y)
  simp only [List.mem_cons, List.mem_nil_iff, or_false] at hp
  rcases hp with rfl | rfl | rfl | rfl | rfl | rfl | rfl | rfl
  · exact piece_eq 896 (by decide) (by decide) inb_S1x256x1024_S1x256x128_0_0_896 slices_S256x1024_o0_896_S256x128 slices_S2048x1024_o0_896_S2048x128 x0 x1 x2
  · exact piece_eq 768 (by decide) (by decide) inb_S1x256x1024_S1x256x128_0_0_768 slices_S256x1024_o0_768_S256x128 slices_S2048x1024_o0_768_S2048x128 x0 x1 x2
  · exact piece_eq 640 (by decide) (by decide) inb_S1x256x1024_S1x256x128_0_0_640 slices_S256x1024_o0_640_S256x128 slices_S2048x1024_o0_640_S2048x128 x0 x1 x2
  · exact piece_eq 512 (by decide) (by decide) inb_S1x256x1024_S1x256x128_0_0_512 slices_S256x1024_o0_512_S256x128 slices_S2048x1024_o0_512_S2048x128 x0 x1 x2
  · exact piece_eq 384 (by decide) (by decide) inb_S1x256x1024_S1x256x128_0_0_384 slices_S256x1024_o0_384_S256x128 slices_S2048x1024_o0_384_S2048x128 x0 x1 x2
  · exact piece_eq 256 (by decide) (by decide) inb_S1x256x1024_S1x256x128_0_0_256 slices_S256x1024_o0_256_S256x128 slices_S2048x1024_o0_256_S2048x128 x0 x1 x2
  · exact piece_eq 128 (by decide) (by decide) inb_S1x256x1024_S1x256x128_0_0_128 slices_S256x1024_o0_128_S256x128 slices_S2048x1024_o0_128_S2048x128 x0 x1 x2
  · exact piece_eq 0 (by decide) (by decide) inb_S1x256x1024_S1x256x128_0_0_0 slices_S256x1024_o0_0_S256x128 slices_S2048x1024_o0_0_S2048x128 x0 x1 x2

end Cert.KernelIdeal.HeadV

end
-- ==== Proof.AttnArray.lean ====
/-
  The array of context rows the attention region leaves, as one function of the query, key and value arrays
  it finds.

  The region's 32 grid points are the pairs (sequence b, block t of 256 query rows); point (b, t) reads rows
  256·t … 256·t + 255 of sequence b of the query array and all 2048 rows of sequence b of the key and value arrays,
  and writes the same rows of the result. So its block is the block of one whole-array function — entry (b, s, e) is
  the context of row s of sequence b at column e — and the 32 blocks cover the array.
-/
import proofs.«142345_j19559281066284_2_alg».proof.Proof.AttnPieces
import Idealize.ShloMosaic.Lib.Pipeline.Value

noncomputable section

open scoped BigOperators

namespace Cert.KernelIdeal.HeadV

open Cert.KernelIdeal Cert.KernelIdeal.Gen Cert.KernelIdeal.Fr
open Idealize.ShloMosaic Idealize.ShloMosaic.TcCoe Idealize.ShloMosaic.ValueIdx Idealize.ShloMosaic.RowSoftmax
open Idealize.SL.Sem
open Idealize.ShloMosaic.Pipeline (Dat)

variable (V : (c : Dev nD) → (b : Ref sig .tc) → Buf (Elt Ideal) ((c : Thread nD τ).loc b))

/-- The context rows of three arrays of 4 sequences of 2048 rows of 1024 columns. -/
def ctxArr (Qa Ka Va : S4x2048x1024.Idx → EReal) : S4x2048x1024.Idx → EReal := fun i =>
  Cert.AttnSpec.ctx (fun bi s e => Qa (ix3 bi s e)) (fun bi s e => Ka (ix3 bi s e)) (fun bi s e => Va (ix3 bi s e))
    ⟨(i 0).val, (i 0).isLt⟩ ⟨(i 1).val, (i 1).isLt⟩ ⟨(i 2).val, (i 2).isLt⟩

/-- The windows' block indices over the grid: point t is sequence t / 8, row block t % 8. -/
theorem idx_facts1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = t.val % 8 ∧ win1_3.index t (2 : Fin 3) = 0 :=
  (by decide +kernel : ∀ t : Fin grid1.N, _)

/-- Row r, column e of point t's query block is row 256·(t % 8) + r of sequence t / 8. -/
theorem blkQ_apply (c : Dev nD) (t : Fin cfg1.N) (r : Fin 256) (e : Fin 1024) (bi : Fin 4) (s : Fin 2048)
    (hbi : bi.val = t.val / 8) (hs : s.val = t.val % 8 * 256 + r.val) :
    k1_pay2 (iblk1 V c 0 t) (ix2 r e) = (V c main_v7 : S4x2048x1024.Idx → EReal) (ix3 bi s e) := by
  obtain ⟨e0, e1, e2, -⟩ := idx_facts1 t
  unfold k1_pay2
  refine (shapeCast_apply _ shapeCasts_S1x256x1024_S256x1024 (ix2 r e) (ix3 (0 : Fin 1) r e) ?_).trans ?_
  · rw [Shape.rowMajor_val_two, Shape.rowMajor_val_three]
    show (0 * 256 + r.val) * 1024 + e.val = r.val * 1024 + e.val
    omega
  · unfold iblk1
    rw [View.read_apply]
    show V c main_v7 _ = V c main_v7 _
    congr 1
    funext a
    apply Fin.ext
    match a with
    | ⟨0, _⟩ => show win1_0.index t (0 : Fin 3) * 1 + 1 * 0 = bi.val; omega
    | ⟨1, _⟩ => show win1_0.index t (1 : Fin 3) * 256 + 1 * r.val = s.val; omega
    | ⟨2, _⟩ => show win1_0.index t (2 : Fin 3) * 1024 + 1 * e.val = e.val; omega

/-- Row j, column e of point t's key block is row j of sequence t / 8. -/
theorem blkK_apply (c : Dev nD) (t : Fin cfg1.N) (j : Fin 2048) (e : Fin 1024) (bi : Fin 4) (hbi : bi.val = t.val / 8) :
    k1_pay3 (iblk1 V c 1 t) (ix2 j e) = (V c main_v8 : S4x2048x1024.Idx → EReal) (ix3 bi j e) := by
  obtain ⟨-, -, -, e0, e1, e2, -⟩ := idx_facts1 t
  unfold k1_pay3
  refine (shapeCast_apply _ shapeCasts_S1x2048x1024_S2048x1024 (ix2 j e) (ix3 (0 : Fin 1) j e) ?_).trans ?_
  · rw [Shape.rowMajor_val_two, Shape.rowMajor_val_three]
    show (0 * 2048 + j.val) * 1024 + e.val = j.val * 1024 + e.val
    omega
  · unfold iblk1
    rw [View.read_apply]
    show V c main_v8 _ = V c main_v8 _
    congr 1
    funext a
    apply Fin.ext
    match a with
    | ⟨0, _⟩ => show win1_1.index t (0 : Fin 3) * 1 + 1 * 0 = bi.val; omega
    | ⟨1, _⟩ => show win1_1.index t (1 : Fin 3) * 2048 + 1 * j.val = j.val; omega
    | ⟨2, _⟩ => show win1_1.index t (2 : Fin 3) * 1024 + 1 * e.val = e.val; omega

/-- Row j, column e of point t's value block is row j of sequence t / 8. -/
theorem blkV_apply (c : Dev nD) (t : Fin cfg1.N) (j : Fin 2048) (e : Fin 1024) (bi : Fin 4) (hbi : bi.val = t.val / 8) :
    k1_pay4 (iblk1 V c 2 t) (ix2 j e) = (V c main_v9 : S4x2048x1024.Idx → EReal) (ix3 bi j e) := by
  obtain ⟨-, -, -, -, -, -, e0, e1, e2, -⟩ := idx_facts1 t
  unfold k1_pay4
  refine (shapeCast_apply _ shapeCasts_S1x2048x1024_S2048x1024 (ix2 j e) (ix3 (0 : Fin 1) j e) ?_).trans ?_
  · rw [Shape.rowMajor_val_two, Shape.rowMajor_val_three]
    show (0 * 2048 + j.val) * 1024 + e.val = j.val * 1024 + e.val
    omega
  · unfold iblk1
    rw [View.read_apply]
    show V c main_v9 _ = V c main_v9 _
    congr 1
    funext a
    apply Fin.ext
    match a with
    | ⟨0, _⟩ => show win1_2.index t (0 : Fin 3) * 1 + 1 * 0 = bi.val; omega
    | ⟨1, _⟩ => show win1_2.index t (1 : Fin 3) * 2048 + 1 * j.val = j.val; omega
    | ⟨2, _⟩ => show win1_2.index t (2 : Fin 3) * 1024 + 1 * e.val = e.val; omega

/-- What point t writes back is block t of the context rows of the arrays the region finds. -/
theorem flushed1_eq (c : Dev nD) (t : Fin cfg1.N) :
    (dat1 V c).flushed 3 t = ((cfg1.win 3).blk t).view.read (Elt Ideal) (ctxArr (V c main_v7) (V c main_v8) (V c main_v9)) := by
  show (cfg1.win 3).cut (grid1.coords t) ((dat1 V c).after 3 t) = _
  rw [after1_3, out1_3_eq]
  obtain ⟨-, -, -, -, -, -, -, -, -, e0, e1, e2⟩ := idx_facts1 t
  have ht : t.val < 32 := t.isLt
  refine funext fun (y : S1x256x1024.Idx) => ?_
  obtain ⟨z, r, e, rfl⟩ : ∃ (z : Fin 1) (r : Fin 256) (e : Fin 1024), y = ix3 z r e := ⟨y 0, y 1, y 2, eq_ix3 y⟩
  obtain rfl : z = 0 := Subsingleton.elim _ _
  -- the array index under the block's index
  have hemb : ((cfg1.win 3).blk t).view.emb (ix3 (0 : Fin 1) r e)
      = ix3 (⟨t.val / 8, by omega⟩ : Fin 4) (⟨t.val % 8 * 256 + r.val, by have := r.isLt; omega⟩ : Fin 2048) e := by
    funext a
    apply Fin.ext
    match a with
    | ⟨0, _⟩ => show win1_3.index t (0 : Fin 3) * 1 + 1 * 0 = t.val / 8; omega
    | ⟨1, _⟩ => show win1_3.index t (1 : Fin 3) * 256 + 1 * r.val = t.val % 8 * 256 + r.val; omega
    | ⟨2, _⟩ => show win1_3.index t (2 : Fin 3) * 1024 + 1 * e.val = e.val; omega
  show attnBlk (iblk1 V c 0 t) (iblk1 V c 1 t) (iblk1 V c 2 t) (ix3 (0 : Fin 1) r e)
    = ctxArr (V c main_v7) (V c main_v8) (V c main_v9) (((cfg1.win 3).blk t).view.emb (ix3 (0 : Fin 1) r e))
  rw [hemb]
  unfold attnBlk ctxArr rowCtx Cert.AttnSpec.ctx Cert.AttnSpec.score
  refine Finset.sum_congr rfl fun j _ => ?_
  refine congrArg₂ (· * ·) (congrArg (fun s => weight 0xFF800000#32 s j) (funext fun j' => congrArg (· * scaleW) ?_)) ?_
  · refine Finset.sum_congr rfl fun d _ => ?_
    exact congrArg₂ (· * ·) (blkQ_apply V c t r _ _ _ rfl rfl) (blkK_apply V c t j' _ _ rfl)
  · exact blkV_apply V c t j e _ rfl

/-- An index of the array is in point t's block iff each coordinate is in the block's range on its axis. -/
theorem mem_blk1 (t : Fin cfg1.N) (i : S4x2048x1024.Idx) :
    i ∈ ((cfg1.win 3).blk t).view.set ↔ ∀ a : Fin 3, win1_3.index t a * S1x256x1024.size a ≤ (i a).val
      ∧ (i a).val < win1_3.index t a * S1x256x1024.size a + S1x256x1024.size a := by
  show i ∈ ((View.whole main_v10).slice (win1_3.rect t)).set ↔ _
  rw [View.set_slice_whole, Rect.mem_set_unit]
  exact Iff.rfl

/-- The array the region leaves: the context rows of the arrays it finds. -/
theorem final1 (c : Dev nD) :
    (dat1 V c).arrAt 3 cfg1.N = ctxArr (V c main_v7) (V c main_v8) (V c main_v9) :=
  (dat1 V c).arrAt_eq_of_cover 3 (ctxArr (V c main_v7) (V c main_v8) (V c main_v9)) (fun t _ => flushed1_eq V c t) fun i => by
    have h0 : (i 0).val < 4 := (i 0).isLt
    have h1 : (i 1).val < 2048 := (i 1).isLt
    have h2 : (i 2).val < 1024 := (i 2).isLt
    have hN : cfg1.N = 32 := N_1
    refine ⟨⟨(i 0).val * 8 + (i 1).val / 256, by rw [hN]; omega⟩, flush1_3 _, ?_⟩
    obtain ⟨-, -, -, -, -, -, -, -, -, e0, e1, e2⟩ := idx_facts1 ⟨(i 0).val * 8 + (i 1).val / 256, by rw [hN]; omega⟩
    refine (mem_blk1 _ i).mpr fun a => ?_
    match a with
    | ⟨0, _⟩ => show win1_3.index _ (0 : Fin 3) * 1 ≤ (i 0).val ∧ (i 0).val < win1_3.index _ (0 : Fin 3) * 1 + 1
                rw [e0]; show ((i 0).val * 8 + (i 1).val / 256) / 8 * 1 ≤ _ ∧ _ < ((i 0).val * 8 + (i 1).val / 256) / 8 * 1 + 1; omega
    | ⟨1, _⟩ => show win1_3.index _ (1 : Fin 3) * 256 ≤ (i 1).val ∧ (i 1).val < win1_3.index _ (1 : Fin 3) * 256 + 256
                rw [e1]; show ((i 0).val * 8 + (i 1).val / 256) % 8 * 256 ≤ _ ∧ _ < ((i 0).val * 8 + (i 1).val / 256) % 8 * 256 + 256; omega
    | ⟨2, _⟩ => show win1_3.index _ (2 : Fin 3) * 1024 ≤ (i 2).val ∧ (i 2).val < win1_3.index _ (2 : Fin 3) * 1024 + 1024
                rw [e2]; omega

end Cert.KernelIdeal.HeadV

end
-- ==== Proof.KernelCtx.lean ====
/-
  The context array after the attention region, from what the three projection arrays hold before it.

  If the query, key and value arrays entering the region are given functions q, k, v of (sequence, row, column), the
  array the region writes holds at (b, s, e) the context of row s of sequence b at column e computed from q, k, v.
-/
import proofs.«142345_j19559281066284_2_alg».proof.Proof.AttnArray

noncomputable section

namespace Cert.KernelIdeal.KV

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The region's output array: the context rows of what it found in the three projection arrays. -/
theorem V4_ctx (c : Dev nD) (q kk v : Fin 4 → Fin 2048 → Fin 1024 → EReal)
    (hq : ∀ i : S4x2048x1024.Idx, Fr.V3 (F := Ideal) m ρ c main_v7 i = q ⟨(i 0).val, (i 0).isLt⟩ ⟨(i 1).val, (i 1).isLt⟩ ⟨(i 2).val, (i 2).isLt⟩)
    (hk : ∀ i : S4x2048x1024.Idx, Fr.V3 (F := Ideal) m ρ c main_v8 i = kk ⟨(i 0).val, (i 0).isLt⟩ ⟨(i 1).val, (i 1).isLt⟩ ⟨(i 2).val, (i 2).isLt⟩)
    (hv : ∀ i : S4x2048x1024.Idx, Fr.V3 (F := Ideal) m ρ c main_v9 i = v ⟨(i 0).val, (i 0).isLt⟩ ⟨(i 1).val, (i 1).isLt⟩ ⟨(i 2).val, (i 2).isLt⟩) :
    ∀ i : S4x2048x1024.Idx, Fr.V4 (F := Ideal) m ρ c main_v10 i
      = Cert.AttnSpec.ctx q kk v ⟨(i 0).val, (i 0).isLt⟩ ⟨(i 1).val, (i 1).isLt⟩ ⟨(i 2).val, (i 2).isLt⟩ := by
  intro i
  have h := congrFun ((Fr.W4_arr (F := Ideal) m ρ c 3).trans (HeadV.final1 (Fr.V3 (F := Ideal) m ρ) c)) i
  refine h.trans ?_
  unfold HeadV.ctxArr
  have eq : (fun (bi : Fin 4) (s : Fin 2048) (e : Fin 1024) => (Fr.V3 (F := Ideal) m ρ c main_v7 : S4x2048x1024.Idx → EReal) (ix3 bi s e)) = q :=
    funext fun bi => funext fun s => funext fun e => hq (ix3 bi s e)
  have ek : (fun (bi : Fin 4) (s : Fin 2048) (e : Fin 1024) => (Fr.V3 (F := Ideal) m ρ c main_v8 : S4x2048x1024.Idx → EReal) (ix3 bi s e)) = kk :=
    funext fun bi => funext fun s => funext fun e => hk (ix3 bi s e)
  have ev : (fun (bi : Fin 4) (s : Fin 2048) (e : Fin 1024) => (Fr.V3 (F := Ideal) m ρ c main_v9 : S4x2048x1024.Idx → EReal) (ix3 bi s e)) = v :=
    funext fun bi => funext fun s => funext fun e => hv (ix3 bi s e)
  rw [eq, ek, ev]

end Cert.KernelIdeal.KV

end
-- ==== Proof.LibRowSpread.lean ====
/-
  A one-row matrix spread over many rows, and a scalar spread over an array, read at an index.

  A 1 × b matrix broadcast to a × b reads its entry (0, q) at every (p, q), whether the broadcast is the vector
  one or the host's broadcast in dimensions [0, 1]; a rank-0 array broadcast in no dimensions reads its one entry
  everywhere.
-/
import Idealize.ShloMosaic.Lib.Pipeline.Value
import Idealize.ShloMosaic.Lib.ValueIdx

noncomputable section

namespace Idealize.ShloMosaic.RowSpread

open Idealize.ShloMosaic Idealize.ShloMosaic.ValueIdx

variable {a b : Nat} {α : Type}

/-- A row spread over a rows by the vector broadcast reads its entry (0, q) at every (p, q). -/
theorem rowBcast_apply (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a row over a rows reads its entry (0, q) at every (p, q). -/
theorem rowInDim2_apply (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply ![0, 1] h w (ix2 p q) (ix2 (0 : Fin 1) q) fun ax => ?_
  match ax with
  | ⟨0, _⟩ => rfl
  | ⟨1, _⟩ =>
    show q.val = if b = 1 then 0 else q.val
    split
    · have := q.isLt; omega
    · rfl

/-- The host's spread of a scalar reads its one entry everywhere. -/
theorem scalarInDim_apply {s : Shape} (v : (⟨0, ![]⟩ : Shape).Idx → α)
    (h : (⟨0, ![]⟩ : Shape).BroadcastsInDim s ![]) (i : s.Idx) :
    broadcastInDim s ![] h v i = v ix0 :=
  broadcastInDim_apply ![] h v i ix0 fun ax => ax.elim0

end Idealize.ShloMosaic.RowSpread

end
-- ==== Proof.ValR0Pay.lean ====
/-
  The three projections of the first kernel, read at an index over the extended reals.

  The body computes y = x·Wt + b once, for a block x of 512 rows of 1024 features, the 1024 × 3072 matrix Wt and the
  row b of 3072 entries, and stores the three blocks of 1024 columns of y at column offsets 0, 1024 and 2048. Entry
  (r, e) of the block at offset o is the sum over d of x (r, d) · Wt (d, o + e), plus b (0, o + e): the changes of
  float format and the casts of a shape to itself are the identity over the extended reals.
-/
import proofs.«142345_j19559281066284_2_alg».proof.Proof.Gen.KernelIdeal.Skeleton
import proofs.«142345_j19559281066284_2_alg».proof.Proof.LibPlainDot
import proofs.«142345_j19559281066284_2_alg».proof.Proof.LibRowSpread
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen
open Idealize.ShloMosaic Idealize.ShloMosaic.ValueIdx

/-- A block of w columns cut out of a matrix at column offset o: entry (r, c) is the matrix's entry (r, o + c). -/
theorem colSliceAt {α : Type} {a b w : Nat} (o : Nat) (x : (⟨2, ![a, b]⟩ : Shape).Idx → α)
    (h : (⟨2, ![a, b]⟩ : Shape).Slices ![0, o] ⟨2, ![a, w]⟩) (r : Fin a) (c : Fin w) (hb : o + c.val < b) :
    extractStridedSlice ⟨2, ![a, w]⟩ ![0, o] x h (ix2 r c) = x (ix2 r (⟨o + c.val, hb⟩ : Fin b)) :=
  extractStridedSlice_apply ![0, o] x h (ix2 r c) (ix2 r (⟨o + c.val, hb⟩ : Fin b)) fun ax => by
    match ax with
    | ⟨0, _⟩ => show r.val = 0 + r.val; omega
    | ⟨1, _⟩ => rfl

/-- The affine map before it is cut: entry (r, e) of x·Wt + b. -/
theorem k0_pay1_apply (x0 : Vec Ideal S512x1024 .f32) (x1 : Vec Ideal S1024x3072 .bf16) (x2 : Vec Ideal S1x3072 .f32)
    (r : Fin 512) (e : Fin 3072) :
    k0_pay1 x0 x1 x2 (ix2 r e) = (∑ d : Fin 1024, x0 (ix2 r d) * x1 (ix2 d e)) + x2 (ix2 (0 : Fin 1) e) := by
  unfold k0_pay1
  refine congrArg₂ (· + ·) ?_ ?_
  · refine (PlainDot.matmul_zero_apply (M := 512) (K := 1024) (N := 3072) none _ _ r e).trans ?_
    refine Finset.sum_congr rfl fun d _ => ?_
    rw [shapeCast_self, shapeCast_self]
    rfl
  · refine (RowSpread.rowBcast_apply (a := 512) (b := 3072) _ broadcasts_S1x3072_S512x3072 r e).trans ?_
    rw [shapeCast_self]

/-- The block of 1024 columns at offset 0 (the queries' projection). -/
theorem k0_pay2_apply (x0 : Vec Ideal S512x1024 .f32) (x1 : Vec Ideal S1024x3072 .bf16) (x2 : Vec Ideal S1x3072 .f32)
    (r : Fin 512) (e : Fin 1024) :
    k0_pay2 x0 x1 x2 (ix2 r e)
      = (∑ d : Fin 1024, x0 (ix2 r d) * x1 (ix2 d (⟨0 + e.val, by have := e.isLt; omega⟩ : Fin 3072)))
        + x2 (ix2 (0 : Fin 1) (⟨0 + e.val, by have := e.isLt; omega⟩ : Fin 3072)) := by
  unfold k0_pay2
  refine (colSliceAt (a := 512) (b := 3072) (w := 1024) 0 (k0_pay1 x0 x1 x2) slices_S512x3072_o0_0_S512x1024 r e
    (by have := e.isLt; omega)).trans ?_
  exact k0_pay1_apply x0 x1 x2 r _

/-- The block at offset 1024 (the keys' projection). -/
theorem k0_pay3_apply (x0 : Vec Ideal S512x1024 .f32) (x1 : Vec Ideal S1024x3072 .bf16) (x2 : Vec Ideal S1x3072 .f32)
    (r : Fin 512) (e : Fin 1024) :
    k0_pay3 x0 x1 x2 (ix2 r e)
      = (∑ d : Fin 1024, x0 (ix2 r d) * x1 (ix2 d (⟨1024 + e.val, by have := e.isLt; omega⟩ : Fin 3072)))
        + x2 (ix2 (0 : Fin 1) (⟨1024 + e.val, by have := e.isLt; omega⟩ : Fin 3072)) := by
  unfold k0_pay3
  refine (colSliceAt (a := 512) (b := 3072) (w := 1024) 1024 (k0_pay1 x0 x1 x2) slices_S512x3072_o0_1024_S512x1024 r e
    (by have := e.isLt; omega)).trans ?_
  exact k0_pay1_apply x0 x1 x2 r _

/-- The block at offset 2048 (the values' projection). -/
theorem k0_pay4_apply (x0 : Vec Ideal S512x1024 .f32) (x1 : Vec Ideal S1024x3072 .bf16) (x2 : Vec Ideal S1x3072 .f32)
    (r : Fin 512) (e : Fin 1024) :
    k0_pay4 x0 x1 x2 (ix2 r e)
      = (∑ d : Fin 1024, x0 (ix2 r d) * x1 (ix2 d (⟨2048 + e.val, by have := e.isLt; omega⟩ : Fin 3072)))
        + x2 (ix2 (0 : Fin 1) (⟨2048 + e.val, by have := e.isLt; omega⟩ : Fin 3072)) := by
  unfold k0_pay4
  refine (colSliceAt (a := 512) (b := 3072) (w := 1024) 2048 (k0_pay1 x0 x1 x2) slices_S512x3072_o0_2048_S512x1024 r e
    (by have := e.isLt; omega)).trans ?_
  exact k0_pay1_apply x0 x1 x2 r _

end Cert.KernelIdeal.Val

end
-- ==== Proof.ValR0Blk.lean ====
/-
  From the blocks the first kernel writes back to its three output arrays.

  Grid point t writes rows 512·t … 512·t + 511 of each output; the whole of Wt and of the row b are staged at every
  point, and the block of x at point t is rows 512·t … 512·t + 511 of x. Entry (R, e) of the output at column offset
  o is therefore the sum over d of X (R, d) · Wt (d, o + e), plus B (0, o + e), with X, Wt, B the three arrays the
  region is entered with; the sixteen blocks cover the 8192 rows.
-/
import proofs.«142345_j19559281066284_2_alg».proof.Proof.IFrameDefs
import proofs.«142345_j19559281066284_2_alg».proof.Proof.ValR0Pay
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen
open Idealize.ShloMosaic Idealize.ShloMosaic.ValueIdx Cert.KernelIdeal.Fr

open Idealize.ShloMosaic.TcCoe Idealize.SL.Sem
open Idealize.ShloMosaic.Pipeline (Dat)

variable (V : (c : Dev nD) → (b : Ref sig .tc) → Buf (Elt Ideal) ((c : Thread nD τ).loc b)) (c : Dev nD)

theorem hz2 : (![0, 0] : Fin 2 → Nat) = fun _ => 0 := funext fun a => by fin_cases a <;> rfl

/-- The affine map of every row of X, its columns o … o + 1023: what an output array ends holding. -/
def linArr (o : Nat) (ho : o + 1024 ≤ 3072) (X : S8192x1024.Idx → EReal) (Wt : S1024x3072.Idx → EReal) (B : S1x3072.Idx → EReal) :
    S8192x1024.Idx → EReal :=
  fun i => (∑ d : Fin 1024, X (ix2 (⟨(i 0).val, idx2_lt0 i⟩ : Fin 8192) d)
        * Wt (ix2 d (⟨o + (i 1).val, by have := idx2_lt1 i; omega⟩ : Fin 3072)))
      + B (ix2 (0 : Fin 1) (⟨o + (i 1).val, by have := idx2_lt1 i; omega⟩ : Fin 3072))

/-- The printed index maps, decided over the grid: the block of x moves with the outputs' blocks down the rows, Wt and
    b are staged whole, and the three outputs' blocks sit at the same rows. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15
    ∧ win0_4.index t (0 : Fin 2) = win0_3.index t (0 : Fin 2) ∧ win0_4.index t (1 : Fin 2) = 0
    ∧ win0_5.index t (0 : Fin 2) = win0_3.index t (0 : Fin 2) ∧ win0_5.index t (1 : Fin 2) = 0 :=
  (by decide +kernel : ∀ t : Fin grid0.N, _)

/-- Every block of rows is some point's. -/
theorem idx_onto0 : ∀ q0 : Fin 16, ∃ t : Fin cfg0.N, win0_3.index t (0 : Fin 2) = q0.val :=
  (by decide +kernel : ∀ q0 : Fin 16, ∃ t : Fin grid0.N, win0_3.index t (0 : Fin 2) = q0.val)

/-- What point t writes back of window 3 is block t of the affine map at column offset 0. -/
theorem flushed0_3_eq (t : Fin cfg0.N) :
    (dat0 V c).flushed 3 t = ((cfg0.win 3).blk t).view.read (Elt Ideal)
      (linArr 0 (by omega) (V c main_v5) (V c main_v2) (V c main_v4)) := by
  show (cfg0.win 3).cut (grid0.coords t) ((dat0 V c).after 3 t) = _
  rw [after0_3]
  unfold out0_3
  rw [View.canon_unit_zero hz2]
  simp only [View.ld_unit_zero (S := S512x1024) hz2, View.ld_unit_zero (S := S1024x3072) hz2, View.ld_unit_zero (S := S1x3072) hz2]
  obtain ⟨e0, e1, e2, e3, e4, e5, e6, e7, e8, e9, e10, e11⟩ := idx_facts0 t
  funext j
  obtain ⟨r, e, rfl⟩ : ∃ (r : Fin 512) (e : Fin 1024), j = ix2 r e := ⟨j 0, j 1, eq_ix2 j⟩
  refine (k0_pay2_apply _ _ _ r e).trans ?_
  show _ = linArr 0 (by omega) (V c main_v5) (V c main_v2) (V c main_v4) (((cfg0.win 3).blk t).view.emb (ix2 r e))
  unfold linArr
  refine congrArg₂ (· + ·) (Finset.sum_congr rfl fun d _ => congrArg₂ (· * ·) ?_ ?_) ?_
  · show V c main_v5 (((cfg0.win 0).blk t).view.emb (ix2 r d)) = _
    refine congrArg (V c main_v5) (funext fun a => Fin.ext ?_)
    match a with
    | ⟨0, _⟩ => show win0_0.index t (0 : Fin 2) * 512 + 1 * r.val = win0_3.index t (0 : Fin 2) * 512 + 1 * r.val; omega
    | ⟨1, _⟩ => show win0_0.index t (1 : Fin 2) * 1024 + 1 * d.val = d.val; omega
  · show V c main_v2 (((cfg0.win 1).blk t).view.emb (ix2 d _)) = _
    refine congrArg (V c main_v2) (funext fun a => Fin.ext ?_)
    match a with
    | ⟨0, _⟩ => show win0_1.index t (0 : Fin 2) * 1024 + 1 * d.val = d.val; omega
    | ⟨1, _⟩ => show win0_1.index t (1 : Fin 2) * 3072 + 1 * (0 + e.val) = 0 + (win0_3.index t (1 : Fin 2) * 1024 + 1 * e.val); omega
  · show V c main_v4 (((cfg0.win 2).blk t).view.emb (ix2 (0 : Fin 1) _)) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 3072 + 1 * (0 + e.val) = 0 + (win0_3.index t (1 : Fin 2) * 1024 + 1 * e.val); omega

/-- An index of the array is in point t's block iff each coordinate is in the block's range on its axis. -/
theorem mem_blk0_3 (t : Fin cfg0.N) (i : S8192x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v6_0).slice (win0_3.rect t)).set ↔ _
  rw [View.set_slice_whole, Rect.mem_set_unit]
  exact Iff.rfl

/-- Every index of the array is in the block of the point its row falls in. -/
theorem covered0_3 (i : S8192x1024.Idx) :
    ∃ t : Fin cfg0.N, (cfg0.win 3).flush t = true ∧ i ∈ ((cfg0.win 3).blk t).view.set := by
  have hi0 : (i 0).val < 8192 := idx2_lt0 i
  have hi1 : (i 1).val < 1024 := idx2_lt1 i
  obtain ⟨t, ht⟩ := idx_onto0 ⟨(i 0).val / 512, by omega⟩
  have q0 : win0_3.index t (0 : Fin 2) = (i 0).val / 512 := ht
  obtain ⟨e0, e1, e2, e3, e4, e5, e6, e7, e8, e9, e10, e11⟩ := idx_facts0 t
  refine ⟨t, flush0_3 t, ?_⟩
  rw [mem_blk0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The array of window 3 after the run: the affine map at column offset 0 of the region-entry arrays. -/
theorem final0_3 : (dat0 V c).arrAt 3 cfg0.N = linArr 0 (by omega) (V c main_v5) (V c main_v2) (V c main_v4) :=
  (dat0 V c).arrAt_eq_of_cover 3 _ (fun t _ => flushed0_3_eq V c t) (covered0_3)

/-- What point t writes back of window 4 is block t of the affine map at column offset 1024. -/
theorem flushed0_4_eq (t : Fin cfg0.N) :
    (dat0 V c).flushed 4 t = ((cfg0.win 4).blk t).view.read (Elt Ideal)
      (linArr 1024 (by omega) (V c main_v5) (V c main_v2) (V c main_v4)) := by
  show (cfg0.win 4).cut (grid0.coords t) ((dat0 V c).after 4 t) = _
  rw [after0_4]
  unfold out0_4
  rw [View.canon_unit_zero hz2]
  simp only [View.ld_unit_zero (S := S512x1024) hz2, View.ld_unit_zero (S := S1024x3072) hz2, View.ld_unit_zero (S := S1x3072) hz2]
  obtain ⟨e0, e1, e2, e3, e4, e5, e6, e7, e8, e9, e10, e11⟩ := idx_facts0 t
  funext j
  obtain ⟨r, e, rfl⟩ : ∃ (r : Fin 512) (e : Fin 1024), j = ix2 r e := ⟨j 0, j 1, eq_ix2 j⟩
  refine (k0_pay3_apply _ _ _ r e).trans ?_
  show _ = linArr 1024 (by omega) (V c main_v5) (V c main_v2) (V c main_v4) (((cfg0.win 4).blk t).view.emb (ix2 r e))
  unfold linArr
  refine congrArg₂ (· + ·) (Finset.sum_congr rfl fun d _ => congrArg₂ (· * ·) ?_ ?_) ?_
  · show V c main_v5 (((cfg0.win 0).blk t).view.emb (ix2 r d)) = _
    refine congrArg (V c main_v5) (funext fun a => Fin.ext ?_)
    match a with
    | ⟨0, _⟩ => show win0_0.index t (0 : Fin 2) * 512 + 1 * r.val = win0_4.index t (0 : Fin 2) * 512 + 1 * r.val; omega
    | ⟨1, _⟩ => show win0_0.index t (1 : Fin 2) * 1024 + 1 * d.val = d.val; omega
  · show V c main_v2 (((cfg0.win 1).blk t).view.emb (ix2 d _)) = _
    refine congrArg (V c main_v2) (funext fun a => Fin.ext ?_)
    match a with
    | ⟨0, _⟩ => show win0_1.index t (0 : Fin 2) * 1024 + 1 * d.val = d.val; omega
    | ⟨1, _⟩ => show win0_1.index t (1 : Fin 2) * 3072 + 1 * (1024 + e.val) = 1024 + (win0_4.index t (1 : Fin 2) * 1024 + 1 * e.val); omega
  · show V c main_v4 (((cfg0.win 2).blk t).view.emb (ix2 (0 : Fin 1) _)) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 3072 + 1 * (1024 + e.val) = 1024 + (win0_4.index t (1 : Fin 2) * 1024 + 1 * e.val); omega

/-- An index of the array is in point t's block iff each coordinate is in the block's range on its axis. -/
theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v6_1).slice (win0_4.rect t)).set ↔ _
  rw [View.set_slice_whole, Rect.mem_set_unit]
  exact Iff.rfl

/-- Every index of the array is in the block of the point its row falls in. -/
theorem covered0_4 (i : S8192x1024.Idx) :
    ∃ t : Fin cfg0.N, (cfg0.win 4).flush t = true ∧ i ∈ ((cfg0.win 4).blk t).view.set := by
  have hi0 : (i 0).val < 8192 := idx2_lt0 i
  have hi1 : (i 1).val < 1024 := idx2_lt1 i
  obtain ⟨t, ht⟩ := idx_onto0 ⟨(i 0).val / 512, by omega⟩
  have q0 : win0_3.index t (0 : Fin 2) = (i 0).val / 512 := ht
  obtain ⟨e0, e1, e2, e3, e4, e5, e6, e7, e8, e9, e10, e11⟩ := idx_facts0 t
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The array of window 4 after the run: the affine map at column offset 1024 of the region-entry arrays. -/
theorem final0_4 : (dat0 V c).arrAt 4 cfg0.N = linArr 1024 (by omega) (V c main_v5) (V c main_v2) (V c main_v4) :=
  (dat0 V c).arrAt_eq_of_cover 4 _ (fun t _ => flushed0_4_eq V c t) (covered0_4)

/-- What point t writes back of window 5 is block t of the affine map at column offset 2048. -/
theorem flushed0_5_eq (t : Fin cfg0.N) :
    (dat0 V c).flushed 5 t = ((cfg0.win 5).blk t).view.read (Elt Ideal)
      (linArr 2048 (by omega) (V c main_v5) (V c main_v2) (V c main_v4)) := by
  show (cfg0.win 5).cut (grid0.coords t) ((dat0 V c).after 5 t) = _
  rw [after0_5]
  unfold out0_5
  rw [View.canon_unit_zero hz2]
  simp only [View.ld_unit_zero (S := S512x1024) hz2, View.ld_unit_zero (S := S1024x3072) hz2, View.ld_unit_zero (S := S1x3072) hz2]
  obtain ⟨e0, e1, e2, e3, e4, e5, e6, e7, e8, e9, e10, e11⟩ := idx_facts0 t
  funext j
  obtain ⟨r, e, rfl⟩ : ∃ (r : Fin 512) (e : Fin 1024), j = ix2 r e := ⟨j 0, j 1, eq_ix2 j⟩
  refine (k0_pay4_apply _ _ _ r e).trans ?_
  show _ = linArr 2048 (by omega) (V c main_v5) (V c main_v2) (V c main_v4) (((cfg0.win 5).blk t).view.emb (ix2 r e))
  unfold linArr
  refine congrArg₂ (· + ·) (Finset.sum_congr rfl fun d _ => congrArg₂ (· * ·) ?_ ?_) ?_
  · show V c main_v5 (((cfg0.win 0).blk t).view.emb (ix2 r d)) = _
    refine congrArg (V c main_v5) (funext fun a => Fin.ext ?_)
    match a with
    | ⟨0, _⟩ => show win0_0.index t (0 : Fin 2) * 512 + 1 * r.val = win0_5.index t (0 : Fin 2) * 512 + 1 * r.val; omega
    | ⟨1, _⟩ => show win0_0.index t (1 : Fin 2) * 1024 + 1 * d.val = d.val; omega
  · show V c main_v2 (((cfg0.win 1).blk t).view.emb (ix2 d _)) = _
    refine congrArg (V c main_v2) (funext fun a => Fin.ext ?_)
    match a with
    | ⟨0, _⟩ => show win0_1.index t (0 : Fin 2) * 1024 + 1 * d.val = d.val; omega
    | ⟨1, _⟩ => show win0_1.index t (1 : Fin 2) * 3072 + 1 * (2048 + e.val) = 2048 + (win0_5.index t (1 : Fin 2) * 1024 + 1 * e.val); omega
  · show V c main_v4 (((cfg0.win 2).blk t).view.emb (ix2 (0 : Fin 1) _)) = _
    refine congrArg (V c main_v4) (funext fun a => Fin.ext ?_)
    match a with
    | ⟨0, _⟩ => show win0_2.index t (0 : Fin 2) * 1 + 1 * 0 = 0; omega
    | ⟨1, _⟩ => show win0_2.index t (1 : Fin 2) * 3072 + 1 * (2048 + e.val) = 2048 + (win0_5.index t (1 : Fin 2) * 1024 + 1 * e.val); omega

/-- An index of the array is in point t's block iff each coordinate is in the block's range on its axis. -/
theorem mem_blk0_5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6_2).slice (win0_5.rect t)).set ↔ _
  rw [View.set_slice_whole, Rect.mem_set_unit]
  exact Iff.rfl

/-- Every index of the array is in the block of the point its row falls in. -/
theorem covered0_5 (i : S8192x1024.Idx) :
    ∃ t : Fin cfg0.N, (cfg0.win 5).flush t = true ∧ i ∈ ((cfg0.win 5).blk t).view.set := by
  have hi0 : (i 0).val < 8192 := idx2_lt0 i
  have hi1 : (i 1).val < 1024 := idx2_lt1 i
  obtain ⟨t, ht⟩ := idx_onto0 ⟨(i 0).val / 512, by omega⟩
  have q0 : win0_3.index t (0 : Fin 2) = (i 0).val / 512 := ht
  obtain ⟨e0, e1, e2, e3, e4, e5, e6, e7, e8, e9, e10, e11⟩ := idx_facts0 t
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- The array of window 5 after the run: the affine map at column offset 2048 of the region-entry arrays. -/
theorem final0_5 : (dat0 V c).arrAt 5 cfg0.N = linArr 2048 (by omega) (V c main_v5) (V c main_v2) (V c main_v4) :=
  (dat0 V c).arrAt_eq_of_cover 5 _ (fun t _ => flushed0_5_eq V c t) (covered0_5)

end Cert.KernelIdeal.Val

end
-- ==== Proof.LibNary3.lean ====
/-
  A host operation over a literal family of three references, read at its result.

  A `stablehlo.concatenate` of three operands is printed as an n-ary operation over the family ![a, b, c]. Its result
  at its own reference is its function applied to the operands' contents. Stated with the contents as the function
  k ↦ F ↑(![a, b, c] k), the references under the binder are no literals, and nothing further can be read off them;
  stated with each operand's contents at its own reference — Fin.cons (F ↑a) (Fin.cons (F ↑b) (Fin.cons (F ↑c) _)) —
  the reading goes on into the operands. This is the three-operand companion of the library's four-operand form,
  together with the one-pass read-off of a line of host operations that uses it.
-/
import Idealize.ShloMosaic.Lib.StableHlo.Run

namespace Cert.LibNary3

open Idealize.ShloMosaic Idealize.ShloMosaic.StableHlo

variable {τ : Topo} {sig : RefSig} {Val : EltTy → Type} {x a b y : Ref sig .tc}

/-- An n-ary host operation over the literal family ![x, a, b], at its own result reference: its function of the three
    operands' contents, each read at its own reference. The family's length is left as the notation ![x, a, b] itself
    elaborates it (three successors of zero, not the numeral 3): the rewriting pass finds a lemma by the syntactic shape
    of its left side, and that is the shape a printed program's family has. -/
theorem nary3_result'
    (f : ((k : _) → ((![x, a, b]) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- What one buffer holds after a line of host operations, read off in one rewriting pass: each operation's result at
    its own reference is its function of its operands' contents, at any other reference what was there before. An
    n-ary operation is read by the lemmas handed to the tactic (one per three-operand family of the program, stated
    with the operands as plain arguments, so that the pass goes on into them); the general form with the operands'
    contents under a binder is left out on purpose: the pass would take it, and stop there. -/
macro "read_off" "[" ls:Lean.Parser.Tactic.simpLemma,* "]" : tactic =>
  `(tactic| (simp (disch := decide) only [$ls,*, after_cons, after_nil,
      nullary_result', unary_result', binary_result', ternary_result', quaternary_result', reshape_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibNary3
-- ==== Proof.LibFlatten.lean ====
/-
  The leading two axes of a three-axis array merged into one, and split again, read at an index.

  An a × b × c array viewed as n × c with n = a·b has, as its row p·b + q, the row (p, q) of the array; conversely an
  n × c array viewed as a × b × c has at (p, q, k) the entry (p·b + q, k). Both are statements about row-major positions:
  ((p·b + q)·c + k) on both sides.
-/
import Idealize.ShloMosaic.Lib.Pipeline.Value
import Idealize.ShloMosaic.Lib.ValueIdx

noncomputable section

namespace Idealize.ShloMosaic.Flatten

open Idealize.ShloMosaic Idealize.ShloMosaic.ValueIdx

variable {α : Type} {a b c n : Nat}

/-- Rows of the merged view: row p·b + q is the array's row (p, q). -/
theorem merge_apply (x : (⟨3, ![a, b, c]⟩ : Shape).Idx → α) (h : (⟨3, ![a, b, c]⟩ : Shape).ShapeCasts ⟨2, ![n, c]⟩)
    (p : Fin a) (q : Fin b) (k : Fin c) (r : Fin n) (hr : r.val = p.val * b + q.val) :
    shapeCast ⟨2, ![n, c]⟩ x h (ix2 r k) = x (ix3 p q k) :=
  shapeCast_apply x h (ix2 r k) (ix3 p q k) (by
    rw [Shape.rowMajor_val_three, Shape.rowMajor_val_two]
    show (p.val * b + q.val) * c + k.val = r.val * c + k.val
    rw [hr])

/-- Entries of the split view: (p, q, k) is the entry (p·b + q, k). -/
theorem split_apply (y : (⟨2, ![n, c]⟩ : Shape).Idx → α) (h : (⟨2, ![n, c]⟩ : Shape).ShapeCasts ⟨3, ![a, b, c]⟩)
    (p : Fin a) (q : Fin b) (k : Fin c) (r : Fin n) (hr : r.val = p.val * b + q.val) :
    shapeCast ⟨3, ![a, b, c]⟩ y h (ix3 p q k) = y (ix2 r k) :=
  shapeCast_apply y h (ix3 p q k) (ix2 r k) (by
    rw [Shape.rowMajor_val_three, Shape.rowMajor_val_two]
    show r.val * c + k.val = (p.val * b + q.val) * c + k.val
    rw [hr])

end Idealize.ShloMosaic.Flatten

end
-- ==== Proof.ValR0Host.lean ====
/-
  What the host operations before the first kernel leave in its three input arrays, as functions of the arguments.

  x is viewed as 8192 rows: row b·2048 + s is row (b, s). The three square weight matrices are stacked by rows, the
  stack is transposed and its float format changed, which over the extended reals changes nothing: entry (d, 1024·k + e)
  of the result is entry (e, d) of the k-th matrix. The three bias vectors are laid end to end and viewed as one row:
  entry (0, 1024·k + e) is entry e of the k-th vector.
-/
import proofs.«142345_j19559281066284_2_alg».proof.Proof.IFrameDefs
import proofs.«142345_j19559281066284_2_alg».proof.Proof.LibNary3
import proofs.«142345_j19559281066284_2_alg».proof.Proof.LibFlatten
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen
open Idealize.ShloMosaic Idealize.ShloMosaic.ValueIdx Cert.KernelIdeal.Fr

open Idealize.ShloMosaic.StableHlo Idealize.ShloMosaic.TcCoe Idealize.SL.Sem

variable (m : (ℓ : Loc nD τ sig) → Buf (Elt Ideal) ℓ) (ρ : Dev nD → PrngReg) (c : Dev nD)

/-! ## The two three-operand concatenations, at their results -/

/-- The stack of the three weight matrices: the concatenation of the three arguments' contents. -/
theorem concat_v0 (hxs hy) (F : Valuation τ sig (Elt Ideal)) :
    (StableHlo.nary (τ := τ) ![main_arg1, main_arg3, main_arg5] main_v0 (fun u => concatenate S3072x1024 0 [⟨S1024x1024, u 0⟩, ⟨S1024x1024, u 1⟩, ⟨S1024x1024, u 2⟩] concatenates_S1024x1024_S1024x1024_S1024x1024_S3072x1024_d0) hxs hy).result F (no_index (Proc.devRef .tc main_v0))
      = concatenate S3072x1024 0 [⟨S1024x1024, F (Proc.devRef .tc main_arg1)⟩, ⟨S1024x1024, F (Proc.devRef .tc main_arg3)⟩, ⟨S1024x1024, F (Proc.devRef .tc main_arg5)⟩] concatenates_S1024x1024_S1024x1024_S1024x1024_S3072x1024_d0 :=
  Cert.LibNary3.nary3_result' _ hxs hy F

/-- The three bias vectors end to end. -/
theorem concat_v3 (hxs hy) (F : Valuation τ sig (Elt Ideal)) :
    (StableHlo.nary (τ := τ) ![main_arg2, main_arg4, main_arg6] main_v3 (fun u => concatenate S3072 0 [⟨S1024, u 0⟩, ⟨S1024, u 1⟩, ⟨S1024, u 2⟩] concatenates_S1024_S1024_S1024_S3072_d0) hxs hy).result F (no_index (Proc.devRef .tc main_v3))
      = concatenate S3072 0 [⟨S1024, F (Proc.devRef .tc main_arg2)⟩, ⟨S1024, F (Proc.devRef .tc main_arg4)⟩, ⟨S1024, F (Proc.devRef .tc main_arg6)⟩] concatenates_S1024_S1024_S1024_S3072_d0 :=
  Cert.LibNary3.nary3_result' _ hxs hy F

/-! ## The three input arrays as the first region finds them -/

/-- x viewed as 8192 rows. -/
theorem V1_v5 : (Fr.V1 (F := Ideal) m ρ c main_v5 : S8192x1024.Idx → EReal)
    = shapeCast S8192x1024 (m ((c : Thread nD τ).loc main_arg0)) shapeCasts_S4x2048x1024_S8192x1024 := by
  dsimp only [Fr.V1, Fr.W1, Fr.W0]
  simp only [hostOps0]
  after_results
  rfl

/-- The stacked weights, transposed, in the narrower float format. -/
theorem V1_v2 : @Eq (FVec Ideal S1024x3072 .bf16) (Fr.V1 (F := Ideal) m ρ c main_v2)
    (truncf .bf16 (transpose S1024x3072 [1, 0] (concatenate S3072x1024 0 [⟨S1024x1024, m ((c : Thread nD τ).loc main_arg1)⟩, ⟨S1024x1024, m ((c : Thread nD τ).loc main_arg3)⟩, ⟨S1024x1024, m ((c : Thread nD τ).loc main_arg5)⟩] concatenates_S1024x1024_S1024x1024_S1024x1024_S3072x1024_d0) transposes_S3072x1024_S1024x3072_1_0) bitsLt_bf16_f32) := by
  dsimp only [Fr.V1, Fr.W1, Fr.W0]
  simp only [hostOps0]
  read_off [concat_v0]
  all_goals rfl

/-- The biases end to end, as one row. -/
theorem V1_v4 : (Fr.V1 (F := Ideal) m ρ c main_v4 : S1x3072.Idx → EReal)
    = shapeCast S1x3072 (concatenate S3072 0 [⟨S1024, m ((c : Thread nD τ).loc main_arg2)⟩, ⟨S1024, m ((c : Thread nD τ).loc main_arg4)⟩, ⟨S1024, m ((c : Thread nD τ).loc main_arg6)⟩] concatenates_S1024_S1024_S1024_S3072_d0) shapeCasts_S3072_S1x3072 := by
  dsimp only [Fr.V1, Fr.W1, Fr.W0]
  simp only [hostOps0]
  read_off [concat_v3, concat_v0]
  repeat (first
    | (rw [unary_result_ne]; rotate_left; decide)
    | (rw [reshape_result_ne]; rotate_left; decide)
    | (rw [nary_result_ne]; rotate_left; decide))
  all_goals rfl

/-! ## Read at an index -/

/-- Three square matrices stacked by rows: row 1024·k + e of the stack is row e of the k-th. -/
theorem rows3_0 {α : Type} (A B C : S1024x1024.Idx → α) (h : Shape.Concatenates [S1024x1024, S1024x1024, S1024x1024] S3072x1024 0)
    (e d : Fin 1024) :
    concatenate S3072x1024 0 [⟨S1024x1024, A⟩, ⟨S1024x1024, B⟩, ⟨S1024x1024, C⟩] h (ix2 (⟨0 + e.val, by have := e.isLt; omega⟩ : Fin 3072) d) = A (ix2 e d) :=
  concatenate_apply_piece (0 : Fin S3072x1024.rank) [⟨S1024x1024, A⟩, ⟨S1024x1024, B⟩, ⟨S1024x1024, C⟩] h _ 0 (by show 0 < 3; omega) S1024x1024 A rfl rfl 0 rfl (ix2 e d)
    (fun b hb => by match b with | ⟨0, _⟩ => exact absurd rfl hb | ⟨1, _⟩ => rfl) rfl
theorem rows3_1 {α : Type} (A B C : S1024x1024.Idx → α) (h : Shape.Concatenates [S1024x1024, S1024x1024, S1024x1024] S3072x1024 0)
    (e d : Fin 1024) :
    concatenate S3072x1024 0 [⟨S1024x1024, A⟩, ⟨S1024x1024, B⟩, ⟨S1024x1024, C⟩] h (ix2 (⟨1024 + e.val, by have := e.isLt; omega⟩ : Fin 3072) d) = B (ix2 e d) :=
  concatenate_apply_piece (0 : Fin S3072x1024.rank) [⟨S1024x1024, A⟩, ⟨S1024x1024, B⟩, ⟨S1024x1024, C⟩] h _ 1 (by show 1 < 3; omega) S1024x1024 B rfl rfl 1024 rfl (ix2 e d)
    (fun b hb => by match b with | ⟨0, _⟩ => exact absurd rfl hb | ⟨1, _⟩ => rfl) rfl
theorem rows3_2 {α : Type} (A B C : S1024x1024.Idx → α) (h : Shape.Concatenates [S1024x1024, S1024x1024, S1024x1024] S3072x1024 0)
    (e d : Fin 1024) :
    concatenate S3072x1024 0 [⟨S1024x1024, A⟩, ⟨S1024x1024, B⟩, ⟨S1024x1024, C⟩] h (ix2 (⟨2048 + e.val, by have := e.isLt; omega⟩ : Fin 3072) d) = C (ix2 e d) :=
  concatenate_apply_piece (0 : Fin S3072x1024.rank) [⟨S1024x1024, A⟩, ⟨S1024x1024, B⟩, ⟨S1024x1024, C⟩] h _ 2 (by show 2 < 3; omega) S1024x1024 C rfl rfl 2048 rfl (ix2 e d)
    (fun b hb => by match b with | ⟨0, _⟩ => exact absurd rfl hb | ⟨1, _⟩ => rfl) rfl

/-- Three vectors end to end: entry 1024·k + e is entry e of the k-th. -/
theorem vecs3_0 {α : Type} (A B C : S1024.Idx → α) (h : Shape.Concatenates [S1024, S1024, S1024] S3072 0) (e : Fin 1024) :
    concatenate S3072 0 [⟨S1024, A⟩, ⟨S1024, B⟩, ⟨S1024, C⟩] h (ix1 (⟨0 + e.val, by have := e.isLt; omega⟩ : Fin 3072)) = A (ix1 e) :=
  concatenate_apply_piece (0 : Fin S3072.rank) [⟨S1024, A⟩, ⟨S1024, B⟩, ⟨S1024, C⟩] h _ 0 (by show 0 < 3; omega) S1024 A rfl rfl 0 rfl (ix1 e)
    (fun b hb => by match b with | ⟨0, _⟩ => exact absurd rfl hb) rfl
theorem vecs3_1 {α : Type} (A B C : S1024.Idx → α) (h : Shape.Concatenates [S1024, S1024, S1024] S3072 0) (e : Fin 1024) :
    concatenate S3072 0 [⟨S1024, A⟩, ⟨S1024, B⟩, ⟨S1024, C⟩] h (ix1 (⟨1024 + e.val, by have := e.isLt; omega⟩ : Fin 3072)) = B (ix1 e) :=
  concatenate_apply_piece (0 : Fin S3072.rank) [⟨S1024, A⟩, ⟨S1024, B⟩, ⟨S1024, C⟩] h _ 1 (by show 1 < 3; omega) S1024 B rfl rfl 1024 rfl (ix1 e)
    (fun b hb => by match b with | ⟨0, _⟩ => exact absurd rfl hb) rfl
theorem vecs3_2 {α : Type} (A B C : S1024.Idx → α) (h : Shape.Concatenates [S1024, S1024, S1024] S3072 0) (e : Fin 1024) :
    concatenate S3072 0 [⟨S1024, A⟩, ⟨S1024, B⟩, ⟨S1024, C⟩] h (ix1 (⟨2048 + e.val, by have := e.isLt; omega⟩ : Fin 3072)) = C (ix1 e) :=
  concatenate_apply_piece (0 : Fin S3072.rank) [⟨S1024, A⟩, ⟨S1024, B⟩, ⟨S1024, C⟩] h _ 2 (by show 2 < 3; omega) S1024 C rfl rfl 2048 rfl (ix1 e)
    (fun b hb => by match b with | ⟨0, _⟩ => exact absurd rfl hb) rfl

/-- The transposed matrix at (d, E) is the matrix at (E, d). -/
theorem transp_apply {α : Type} (x : S3072x1024.Idx → α) (h : S3072x1024.Transposes [1, 0] S1024x3072) (d : Fin 1024) (E : Fin 3072) :
    transpose S1024x3072 [1, 0] x h (ix2 d E) = x (ix2 E d) :=
  transpose_apply [1, 0] x h (ix2 d E) (ix2 E d) fun b => by
    match b with
    | ⟨0, _⟩ => rfl
    | ⟨1, _⟩ => rfl

/-- A vector viewed as one row: entry (0, E) is entry E. -/
theorem row_apply {α : Type} (v : S3072.Idx → α) (h : S3072.ShapeCasts S1x3072) (E : Fin 3072) :
    shapeCast S1x3072 v h (ix2 (0 : Fin 1) E) = v (ix1 E) :=
  shapeCast_apply v h (ix2 (0 : Fin 1) E) (ix1 E) (by
    rw [Shape.rowMajor_val_one, Shape.rowMajor_val_two]; show E.val = 0 * 3072 + E.val; omega)

end Cert.KernelIdeal.Val

end
-- ==== Proof.ValR0.lean ====
/-
  The queries, keys and values as the second kernel finds them: each is the affine map of x by one of the three
  weight matrices and its bias, viewed as 4 sequences of 2048 rows of 1024 features.

  The first kernel leaves, in each of its three outputs, entry (R, e) = Σ_d X (R, d) · Wt (d, o + e) + B (0, o + e) of
  the arrays it was entered with; those are x viewed as 8192 rows, the transposed stack of the weights and the row
  of the biases, so that Wt (d, 1024·k + e) is entry (e, d) of the k-th weight matrix and B (0, 1024·k + e) entry e of
  the k-th bias; the reshape after the kernel reads row b·2048 + s as row (b, s).
-/
import proofs.«142345_j19559281066284_2_alg».proof.Proof.IFrameDefs
import proofs.«142345_j19559281066284_2_alg».proof.Proof.ValR0Blk
import proofs.«142345_j19559281066284_2_alg».proof.Proof.ValR0Host
import proofs.«142345_j19559281066284_2_alg».proof.Proof.AttnSpec
import proofs.«142345_j19559281066284_2_alg».proof.Proof.LibFlatten
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen
open Idealize.ShloMosaic Idealize.ShloMosaic.ValueIdx Cert.KernelIdeal.Fr

open Idealize.ShloMosaic.StableHlo Idealize.ShloMosaic.TcCoe Idealize.SL.Sem

variable (m : (ℓ : Loc nD τ sig) → Buf (Elt Ideal) ℓ) (ρ : Dev nD → PrngReg) (c : Dev nD)

/-- The three weight matrices stacked by rows, and the three biases end to end. -/
abbrev wStack : S3072x1024.Idx → EReal :=
  concatenate S3072x1024 0 [⟨S1024x1024, m ((c : Thread nD τ).loc main_arg1)⟩, ⟨S1024x1024, m ((c : Thread nD τ).loc main_arg3)⟩, ⟨S1024x1024, m ((c : Thread nD τ).loc main_arg5)⟩] concatenates_S1024x1024_S1024x1024_S1024x1024_S3072x1024_d0
abbrev bCat : S3072.Idx → EReal :=
  concatenate S3072 0 [⟨S1024, m ((c : Thread nD τ).loc main_arg2)⟩, ⟨S1024, m ((c : Thread nD τ).loc main_arg4)⟩, ⟨S1024, m ((c : Thread nD τ).loc main_arg6)⟩] concatenates_S1024_S1024_S1024_S3072_d0

/-- The reshape after the first kernel: `main_v7` is the output `main_v6_0` viewed as 4 sequences of 2048 rows. -/
theorem V3_main_v7_cast : (Fr.V3 (F := Ideal) m ρ c main_v7 : S4x2048x1024.Idx → EReal)
    = shapeCast S4x2048x1024 (Fr.W2 m ρ c (Proc.devRef .tc main_v6_0)) shapeCasts_S8192x1024_S4x2048x1024 := by
  dsimp only [Fr.V3, Fr.W3]
  simp only [hostOps1]
  after_results
  rfl

/-- `main_v7` as the second kernel finds it: the affine map of x by the weights `main_arg1` and the bias `main_arg2`, entry by entry. -/
theorem V3_main_v7_apply (i : S4x2048x1024.Idx) :
    Fr.V3 (F := Ideal) m ρ c main_v7 i
      = Cert.AttnSpec.lin (m ((c : Thread nD τ).loc main_arg0)) (m ((c : Thread nD τ).loc main_arg1)) (m ((c : Thread nD τ).loc main_arg2))
          ⟨(i 0).val, (i 0).isLt⟩ ⟨(i 1).val, (i 1).isLt⟩ ⟨(i 2).val, (i 2).isLt⟩ := by
  obtain ⟨bi, s, e, rfl⟩ : ∃ (bi : Fin 4) (s : Fin 2048) (e : Fin 1024), i = ix3 bi s e := ⟨i 0, i 1, i 2, eq_ix3 i⟩
  show _ = Cert.AttnSpec.lin _ _ _ bi s e
  have hR : bi.val * 2048 + s.val < 8192 := by have := bi.isLt; have := s.isLt; omega
  have hE : 0 + e.val < 3072 := by have := e.isLt; omega
  rw [V3_main_v7_cast,
    Flatten.split_apply (a := 4) (b := 2048) (c := 1024) (n := 8192) _ shapeCasts_S8192x1024_S4x2048x1024 bi s e ⟨bi.val * 2048 + s.val, hR⟩ rfl]
  have hW : Fr.W2 m ρ c (Proc.devRef .tc main_v6_0)
      = linArr 0 (by omega) (Fr.V1 m ρ c main_v5) (Fr.V1 m ρ c main_v2) (Fr.V1 m ρ c main_v4) :=
    (W2_arr m ρ c 3).trans (final0_3 (Fr.V1 m ρ) c)
  rw [hW]
  unfold linArr Cert.AttnSpec.lin
  refine congrArg₂ (· + ·) (Finset.sum_congr rfl fun d _ => congrArg₂ (· * ·) ?_ ?_) ?_
  · rw [V1_v5]
    exact Flatten.merge_apply (a := 4) (b := 2048) (c := 1024) (n := 8192) (m ((c : Thread nD τ).loc main_arg0))
      shapeCasts_S4x2048x1024_S8192x1024 bi s d ⟨bi.val * 2048 + s.val, hR⟩ rfl
  · rw [V1_v2]
    exact (transp_apply (wStack m c) transposes_S3072x1024_S1024x3072_1_0 d ⟨0 + e.val, hE⟩).trans
      (rows3_0 (m ((c : Thread nD τ).loc main_arg1)) (m ((c : Thread nD τ).loc main_arg3)) (m ((c : Thread nD τ).loc main_arg5))
        concatenates_S1024x1024_S1024x1024_S1024x1024_S3072x1024_d0 e d)
  · rw [V1_v4]
    exact (row_apply (bCat m c) shapeCasts_S3072_S1x3072 ⟨0 + e.val, hE⟩).trans
      (vecs3_0 (m ((c : Thread nD τ).loc main_arg2)) (m ((c : Thread nD τ).loc main_arg4)) (m ((c : Thread nD τ).loc main_arg6))
        concatenates_S1024_S1024_S1024_S3072_d0 e)

/-- The same as an equation of arrays. -/
theorem V3_main_v7 : @Eq (S4x2048x1024.Idx → EReal) (Fr.V3 (F := Ideal) m ρ c main_v7)
    (fun i => Cert.AttnSpec.lin (m ((c : Thread nD τ).loc main_arg0)) (m ((c : Thread nD τ).loc main_arg1)) (m ((c : Thread nD τ).loc main_arg2))
      ⟨(i 0).val, (i 0).isLt⟩ ⟨(i 1).val, (i 1).isLt⟩ ⟨(i 2).val, (i 2).isLt⟩) :=
  funext fun i => V3_main_v7_apply m ρ c i

/-- The reshape after the first kernel: `main_v8` is the output `main_v6_1` viewed as 4 sequences of 2048 rows. -/
theorem V3_main_v8_cast : (Fr.V3 (F := Ideal) m ρ c main_v8 : S4x2048x1024.Idx → EReal)
    = shapeCast S4x2048x1024 (Fr.W2 m ρ c (Proc.devRef .tc main_v6_1)) shapeCasts_S8192x1024_S4x2048x1024 := by
  dsimp only [Fr.V3, Fr.W3]
  simp only [hostOps1]
  after_results
  rfl

/-- `main_v8` as the second kernel finds it: the affine map of x by the weights `main_arg3` and the bias `main_arg4`, entry by entry. -/
theorem V3_main_v8_apply (i : S4x2048x1024.Idx) :
    Fr.V3 (F := Ideal) m ρ c main_v8 i
      = Cert.AttnSpec.lin (m ((c : Thread nD τ).loc main_arg0)) (m ((c : Thread nD τ).loc main_arg3)) (m ((c : Thread nD τ).loc main_arg4))
          ⟨(i 0).val, (i 0).isLt⟩ ⟨(i 1).val, (i 1).isLt⟩ ⟨(i 2).val, (i 2).isLt⟩ := by
  obtain ⟨bi, s, e, rfl⟩ : ∃ (bi : Fin 4) (s : Fin 2048) (e : Fin 1024), i = ix3 bi s e := ⟨i 0, i 1, i 2, eq_ix3 i⟩
  show _ = Cert.AttnSpec.lin _ _ _ bi s e
  have hR : bi.val * 2048 + s.val < 8192 := by have := bi.isLt; have := s.isLt; omega
  have hE : 1024 + e.val < 3072 := by have := e.isLt; omega
  rw [V3_main_v8_cast,
    Flatten.split_apply (a := 4) (b := 2048) (c := 1024) (n := 8192) _ shapeCasts_S8192x1024_S4x2048x1024 bi s e ⟨bi.val * 2048 + s.val, hR⟩ rfl]
  have hW : Fr.W2 m ρ c (Proc.devRef .tc main_v6_1)
      = linArr 1024 (by omega) (Fr.V1 m ρ c main_v5) (Fr.V1 m ρ c main_v2) (Fr.V1 m ρ c main_v4) :=
    (W2_arr m ρ c 4).trans (final0_4 (Fr.V1 m ρ) c)
  rw [hW]
  unfold linArr Cert.AttnSpec.lin
  refine congrArg₂ (· + ·) (Finset.sum_congr rfl fun d _ => congrArg₂ (· * ·) ?_ ?_) ?_
  · rw [V1_v5]
    exact Flatten.merge_apply (a := 4) (b := 2048) (c := 1024) (n := 8192) (m ((c : Thread nD τ).loc main_arg0))
      shapeCasts_S4x2048x1024_S8192x1024 bi s d ⟨bi.val * 2048 + s.val, hR⟩ rfl
  · rw [V1_v2]
    exact (transp_apply (wStack m c) transposes_S3072x1024_S1024x3072_1_0 d ⟨1024 + e.val, hE⟩).trans
      (rows3_1 (m ((c : Thread nD τ).loc main_arg1)) (m ((c : Thread nD τ).loc main_arg3)) (m ((c : Thread nD τ).loc main_arg5))
        concatenates_S1024x1024_S1024x1024_S1024x1024_S3072x1024_d0 e d)
  · rw [V1_v4]
    exact (row_apply (bCat m c) shapeCasts_S3072_S1x3072 ⟨1024 + e.val, hE⟩).trans
      (vecs3_1 (m ((c : Thread nD τ).loc main_arg2)) (m ((c : Thread nD τ).loc main_arg4)) (m ((c : Thread nD τ).loc main_arg6))
        concatenates_S1024_S1024_S1024_S3072_d0 e)

/-- The same as an equation of arrays. -/
theorem V3_main_v8 : @Eq (S4x2048x1024.Idx → EReal) (Fr.V3 (F := Ideal) m ρ c main_v8)
    (fun i => Cert.AttnSpec.lin (m ((c : Thread nD τ).loc main_arg0)) (m ((c : Thread nD τ).loc main_arg3)) (m ((c : Thread nD τ).loc main_arg4))
      ⟨(i 0).val, (i 0).isLt⟩ ⟨(i 1).val, (i 1).isLt⟩ ⟨(i 2).val, (i 2).isLt⟩) :=
  funext fun i => V3_main_v8_apply m ρ c i

/-- The reshape after the first kernel: `main_v9` is the output `main_v6_2` viewed as 4 sequences of 2048 rows. -/
theorem V3_main_v9_cast : (Fr.V3 (F := Ideal) m ρ c main_v9 : S4x2048x1024.Idx → EReal)
    = shapeCast S4x2048x1024 (Fr.W2 m ρ c (Proc.devRef .tc main_v6_2)) shapeCasts_S8192x1024_S4x2048x1024 := by
  dsimp only [Fr.V3, Fr.W3]
  simp only [hostOps1]
  after_results
  rfl

/-- `main_v9` as the second kernel finds it: the affine map of x by the weights `main_arg5` and the bias `main_arg6`, entry by entry. -/
theorem V3_main_v9_apply (i : S4x2048x1024.Idx) :
    Fr.V3 (F := Ideal) m ρ c main_v9 i
      = Cert.AttnSpec.lin (m ((c : Thread nD τ).loc main_arg0)) (m ((c : Thread nD τ).loc main_arg5)) (m ((c : Thread nD τ).loc main_arg6))
          ⟨(i 0).val, (i 0).isLt⟩ ⟨(i 1).val, (i 1).isLt⟩ ⟨(i 2).val, (i 2).isLt⟩ := by
  obtain ⟨bi, s, e, rfl⟩ : ∃ (bi : Fin 4) (s : Fin 2048) (e : Fin 1024), i = ix3 bi s e := ⟨i 0, i 1, i 2, eq_ix3 i⟩
  show _ = Cert.AttnSpec.lin _ _ _ bi s e
  have hR : bi.val * 2048 + s.val < 8192 := by have := bi.isLt; have := s.isLt; omega
  have hE : 2048 + e.val < 3072 := by have := e.isLt; omega
  rw [V3_main_v9_cast,
    Flatten.split_apply (a := 4) (b := 2048) (c := 1024) (n := 8192) _ shapeCasts_S8192x1024_S4x2048x1024 bi s e ⟨bi.val * 2048 + s.val, hR⟩ rfl]
  have hW : Fr.W2 m ρ c (Proc.devRef .tc main_v6_2)
      = linArr 2048 (by omega) (Fr.V1 m ρ c main_v5) (Fr.V1 m ρ c main_v2) (Fr.V1 m ρ c main_v4) :=
    (W2_arr m ρ c 5).trans (final0_5 (Fr.V1 m ρ) c)
  rw [hW]
  unfold linArr Cert.AttnSpec.lin
  refine congrArg₂ (· + ·) (Finset.sum_congr rfl fun d _ => congrArg₂ (· * ·) ?_ ?_) ?_
  · rw [V1_v5]
    exact Flatten.merge_apply (a := 4) (b := 2048) (c := 1024) (n := 8192) (m ((c : Thread nD τ).loc main_arg0))
      shapeCasts_S4x2048x1024_S8192x1024 bi s d ⟨bi.val * 2048 + s.val, hR⟩ rfl
  · rw [V1_v2]
    exact (transp_apply (wStack m c) transposes_S3072x1024_S1024x3072_1_0 d ⟨2048 + e.val, hE⟩).trans
      (rows3_2 (m ((c : Thread nD τ).loc main_arg1)) (m ((c : Thread nD τ).loc main_arg3)) (m ((c : Thread nD τ).loc main_arg5))
        concatenates_S1024x1024_S1024x1024_S1024x1024_S3072x1024_d0 e d)
  · rw [V1_v4]
    exact (row_apply (bCat m c) shapeCasts_S3072_S1x3072 ⟨2048 + e.val, hE⟩).trans
      (vecs3_2 (m ((c : Thread nD τ).loc main_arg2)) (m ((c : Thread nD τ).loc main_arg4)) (m ((c : Thread nD τ).loc main_arg6))
        concatenates_S1024_S1024_S1024_S3072_d0 e)

/-- The same as an equation of arrays. -/
theorem V3_main_v9 : @Eq (S4x2048x1024.Idx → EReal) (Fr.V3 (F := Ideal) m ρ c main_v9)
    (fun i => Cert.AttnSpec.lin (m ((c : Thread nD τ).loc main_arg0)) (m ((c : Thread nD τ).loc main_arg5)) (m ((c : Thread nD τ).loc main_arg6))
      ⟨(i 0).val, (i 0).isLt⟩ ⟨(i 1).val, (i 1).isLt⟩ ⟨(i 2).val, (i 2).isLt⟩) :=
  funext fun i => V3_main_v9_apply m ρ c i

end Cert.KernelIdeal.Val

end
-- ==== Proof.ValR2Pay.lean ====
/-
  The third kernel's block of rows, read at an index over the extended reals.

  From a block c of 512 context rows, the matrix w whose entry (d, e) multiplies context feature d into output
  feature e, a bias row, the block x of 512 input rows and two more rows g, b, the body forms the rows
  y = c·w + bias + x, takes each row's mean (its sum divided by the word of 1024), the deviations from it, the mean
  of their squares, adds the word of 1e-5 and takes the reciprocal square root; the stored entry (r, e) is the
  deviation of y (r, e) times that root, times g (0, e), plus b (0, e): the specification's normalised row of y.
-/
import proofs.«142345_j19559281066284_2_alg».proof.KernelIdeal
import proofs.«142345_j19559281066284_2_alg».proof.Proof.Gen.KernelIdeal.Skeleton
import proofs.«142345_j19559281066284_2_alg».proof.Proof.AttnSpec
import proofs.«142345_j19559281066284_2_alg».proof.Proof.LibPlainDot
import proofs.«142345_j19559281066284_2_alg».proof.Proof.LibRowSpread
import proofs.«142345_j19559281066284_2_alg».proof.Proof.LibRowOps
import Idealize.ShloMosaic.Lib.Pipeline.Value
import Idealize.ShloMosaic.Lib.ValueIdx

noncomputable section

open scoped BigOperators

namespace Cert.KernelIdeal.Val2

open Cert.KernelIdeal Cert.KernelIdeal.Gen Idealize.ShloMosaic Idealize.ShloMosaic.ValueIdx Cert.AttnSpec

/-- Row r of c·w + bias + x, feature by feature. -/
def yrow (x0 : FVec Ideal S512x1024 .bf16) (x1 : FVec Ideal S1024x1024 .bf16) (x2 : FVec Ideal S1x1024 .f32)
    (x3 : FVec Ideal S512x1024 .f32) (r : Fin 512) (e : Fin 1024) : EReal :=
  ((∑ d : Fin 1024, x0 (ix2 r d) * x1 (ix2 d e)) + x2 (ix2 (0 : Fin 1) e)) + x3 (ix2 r e)

/-- Feature e of the normalised row y, scaled by g and shifted by b. -/
def normed (y : Fin 1024 → EReal) (g b : EReal) (e : Fin 1024) : EReal :=
  (y e - mean y) * Ideal.rsqrt (mean (fun e' => (y e' - mean y) * (y e' - mean y)) + eps) * g + b

/-- With the scale and shift read off two feature vectors this is the specification's layer norm. -/
theorem normed_eq_lnorm (y : Fin 1024 → EReal) (g b : SB.Idx → EReal) (e : Fin 1024) :
    normed y (g (ix1 e)) (b (ix1 e)) e = lnorm y g b e := rfl

/-- The rows before normalisation, as the vector operations compute them. -/
def preArr (x0 : FVec Ideal S512x1024 .bf16) (x1 : FVec Ideal S1024x1024 .bf16) (x2 : FVec Ideal S1x1024 .f32)
    (x3 : FVec Ideal S512x1024 .f32) : FVec Ideal S512x1024 .f32 :=
  addf (addf (matmul dot_S512x1024_S1024x1024_S512x1024_1_0_0_1_n_n none
        (shapeCast S512x1024 x0 shapeCasts_S512x1024_S512x1024) (shapeCast S1024x1024 x1 shapeCasts_S1024x1024_S1024x1024)
        (constant S512x1024 .f32 0x00000000#32))
      (broadcastTo S512x1024 (shapeCast S1x1024 x2 shapeCasts_S1x1024_S1x1024) broadcasts_S1x1024_S512x1024))
    (shapeCast S512x1024 x3 shapeCasts_S512x1024_S512x1024)

/-- The column of row means of a block: row sums divided by the word of 1024. -/
def meanCol (Y : FVec Ideal S512x1024 .f32) : FVec Ideal S512x1 .f32 :=
  divf (shapeCast S512x1 (multiReduction .add [1] S512 Y 0x00000000#32 reduces_S512x1024_S512 (.inl rfl) rfl)
      shapeCasts_S512_S512x1)
    (broadcast S512x1 (Scalar.ofBits .f32 0x44800000#32))

/-- The deviations of a block's entries from their row means. -/
def devArr (Y : FVec Ideal S512x1024 .f32) : FVec Ideal S512x1024 .f32 :=
  subf Y (broadcastTo S512x1024 (meanCol Y) broadcasts_S512x1_S512x1024)

/-- The normalised block, scaled and shifted by two rows. -/
def normArr (Y : FVec Ideal S512x1024 .f32) (x4 x5 : FVec Ideal S1x1024 .f32) : FVec Ideal S512x1024 .f32 :=
  addf (mulf (mulf (devArr Y) (broadcastTo S512x1024
        (rsqrt (addf (meanCol (mulf (devArr Y) (devArr Y))) (broadcast S512x1 (Scalar.ofBits .f32 0x3727C5AC#32))))
        broadcasts_S512x1_S512x1024))
      (broadcastTo S512x1024 (shapeCast S1x1024 x4 shapeCasts_S1x1024_S1x1024) broadcasts_S1x1024_S512x1024))
    (broadcastTo S512x1024 (shapeCast S1x1024 x5 shapeCasts_S1x1024_S1x1024) broadcasts_S1x1024_S512x1024)

/-- The stored value is the normalised block of the rows before normalisation. -/
theorem pay_eq (x0 : FVec Ideal S512x1024 .bf16) (x1 : FVec Ideal S1024x1024 .bf16) (x2 : FVec Ideal S1x1024 .f32)
    (x3 : FVec Ideal S512x1024 .f32) (x4 x5 : FVec Ideal S1x1024 .f32) :
    k2_pay1 (F := Ideal) x0 x1 x2 x3 x4 x5 = normArr (preArr x0 x1 x2 x3) x4 x5 := rfl

/-- An entry of the rows before normalisation. -/
theorem pre_apply (x0 : FVec Ideal S512x1024 .bf16) (x1 : FVec Ideal S1024x1024 .bf16) (x2 : FVec Ideal S1x1024 .f32)
    (x3 : FVec Ideal S512x1024 .f32) (r : Fin 512) (e : Fin 1024) :
    preArr x0 x1 x2 x3 (ix2 r e) = yrow x0 x1 x2 x3 r e := by
  unfold preArr yrow
  rw [shapeCast_self x0, shapeCast_self x1, shapeCast_self x2, shapeCast_self x3]
  show (matmul dot_S512x1024_S1024x1024_S512x1024_1_0_0_1_n_n none x0 x1 (constant S512x1024 .f32 0x00000000#32) (ix2 r e)
    + broadcastTo S512x1024 x2 broadcasts_S1x1024_S512x1024 (ix2 r e)) + x3 (ix2 r e) = _
  refine congrArg₂ (· + ·) (congrArg₂ (· + ·) ?_ ?_) rfl
  · exact PlainDot.matmul_zero_apply (M := 512) (K := 1024) (N := 1024) none x0 x1 r e
  · exact RowSpread.rowBcast_apply (a := 512) (b := 1024) x2 broadcasts_S1x1024_S512x1024 r e

/-- The mean of row r. -/
theorem meanCol_apply (Y : FVec Ideal S512x1024 .f32) (r : Fin 512) :
    meanCol Y (ix2 r (0 : Fin 1)) = mean (fun e : Fin 1024 => Y (ix2 r e)) := by
  unfold meanCol mean
  show Ideal.div (shapeCast S512x1 (multiReduction .add [1] S512 Y 0x00000000#32 reduces_S512x1024_S512 (.inl rfl) rfl)
    shapeCasts_S512_S512x1 (ix2 r (0 : Fin 1))) (Ideal.ofBits .f32 0x44800000#32) = Ideal.div _ nfeat
  refine congrArg (Ideal.div · nfeat) ?_
  refine (RowOps.colCast_apply (a := 512) _ shapeCasts_S512_S512x1 r).trans ?_
  exact RowOps.rowSum_vector (a := 512) (b := 1024) Y 0x00000000#32 reduces_S512x1024_S512 (.inl rfl) rfl r

/-- A deviation from the row mean. -/
theorem dev_apply (Y : FVec Ideal S512x1024 .f32) (r : Fin 512) (e : Fin 1024) :
    devArr Y (ix2 r e) = Y (ix2 r e) - mean (fun e' : Fin 1024 => Y (ix2 r e')) := by
  unfold devArr
  show Y (ix2 r e) - broadcastTo S512x1024 (meanCol Y) broadcasts_S512x1_S512x1024 (ix2 r e) = _
  refine congrArg (Y (ix2 r e) - ·) ?_
  exact (RowOps.colBcast_apply (a := 512) (b := 1024) (meanCol Y) broadcasts_S512x1_S512x1024 r e).trans
    (meanCol_apply Y r)

/-- An entry of the normalised block. -/
theorem norm_apply (Y : FVec Ideal S512x1024 .f32) (x4 x5 : FVec Ideal S1x1024 .f32) (r : Fin 512) (e : Fin 1024) :
    normArr Y x4 x5 (ix2 r e)
      = normed (fun e' : Fin 1024 => Y (ix2 r e')) (x4 (ix2 (0 : Fin 1) e)) (x5 (ix2 (0 : Fin 1) e)) e := by
  have hv : meanCol (mulf (devArr Y) (devArr Y)) (ix2 r (0 : Fin 1))
      = mean (fun e' : Fin 1024 => (Y (ix2 r e') - mean (fun e'' : Fin 1024 => Y (ix2 r e'')))
          * (Y (ix2 r e') - mean (fun e'' : Fin 1024 => Y (ix2 r e'')))) :=
    (meanCol_apply _ r).trans (congrArg mean (funext fun e' => by
      show devArr Y (ix2 r e') * devArr Y (ix2 r e') = _
      rw [dev_apply]))
  unfold normArr normed
  rw [shapeCast_self x4, shapeCast_self x5]
  show (devArr Y (ix2 r e) * broadcastTo S512x1024
        (rsqrt (addf (meanCol (mulf (devArr Y) (devArr Y))) (broadcast S512x1 (Scalar.ofBits .f32 0x3727C5AC#32))))
        broadcasts_S512x1_S512x1024 (ix2 r e))
      * broadcastTo S512x1024 x4 broadcasts_S1x1024_S512x1024 (ix2 r e)
    + broadcastTo S512x1024 x5 broadcasts_S1x1024_S512x1024 (ix2 r e) = _
  refine congrArg₂ (· + ·) (congrArg₂ (· * ·) (congrArg₂ (· * ·) (dev_apply Y r e) ?_)
    (RowSpread.rowBcast_apply (a := 512) (b := 1024) x4 broadcasts_S1x1024_S512x1024 r e))
    (RowSpread.rowBcast_apply (a := 512) (b := 1024) x5 broadcasts_S1x1024_S512x1024 r e)
  refine (RowOps.colBcast_apply (a := 512) (b := 1024) _ broadcasts_S512x1_S512x1024 r e).trans ?_
  show Ideal.rsqrt (meanCol (mulf (devArr Y) (devArr Y)) (ix2 r (0 : Fin 1)) + Ideal.ofBits .f32 0x3727C5AC#32) = _
  rw [hv]
  rfl

/-- The stored entry (r, e): the normalised row of c·w + bias + x, scaled by g (0, e) and shifted by b (0, e). -/
theorem pay_apply (x0 : FVec Ideal S512x1024 .bf16) (x1 : FVec Ideal S1024x1024 .bf16) (x2 : FVec Ideal S1x1024 .f32)
    (x3 : FVec Ideal S512x1024 .f32) (x4 x5 : FVec Ideal S1x1024 .f32) (r : Fin 512) (e : Fin 1024) :
    k2_pay1 (F := Ideal) x0 x1 x2 x3 x4 x5 (ix2 r e)
      = normed (yrow x0 x1 x2 x3 r) (x4 (ix2 (0 : Fin 1) e)) (x5 (ix2 (0 : Fin 1) e)) e := by
  rw [pay_eq]
  exact (norm_apply _ x4 x5 r e).trans
    (congrArg (fun y => normed y (x4 (ix2 (0 : Fin 1) e)) (x5 (ix2 (0 : Fin 1) e)) e)
      (funext fun e' => pre_apply x0 x1 x2 x3 r e'))

end Cert.KernelIdeal.Val2

end
-- ==== Proof.ValR2Blocks.lean ====
/-
  The third region's result array as one function of the arrays the region finds.

  The grid has 16 points; point t works on rows 512·t … 512·t + 511 of the flattened arrays: the context rows and
  the input rows move with the point, the weight matrix and the three rows (bias, scale, shift) are the same whole
  arrays at every point. What point t writes back is therefore block t of ONE function of the six arrays: at row R,
  feature e, the normalised row of c·w + bias + x at row R, scaled and shifted. The sixteen blocks cover the 8192
  rows (row R lies in block R / 512), so the result array ends holding that function.
-/
import proofs.«142345_j19559281066284_2_alg».proof.Proof.IFrameDefs
import proofs.«142345_j19559281066284_2_alg».proof.Proof.ValR2Pay
import Idealize.ShloMosaic.Lib.Pipeline.Value

set_option maxRecDepth 16384

noncomputable section

open scoped BigOperators

namespace Cert.KernelIdeal.Val2

open Cert.KernelIdeal Cert.KernelIdeal.Gen Cert.KernelIdeal.Fr Idealize.ShloMosaic Idealize.ShloMosaic.ValueIdx
  Idealize.ShloMosaic.TcCoe Idealize.SL.Sem Cert.AttnSpec
open Idealize.ShloMosaic.Pipeline (Dat)

theorem hz : (![0, 0] : Fin 2 → Nat) = fun _ => 0 := funext fun a => by fin_cases a <;> rfl

/-- The output window's buffer after the body holds the stored value of the six loaded blocks. -/
theorem out2_6_eq (x0 : Vec Ideal S512x1024 .bf16) (x1 : Vec Ideal S1024x1024 .bf16) (x2 : Vec Ideal S1x1024 .f32)
    (x3 : Vec Ideal S512x1024 .f32) (x4 x5 : Vec Ideal S1x1024 .f32) :
    out2_6 (F := Ideal) x0 x1 x2 x3 x4 x5 = k2_pay1 (F := Ideal) x0 x1 x2 x3 x4 x5 := by
  unfold out2_6
  rw [View.canon_unit_zero hz]
  simp only [View.ld_unit_zero (S := S512x1024) hz, View.ld_unit_zero (S := S1024x1024) hz,
    View.ld_unit_zero (S := S1x1024) hz]

/-- The stored value at an index of the block. -/
theorem pay_at (x0 : FVec Ideal S512x1024 .bf16) (x1 : FVec Ideal S1024x1024 .bf16) (x2 : FVec Ideal S1x1024 .f32)
    (x3 : FVec Ideal S512x1024 .f32) (x4 x5 : FVec Ideal S1x1024 .f32) (j : S512x1024.Idx) (r : Fin 512) (e : Fin 1024)
    (hr : (j 0).val = r.val) (he : (j 1).val = e.val) :
    k2_pay1 (F := Ideal) x0 x1 x2 x3 x4 x5 j
      = normed (yrow x0 x1 x2 x3 r) (x4 (ix2 (0 : Fin 1) e)) (x5 (ix2 (0 : Fin 1) e)) e := by
  have hj : j = ix2 r e := funext fun a => Fin.ext (by
    match a with | ⟨0, _⟩ => exact hr | ⟨1, _⟩ => exact he)
  rw [hj]
  exact pay_apply x0 x1 x2 x3 x4 x5 r e

/-- Row R of c·w + bias + x over the whole arrays. -/
def rowOf (a0 : S8192x1024.Idx → EReal) (a1 : S1024x1024.Idx → EReal) (a2 : S1x1024.Idx → EReal)
    (a3 : S8192x1024.Idx → EReal) (R : Fin 8192) (e : Fin 1024) : EReal :=
  ((∑ d : Fin 1024, a0 (ix2 R d) * a1 (ix2 d e)) + a2 (ix2 (0 : Fin 1) e)) + a3 (ix2 R e)

/-- The result array as a function of the six arrays the region finds. -/
def G2 (a0 : S8192x1024.Idx → EReal) (a1 : S1024x1024.Idx → EReal) (a2 : S1x1024.Idx → EReal)
    (a3 : S8192x1024.Idx → EReal) (a4 a5 : S1x1024.Idx → EReal) : S8192x1024.Idx → EReal :=
  fun i => normed (rowOf a0 a1 a2 a3 ⟨(i 0).val, (i 0).isLt⟩) (a4 (ix2 (0 : Fin 1) (⟨(i 1).val, (i 1).isLt⟩ : Fin 1024)))
    (a5 (ix2 (0 : Fin 1) (⟨(i 1).val, (i 1).isLt⟩ : Fin 1024))) ⟨(i 1).val, (i 1).isLt⟩

theorem G2_ix2 (a0 : S8192x1024.Idx → EReal) (a1 : S1024x1024.Idx → EReal) (a2 : S1x1024.Idx → EReal)
    (a3 : S8192x1024.Idx → EReal) (a4 a5 : S1x1024.Idx → EReal) (R : Fin 8192) (e : Fin 1024) :
    G2 a0 a1 a2 a3 a4 a5 (ix2 R e)
      = normed (rowOf a0 a1 a2 a3 R) (a4 (ix2 (0 : Fin 1) e)) (a5 (ix2 (0 : Fin 1) e)) e := rfl

/-- The printed index maps, decided over the grid: the row blocks move with the point, everything else stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

section
variable (V : (c : Dev nD) → (b : Ref sig .tc) → Buf (Elt Ideal) ((c : Thread nD τ).loc b))

/-- The context rows' block at point t: rows 512·t … of the array. -/
theorem blk0_apply (c : Dev nD) (t : Fin cfg2.N) (r : Fin 512) (d : Fin 1024) (R : Fin 8192)
    (hR : R.val = t.val * 512 + r.val) :
    (iblk2 V c 0 t : FVec Ideal S512x1024 .bf16) (ix2 r d) = (V c main_v11 : S8192x1024.Idx → EReal) (ix2 R d) := by
  obtain ⟨e0, e1, -⟩ := idx_facts t
  unfold iblk2
  rw [View.read_apply]
  show V c main_v11 _ = V c main_v11 _
  congr 1
  funext a
  apply Fin.ext
  match a with
  | ⟨0, _⟩ => show win2_0.index t 0 * 512 + 1 * r.val = R.val; rw [e0, hR]; omega
  | ⟨1, _⟩ => show win2_0.index t 1 * 1024 + 1 * d.val = d.val; rw [e1]; omega

/-- The weight matrix's block is the whole matrix. -/
theorem blk1_apply (c : Dev nD) (t : Fin cfg2.N) (d e : Fin 1024) :
    (iblk2 V c 1 t : FVec Ideal S1024x1024 .bf16) (ix2 d e) = (V c main_v13 : S1024x1024.Idx → EReal) (ix2 d e) := by
  obtain ⟨-, -, e0, e1, -⟩ := idx_facts t
  unfold iblk2
  rw [View.read_apply]
  show V c main_v13 _ = V c main_v13 _
  congr 1
  funext a
  apply Fin.ext
  match a with
  | ⟨0, _⟩ => show win2_1.index t 0 * 1024 + 1 * d.val = d.val; rw [e0]; omega
  | ⟨1, _⟩ => show win2_1.index t 1 * 1024 + 1 * e.val = e.val; rw [e1]; omega

/-- The bias row's block is the whole row. -/
theorem blk2_apply (c : Dev nD) (t : Fin cfg2.N) (e : Fin 1024) :
    (iblk2 V c 2 t : FVec Ideal S1x1024 .f32) (ix2 (0 : Fin 1) e) = (V c main_v14 : S1x1024.Idx → EReal) (ix2 (0 : Fin 1) e) := by
  obtain ⟨-, -, -, -, e0, e1, -⟩ := idx_facts t
  unfold iblk2
  rw [View.read_apply]
  show V c main_v14 _ = V c main_v14 _
  congr 1
  funext a
  apply Fin.ext
  match a with
  | ⟨0, _⟩ => show win2_2.index t 0 * 1 + 1 * 0 = 0; rw [e0]
  | ⟨1, _⟩ => show win2_2.index t 1 * 1024 + 1 * e.val = e.val; rw [e1]; omega

/-- The input rows' block at point t: rows 512·t … of the array. -/
theorem blk3_apply (c : Dev nD) (t : Fin cfg2.N) (r : Fin 512) (e : Fin 1024) (R : Fin 8192)
    (hR : R.val = t.val * 512 + r.val) :
    (iblk2 V c 3 t : FVec Ideal S512x1024 .f32) (ix2 r e) = (V c main_v5 : S8192x1024.Idx → EReal) (ix2 R e) := by
  obtain ⟨-, -, -, -, -, -, e0, e1, -⟩ := idx_facts t
  unfold iblk2
  rw [View.read_apply]
  show V c main_v5 _ = V c main_v5 _
  congr 1
  funext a
  apply Fin.ext
  match a with
  | ⟨0, _⟩ => show win2_3.index t 0 * 512 + 1 * r.val = R.val; rw [e0, hR]; omega
  | ⟨1, _⟩ => show win2_3.index t 1 * 1024 + 1 * e.val = e.val; rw [e1]; omega

/-- The scale row's block is the whole row. -/
theorem blk4_apply (c : Dev nD) (t : Fin cfg2.N) (e : Fin 1024) :
    (iblk2 V c 4 t : FVec Ideal S1x1024 .f32) (ix2 (0 : Fin 1) e) = (V c main_v15 : S1x1024.Idx → EReal) (ix2 (0 : Fin 1) e) := by
  obtain ⟨-, -, -, -, -, -, -, -, e0, e1, -⟩ := idx_facts t
  unfold iblk2
  rw [View.read_apply]
  show V c main_v15 _ = V c main_v15 _
  congr 1
  funext a
  apply Fin.ext
  match a with
  | ⟨0, _⟩ => show win2_4.index t 0 * 1 + 1 * 0 = 0; rw [e0]
  | ⟨1, _⟩ => show win2_4.index t 1 * 1024 + 1 * e.val = e.val; rw [e1]; omega

/-- The shift row's block is the whole row. -/
theorem blk5_apply (c : Dev nD) (t : Fin cfg2.N) (e : Fin 1024) :
    (iblk2 V c 5 t : FVec Ideal S1x1024 .f32) (ix2 (0 : Fin 1) e) = (V c main_v16 : S1x1024.Idx → EReal) (ix2 (0 : Fin 1) e) := by
  obtain ⟨-, -, -, -, -, -, -, -, -, -, e0, e1, -⟩ := idx_facts t
  unfold iblk2
  rw [View.read_apply]
  show V c main_v16 _ = V c main_v16 _
  congr 1
  funext a
  apply Fin.ext
  match a with
  | ⟨0, _⟩ => show win2_5.index t 0 * 1 + 1 * 0 = 0; rw [e0]
  | ⟨1, _⟩ => show win2_5.index t 1 * 1024 + 1 * e.val = e.val; rw [e1]; omega

/-- The rows point t computes are rows 512·t … of the function of the whole arrays. -/
theorem yrow_blocks (c : Dev nD) (t : Fin cfg2.N) (r : Fin 512) (R : Fin 8192) (hR : R.val = t.val * 512 + r.val) :
    yrow (iblk2 V c 0 t) (iblk2 V c 1 t) (iblk2 V c 2 t) (iblk2 V c 3 t) r
      = rowOf (V c main_v11) (V c main_v13) (V c main_v14) (V c main_v5) R := by
  funext e
  unfold yrow rowOf
  rw [blk2_apply V c t e, blk3_apply V c t r e R hR,
    Finset.sum_congr rfl fun d _ => by rw [blk0_apply V c t r d R hR, blk1_apply V c t d e]]

/-- What point t writes back is block t of the function of the arrays as the region finds them. -/
theorem flushed_eq (c : Dev nD) (t : Fin cfg2.N) :
    (dat2 V c).flushed 6 t = ((cfg2.win 6).blk t).view.read (Elt Ideal)
      (G2 (V c main_v11) (V c main_v13) (V c main_v14) (V c main_v5) (V c main_v15) (V c main_v16)) := by
  show (cfg2.win 6).cut (grid2.coords t) ((dat2 V c).after 6 t) = _
  rw [after2_6, out2_6_eq]
  obtain ⟨-, -, -, -, -, -, -, -, -, -, -, -, e0, e1⟩ := idx_facts t
  have hN : cfg2.N = 16 := N_2
  funext j
  have hj0 : (j 0).val < 512 := (j 0).isLt
  have hj1 : (j 1).val < 1024 := (j 1).isLt
  have ht : t.val < 16 := hN ▸ t.isLt
  show k2_pay1 (F := Ideal) (iblk2 V c 0 t) (iblk2 V c 1 t) (iblk2 V c 2 t) (iblk2 V c 3 t) (iblk2 V c 4 t) (iblk2 V c 5 t) j
    = G2 (V c main_v11) (V c main_v13) (V c main_v14) (V c main_v5) (V c main_v15) (V c main_v16)
        (((cfg2.win 6).blk t).view.emb j)
  have hemb : ((cfg2.win 6).blk t).view.emb j
      = ix2 (⟨t.val * 512 + (j 0).val, by omega⟩ : Fin 8192) (⟨(j 1).val, hj1⟩ : Fin 1024) := by
    funext a
    apply Fin.ext
    match a with
    | ⟨0, _⟩ => show win2_6.index t 0 * 512 + 1 * (j 0).val = t.val * 512 + (j 0).val; rw [e0]; omega
    | ⟨1, _⟩ => show win2_6.index t 1 * 1024 + 1 * (j 1).val = (j 1).val; rw [e1]; omega
  rw [hemb, G2_ix2]
  refine (pay_at (iblk2 V c 0 t) (iblk2 V c 1 t) (iblk2 V c 2 t) (iblk2 V c 3 t) (iblk2 V c 4 t) (iblk2 V c 5 t) j
    ⟨(j 0).val, hj0⟩ ⟨(j 1).val, hj1⟩ rfl rfl).trans ?_
  rw [yrow_blocks V c t ⟨(j 0).val, hj0⟩ ⟨t.val * 512 + (j 0).val, by omega⟩ rfl, blk4_apply, blk5_apply]

/-- An index of the array is in point t's block iff each coordinate is in the block's range on its axis. -/
theorem mem_blk (t : Fin cfg2.N) (i : S8192x1024.Idx) :
    i ∈ ((cfg2.win 6).blk t).view.set ↔ ∀ a : Fin 2, win2_6.index t a * S512x1024.size a ≤ (i a).val
      ∧ (i a).val < win2_6.index t a * S512x1024.size a + S512x1024.size a := by
  show i ∈ ((View.whole main_v17).slice (win2_6.rect t)).set ↔ _
  rw [View.set_slice_whole, Rect.mem_set_unit]
  exact Iff.rfl

/-- Row R lies in the block of point R / 512. -/
theorem cover (i : S8192x1024.Idx) :
    ∃ t : Fin cfg2.N, (cfg2.win 6).flush t = true ∧ i ∈ ((cfg2.win 6).blk t).view.set := by
  have h0 : (i 0).val < 8192 := (i 0).isLt
  have h1 : (i 1).val < 1024 := (i 1).isLt
  have hN : cfg2.N = 16 := N_2
  obtain ⟨-, -, -, -, -, -, -, -, -, -, -, -, e0, e1⟩ :=
    idx_facts (⟨(i 0).val / 512, by rw [hN]; omega⟩ : Fin cfg2.N)
  refine ⟨⟨(i 0).val / 512, by rw [hN]; omega⟩, flush2_6 _, ?_⟩
  rw [mem_blk]
  intro a
  match a with
  | ⟨0, _⟩ =>
    show win2_6.index ⟨(i 0).val / 512, _⟩ 0 * 512 ≤ (i 0).val
      ∧ (i 0).val < win2_6.index ⟨(i 0).val / 512, _⟩ 0 * 512 + 512
    rw [e0]; show (i 0).val / 512 * 512 ≤ (i 0).val ∧ (i 0).val < (i 0).val / 512 * 512 + 512; omega
  | ⟨1, _⟩ =>
    show win2_6.index ⟨(i 0).val / 512, _⟩ 1 * 1024 ≤ (i 1).val
      ∧ (i 1).val < win2_6.index ⟨(i 0).val / 512, _⟩ 1 * 1024 + 1024
    rw [e1]; omega

/-- The result array after the region: the function of the six arrays as the region finds them. -/
theorem final (c : Dev nD) :
    (dat2 V c).arrAt 6 cfg2.N
      = G2 (V c main_v11) (V c main_v13) (V c main_v14) (V c main_v5) (V c main_v15) (V c main_v16) :=
  (dat2 V c).arrAt_eq_of_cover 6 _ (fun t _ => flushed_eq V c t) cover

end

end Cert.KernelIdeal.Val2

end
-- ==== Proof.ValR2Host.lean ====
/-
  The arrays the third region finds, as functions of the program's arguments and of the context.

  Before the region the host lays the context out as 8192 rows (row bi·2048 + s is the context row (bi, s)),
  transposes the output weight (entry (d, e) is Wo (e, d); the change of format is the identity on the extended
  reals), and lays the bias, the scale and the shift out as single rows. The input rows were flattened the same way
  before the first region and nothing has written them since. The arguments themselves are never written.
-/
import proofs.«142345_j19559281066284_2_alg».proof.Proof.IFrameDefs
import proofs.«142345_j19559281066284_2_alg».proof.Proof.LibFlatten
import Idealize.ShloMosaic.Lib.StableHlo.Run
import Idealize.ShloMosaic.Lib.Pipeline.Value
import Idealize.ShloMosaic.Lib.ValueIdx

set_option maxRecDepth 16384

noncomputable section

namespace Cert.KernelIdeal.Val2

open Cert.KernelIdeal Cert.KernelIdeal.Gen Cert.KernelIdeal.Fr Idealize.ShloMosaic Idealize.ShloMosaic.ValueIdx
  Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The arguments, when the third stretch of host operations starts -/

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide : main_arg7 ∉ hostOps1_W)
    _ = W1 m ρ c (Proc.devRef .tc main_arg7) := W2_of_ne m ρ c main_arg7 (by decide)
    _ = W0 m ρ c (Proc.devRef .tc main_arg7) := StableHlo.after_of_writes_sub hostOps0 _ hostOps0_writes (by decide : main_arg7 ∉ hostOps0_W)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide : main_arg8 ∉ hostOps1_W)
    _ = W1 m ρ c (Proc.devRef .tc main_arg8) := W2_of_ne m ρ c main_arg8 (by decide)
    _ = W0 m ρ c (Proc.devRef .tc main_arg8) := StableHlo.after_of_writes_sub hostOps0 _ hostOps0_writes (by decide : main_arg8 ∉ hostOps0_W)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (by decide : main_arg9 ∉ hostOps1_W)
    _ = W1 m ρ c (Proc.devRef .tc main_arg9) := W2_of_ne m ρ c main_arg9 (by decide)
    _ = W0 m ρ c (Proc.devRef .tc main_arg9) := StableHlo.after_of_writes_sub hostOps0 _ hostOps0_writes (by decide : main_arg9 ∉ hostOps0_W)
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := StableHlo.after_of_writes_sub hostOps1 _ hostOps1_writes (by decide : main_arg10 ∉ hostOps1_W)
    _ = W1 m ρ c (Proc.devRef .tc main_arg10) := W2_of_ne m ρ c main_arg10 (by decide)
    _ = W0 m ρ c (Proc.devRef .tc main_arg10) := StableHlo.after_of_writes_sub hostOps0 _ hostOps0_writes (by decide : main_arg10 ∉ hostOps0_W)
    _ = m ((c : Thread nD τ).loc main_arg10) := rfl

/-- The flattened input rows: written before the first region, an input of that region, untouched since. -/
theorem W4_main_v5 (c : Dev nD) :
    (W4 m ρ c (Proc.devRef .tc main_v5) : S8192x1024.Idx → EReal)
      = shapeCast S8192x1024 (m ((c : Thread nD τ).loc main_arg0) : S4x2048x1024.Idx → EReal)
          shapeCasts_S4x2048x1024_S8192x1024 := by
  have h1 : W4 m ρ c (Proc.devRef .tc main_v5) = W1 m ρ c (Proc.devRef .tc main_v5) :=
    calc W4 m ρ c (Proc.devRef .tc main_v5)
      _ = W3 m ρ c (Proc.devRef .tc main_v5) := W4_of_ne m ρ c main_v5 (by decide)
      _ = W2 m ρ c (Proc.devRef .tc main_v5) := StableHlo.after_of_writes_sub hostOps1 _ hostOps1_writes (by decide : main_v5 ∉ hostOps1_W)
      _ = (dat0 (V1 m ρ) c).arrAt 0 cfg0.N := W2_arr m ρ c 0
      _ = (dat0 (V1 m ρ) c).A 0 := (dat0 (V1 m ρ) c).arrAt_in 0 rfl cfg0.N
      _ = W1 m ρ c (Proc.devRef .tc main_v5) := rfl
  rw [h1]
  show StableHlo.after hostOps0 (W0 m ρ c) (Proc.devRef .tc main_v5) = _
  after_results
  rfl

/-! ## What the third stretch of host operations leaves -/

theorem V5_main_v11 (c : Dev nD) :
    (V5 m ρ c main_v11 : S8192x1024.Idx → EReal)
      = shapeCast S8192x1024 (V4 m ρ c main_v10 : S4x2048x1024.Idx → EReal) shapeCasts_S4x2048x1024_S8192x1024 := by
  show StableHlo.after hostOps2 (W4 m ρ c) (Proc.devRef .tc main_v11) = _
  after_results
  rfl

theorem V5_main_v13 (c : Dev nD) :
    (V5 m ρ c main_v13 : S1024x1024.Idx → EReal)
      = (truncf (F := Ideal) .bf16 (transpose S1024x1024 [1, 0] (m ((c : Thread nD τ).loc main_arg7) : FVec Ideal S1024x1024 .f32)
          transposes_S1024x1024_S1024x1024_1_0) bitsLt_bf16_f32 : FVec Ideal S1024x1024 .bf16) := by
  rw [← W4_main_arg7 m ρ c]
  show StableHlo.after hostOps2 (W4 m ρ c) (Proc.devRef .tc main_v13) = _
  after_results

theorem V5_main_v14 (c : Dev nD) :
    (V5 m ρ c main_v14 : S1x1024.Idx → EReal)
      = shapeCast S1x1024 (m ((c : Thread nD τ).loc main_arg8) : S1024.Idx → EReal) shapeCasts_S1024_S1x1024 := by
  rw [← W4_main_arg8 m ρ c]
  show StableHlo.after hostOps2 (W4 m ρ c) (Proc.devRef .tc main_v14) = _
  after_results
  rfl

theorem V5_main_v15 (c : Dev nD) :
    (V5 m ρ c main_v15 : S1x1024.Idx → EReal)
      = shapeCast S1x1024 (m ((c : Thread nD τ).loc main_arg9) : S1024.Idx → EReal) shapeCasts_S1024_S1x1024 := by
  rw [← W4_main_arg9 m ρ c]
  show StableHlo.after hostOps2 (W4 m ρ c) (Proc.devRef .tc main_v15) = _
  after_results
  rfl

theorem V5_main_v16 (c : Dev nD) :
    (V5 m ρ c main_v16 : S1x1024.Idx → EReal)
      = shapeCast S1x1024 (m ((c : Thread nD τ).loc main_arg10) : S1024.Idx → EReal) shapeCasts_S1024_S1x1024 := by
  rw [← W4_main_arg10 m ρ c]
  show StableHlo.after hostOps2 (W4 m ρ c) (Proc.devRef .tc main_v16) = _
  after_results
  rfl

theorem V5_main_v5 (c : Dev nD) :
    (V5 m ρ c main_v5 : S8192x1024.Idx → EReal)
      = shapeCast S8192x1024 (m ((c : Thread nD τ).loc main_arg0) : S4x2048x1024.Idx → EReal)
          shapeCasts_S4x2048x1024_S8192x1024 :=
  (StableHlo.after_of_writes_sub hostOps2 _ hostOps2_writes (by decide : main_v5 ∉ hostOps2_W)).trans (W4_main_v5 m ρ c)

/-! ## The same, at an index -/

/-- Row bi·2048 + s of the flattened context is the context row (bi, s). -/
theorem v11_at (c : Dev nD) (R : Fin 8192) (d : Fin 1024) (bi : Fin 4) (s : Fin 2048) (hR : R.val = bi.val * 2048 + s.val) :
    (V5 m ρ c main_v11 : S8192x1024.Idx → EReal) (ix2 R d) = (V4 m ρ c main_v10 : S4x2048x1024.Idx → EReal) (ix3 bi s d) := by
  rw [V5_main_v11]
  exact Flatten.merge_apply _ shapeCasts_S4x2048x1024_S8192x1024 bi s d R hR

/-- Row bi·2048 + s of the flattened input is the input row (bi, s). -/
theorem v5_at (c : Dev nD) (R : Fin 8192) (e : Fin 1024) (bi : Fin 4) (s : Fin 2048) (hR : R.val = bi.val * 2048 + s.val) :
    (V5 m ρ c main_v5 : S8192x1024.Idx → EReal) (ix2 R e)
      = (m ((c : Thread nD τ).loc main_arg0) : S4x2048x1024.Idx → EReal) (ix3 bi s e) := by
  rw [V5_main_v5]
  exact Flatten.merge_apply _ shapeCasts_S4x2048x1024_S8192x1024 bi s e R hR

/-- The transposed weight: entry (d, e) is Wo (e, d). -/
theorem v13_at (c : Dev nD) (d e : Fin 1024) :
    (V5 m ρ c main_v13 : S1024x1024.Idx → EReal) (ix2 d e)
      = (m ((c : Thread nD τ).loc main_arg7) : S1024x1024.Idx → EReal) (ix2 e d) := by
  rw [V5_main_v13]
  show transpose S1024x1024 [1, 0] (m ((c : Thread nD τ).loc main_arg7) : S1024x1024.Idx → EReal)
    transposes_S1024x1024_S1024x1024_1_0 (ix2 d e) = _
  exact transpose_apply [1, 0] _ transposes_S1024x1024_S1024x1024_1_0 (ix2 d e) (ix2 e d) (fun b => match b with
    | ⟨0, _⟩ => rfl
    | ⟨1, _⟩ => rfl)

/-- A feature vector laid out as one row: entry (0, e) is entry e. -/
theorem row_at (v : S1024.Idx → EReal) (e : Fin 1024) :
    shapeCast S1x1024 v shapeCasts_S1024_S1x1024 (ix2 (0 : Fin 1) e) = v (ix1 e) :=
  shapeCast_apply v shapeCasts_S1024_S1x1024 (ix2 (0 : Fin 1) e) (ix1 e) (by
    rw [Shape.rowMajor_val_one, Shape.rowMajor_val_two]
    show e.val = 0 * 1024 + e.val
    omega)

theorem v14_at (c : Dev nD) (e : Fin 1024) :
    (V5 m ρ c main_v14 : S1x1024.Idx → EReal) (ix2 (0 : Fin 1) e)
      = (m ((c : Thread nD τ).loc main_arg8) : S1024.Idx → EReal) (ix1 e) := by
  rw [V5_main_v14]; exact row_at _ e

theorem v15_at (c : Dev nD) (e : Fin 1024) :
    (V5 m ρ c main_v15 : S1x1024.Idx → EReal) (ix2 (0 : Fin 1) e)
      = (m ((c : Thread nD τ).loc main_arg9) : S1024.Idx → EReal) (ix1 e) := by
  rw [V5_main_v15]; exact row_at _ e

theorem v16_at (c : Dev nD) (e : Fin 1024) :
    (V5 m ρ c main_v16 : S1x1024.Idx → EReal) (ix2 (0 : Fin 1) e)
      = (m ((c : Thread nD τ).loc main_arg10) : S1024.Idx → EReal) (ix1 e) := by
  rw [V5_main_v16]; exact row_at _ e

end Cert.KernelIdeal.Val2

end
-- ==== Proof.ValR2.lean ====
/-
  What the program leaves in its result array, given the context.

  The third region leaves, at row R of the flattened result, the normalised row of (context row R)·Woᵀ + bo + (input
  row R), scaled by gamma and shifted by beta; the last host operation views the 8192 rows as 4 sequences of 2048
  rows again, row bi·2048 + s becoming row (bi, s). With the context array given as a function C of (bi, s, feature),
  the result at (bi, s, e) is the specification's layer norm of the residual row (bi, s) of C.
-/
import proofs.«142345_j19559281066284_2_alg».proof.Proof.ValR2Blocks
import proofs.«142345_j19559281066284_2_alg».proof.Proof.ValR2Host

set_option maxRecDepth 16384

noncomputable section

open scoped BigOperators

namespace Cert.KernelIdeal.Val2

open Cert.KernelIdeal Cert.KernelIdeal.Gen Cert.KernelIdeal.Fr Idealize.ShloMosaic Idealize.ShloMosaic.ValueIdx
  Idealize.ShloMosaic.TcCoe Idealize.SL.Sem Idealize.ShloMosaic.StableHlo Cert.AttnSpec

variable (m : (ℓ : Loc nD τ sig) → Buf (Elt Ideal) ℓ) (ρ : Dev nD → PrngReg)

/-- The flattened result after the third region: the function of the arrays the region finds. -/
theorem W6_main_v17 (c : Dev nD) :
    (W6 m ρ c (Proc.devRef .tc main_v17) : S8192x1024.Idx → EReal)
      = G2 (V5 m ρ c main_v11) (V5 m ρ c main_v13) (V5 m ρ c main_v14) (V5 m ρ c main_v5) (V5 m ρ c main_v15)
          (V5 m ρ c main_v16) :=
  (W6_arr m ρ c 6).trans (final (V5 m ρ) c)

/-- The result array is the flattened result viewed as 4 sequences of 2048 rows. -/
theorem W7_main_v18_eq (c : Dev nD) :
    (W7 m ρ c (Proc.devRef .tc main_v18) : S4x2048x1024.Idx → EReal)
      = shapeCast S4x2048x1024 (W6 m ρ c (Proc.devRef .tc main_v17) : S8192x1024.Idx → EReal)
          shapeCasts_S8192x1024_S4x2048x1024 := by
  show StableHlo.after hostOps3 (W6 m ρ c) (Proc.devRef .tc main_v18) = _
  after_results
  rfl

/-- Row bi·2048 + s before normalisation is the specification's residual row (bi, s) of the context. -/
theorem row_eq (c : Dev nD) (C : Fin 4 → Fin 2048 → Fin 1024 → EReal)
    (hC : ∀ i : S4x2048x1024.Idx, V4 (F := Ideal) m ρ c main_v10 i
      = C ⟨(i 0).val, (i 0).isLt⟩ ⟨(i 1).val, (i 1).isLt⟩ ⟨(i 2).val, (i 2).isLt⟩)
    (bi : Fin 4) (s : Fin 2048) (R : Fin 8192) (hR : R.val = bi.val * 2048 + s.val) :
    rowOf (V5 m ρ c main_v11) (V5 m ρ c main_v13) (V5 m ρ c main_v14) (V5 m ρ c main_v5) R
      = fun e' : Fin 1024 => resid C (m ((c : Thread nD τ).loc main_arg0)) (m ((c : Thread nD τ).loc main_arg7))
          (m ((c : Thread nD τ).loc main_arg8)) bi s e' := by
  funext e'
  unfold rowOf resid
  rw [v14_at, v5_at m ρ c R e' bi s hR,
    Finset.sum_congr rfl fun d _ => by rw [v11_at m ρ c R d bi s hR, hC, v13_at]]

/-- The result array, index by index: the layer norm of the residual rows of the context. -/
theorem W7_main_v18 (c : Dev nD) (C : Fin 4 → Fin 2048 → Fin 1024 → EReal)
    (hC : ∀ i : S4x2048x1024.Idx, V4 (F := Ideal) m ρ c main_v10 i
      = C ⟨(i 0).val, (i 0).isLt⟩ ⟨(i 1).val, (i 1).isLt⟩ ⟨(i 2).val, (i 2).isLt⟩) :
    ∀ i : S4x2048x1024.Idx, W7 (F := Ideal) m ρ c (Proc.devRef .tc main_v18) i
      = lnorm (fun e' => resid C (m ((c : Thread nD τ).loc main_arg0)) (m ((c : Thread nD τ).loc main_arg7))
          (m ((c : Thread nD τ).loc main_arg8)) ⟨(i 0).val, (i 0).isLt⟩ ⟨(i 1).val, (i 1).isLt⟩ e')
        (m ((c : Thread nD τ).loc main_arg9)) (m ((c : Thread nD τ).loc main_arg10)) ⟨(i 2).val, (i 2).isLt⟩ := by
  intro i
  obtain ⟨bi, s, e, rfl⟩ : ∃ (bi : Fin 4) (s : Fin 2048) (e : Fin 1024), i = ix3 bi s e :=
    ⟨i 0, i 1, i 2, eq_ix3 i⟩
  have hlt : bi.val * 2048 + s.val < 8192 := by have := bi.isLt; have := s.isLt; omega
  have e18 := congrFun (W7_main_v18_eq m ρ c) (ix3 bi s e)
  refine e18.trans ?_
  refine (Flatten.split_apply _ shapeCasts_S8192x1024_S4x2048x1024 bi s e
    (⟨bi.val * 2048 + s.val, hlt⟩ : Fin 8192) rfl).trans ?_
  rw [W6_main_v17, G2_ix2, row_eq m ρ c C hC bi s _ rfl, v15_at, v16_at]
  exact normed_eq_lnorm _ _ _ e

end Cert.KernelIdeal.Val2

end
-- ==== Proof.KernelValue.lean ====
/-
  The kernel program's result array as one function of its argument arrays.

  The three projection arrays entering the attention region are the affine maps of x; the region writes their
  context rows; the last region normalises the output projection of those rows plus x; the final reshape reads the
  8192 rows as 4 sequences of 2048. So the result holds, at (b, s, e), multi-head attention followed by the residual
  layer norm of the argument arrays.
-/
import proofs.«142345_j19559281066284_2_alg».proof.Proof.KernelCtx
import proofs.«142345_j19559281066284_2_alg».proof.Proof.ValR0
import proofs.«142345_j19559281066284_2_alg».proof.Proof.ValR2

noncomputable section

namespace Cert.KernelIdeal.KV

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The specification's function of the eleven argument arrays as core `c` holds them at launch. -/
def result (c : Dev nD) : S4x2048x1024.Idx → EReal :=
  Cert.AttnSpec.outArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The result buffer after the last host stretch holds that function. -/
theorem W7_result (c : Dev nD) :
    (Fr.W7 (F := Ideal) m ρ c (Proc.devRef .tc main_v18) : S4x2048x1024.Idx → EReal) = result m c :=
  funext fun i =>
    Val2.W7_main_v18 m ρ c _
      (V4_ctx m ρ c _ _ _ (Val.V3_main_v7_apply m ρ c) (Val.V3_main_v8_apply m ρ c) (Val.V3_main_v9_apply m ρ c)) i

end Cert.KernelIdeal.KV

end
-- ==== Proof.RefProj.lean ====
/-
  The reference's three input projections, read at an index.

  Each of the queries, keys and values is x·Wᵀ + b: a contraction of the 1024 features of a row with a row of W,
  plus the bias spread over the batch and the rows. Read at row (bi, s), feature e, that is the affine map of the
  specification. Reshaped to 16 heads of 64 columns and with the head axis moved in front of the row axis, the
  entry (bi, h, s, k) is feature h·64 + k of row (bi, s).
-/
import proofs.«142345_j19559281066284_2_alg».proof.Proof.Gen.ReferenceIdeal.Read
import proofs.«142345_j19559281066284_2_alg».proof.Proof.AttnSpec

noncomputable section

open scoped BigOperators

namespace Cert.RefSpec

open Cert.ReferenceIdeal Cert.ReferenceIdeal.Read Idealize.ShloMosaic Idealize.ShloMosaic.ValueIdx Cert.AttnSpec

/-- The arrays of extended reals the reference takes: a batch of sequences, a weight matrix, a feature vector. -/
abbrev AX : Type := (⟨S4x2048x1024, .f32⟩ : BufTy).Contents (Elt Ideal)
abbrev AW : Type := (⟨S1024x1024, .f32⟩ : BufTy).Contents (Elt Ideal)
abbrev AB : Type := (⟨S1024, .f32⟩ : BufTy).Contents (Elt Ideal)

/-- The head a column lies in, and its place inside the head. -/
def headOf (e : Fin 1024) : Fin 16 := ⟨e.val / 64, by have := e.isLt; omega⟩
def laneOf (e : Fin 1024) : Fin 64 := ⟨e.val % 64, by omega⟩

theorem head_lane (e : Fin 1024) : e.val = (headOf e).val * 64 + (laneOf e).val := by
  show e.val = e.val / 64 * 64 + e.val % 64
  omega

/-- Column k of the head of column e, by the head's number. -/
theorem hcol_val (e : Fin 1024) (k : Fin 64) : (hcol e k).val = (headOf e).val * 64 + k.val := rfl

/-- An affine map x·Wᵀ + b at row (bi, s), feature e. -/
theorem proj_read (x : AX) (W : AW) (b : AB) (bi : Fin 4) (s : Fin 2048) (e : Fin 1024) :
    val_main_v3 (F := Ideal) x W b (ix3 bi s e) = lin x W b bi s e := by
  have hl : ∀ k : Fin 1024, lidx_main_v0 (ix3 bi s e) k = ix3 bi s k := fun k => funext fun a => Fin.ext (by
    match a with | ⟨0, _⟩ => rfl | ⟨1, _⟩ => rfl | ⟨2, _⟩ => rfl)
  have hr : ∀ k : Fin 1024, ridx_main_v0 (ix3 bi s e) k = ix2 e k := fun k => funext fun a => Fin.ext (by
    match a with | ⟨0, _⟩ => rfl | ⟨1, _⟩ => rfl)
  have hb : idx_main_v1 (idx_main_v2 (ix3 bi s e)) = ix1 e := funext fun a => Fin.ext (by
    match a with | ⟨0, _⟩ => rfl)
  rw [val_main_v3_apply, val_main_v0_apply, val_main_v2_apply, val_main_v1_apply, hb]
  show (∑ k : Fin 1024, x (lidx_main_v0 (ix3 bi s e) k) * W (ridx_main_v0 (ix3 bi s e) k)) + b (ix1 e) = _
  rw [Finset.sum_congr rfl fun k _ => by rw [hl k, hr k]]
  rfl

/-- The keys' and the values' projections are the same function of their own weights and bias. -/
theorem v9_eq (x : AX) (W : AW) (b : AB) : val_main_v9 (F := Ideal) x W b = val_main_v3 (F := Ideal) x W b := rfl
theorem v15_eq (x : AX) (W : AW) (b : AB) : val_main_v15 (F := Ideal) x W b = val_main_v3 (F := Ideal) x W b := rfl

/-- A projection split into heads: entry (bi, h, s, k) is the feature c = h·64 + k of row (bi, s). -/
theorem heads_read (x : AX) (W : AW) (b : AB) (bi : Fin 4) (h : Fin 16) (s : Fin 2048) (k : Fin 64) (c : Fin 1024)
    (hc : c.val = h.val * 64 + k.val) :
    val_main_v5 (F := Ideal) x W b (ix4 bi h s k) = lin x W b bi s c := by
  have h5 : idx_main_v5 (ix4 bi h s k) = ix4 bi s h k := funext fun a => Fin.ext (by
    match a with | ⟨0, _⟩ => rfl | ⟨1, _⟩ => rfl | ⟨2, _⟩ => rfl | ⟨3, _⟩ => rfl)
  have h4 : idx_main_v4 (ix4 bi s h k) = ix3 bi s c := funext fun a => Fin.ext (by
    have h0 := bi.isLt; have h1 := s.isLt; have h2 := h.isLt; have h3 := k.isLt
    match a with
    | ⟨0, _⟩ => show (((bi.val * 2048 + s.val) * 16 + h.val) * 64 + k.val) / 2097152 = bi.val; omega
    | ⟨1, _⟩ => show (((bi.val * 2048 + s.val) * 16 + h.val) * 64 + k.val) / 1024 % 2048 = s.val; omega
    | ⟨2, _⟩ => show (((bi.val * 2048 + s.val) * 16 + h.val) * 64 + k.val) % 1024 = c.val; omega)
  rw [val_main_v5_apply, h5, val_main_v4_apply, h4, proj_read]

theorem v11_eq (x : AX) (W : AW) (b : AB) : val_main_v11 (F := Ideal) x W b = val_main_v5 (F := Ideal) x W b := rfl
theorem v17_eq (x : AX) (W : AW) (b : AB) : val_main_v17 (F := Ideal) x W b = val_main_v5 (F := Ideal) x W b := rfl

end Cert.RefSpec

end
-- ==== Proof.RefScale.lean ====
/-
  The scale of the attention scores, two spellings of one number.

  The float word 0x42800000 denotes 64 and the word 0x3E000000 denotes 1/8; the square root of 64 is 8. So dividing
  an extended real by the square root of the first word is multiplying it by the second, at the infinities too.
-/
import Idealize.ShloMosaic.PureOps.Ideal
import proofs.«142345_j19559281066284_2_alg».proof.Proof.AttnSpec

noncomputable section

namespace Cert.RefScale

open Idealize.ShloMosaic

/-- The word 0x42800000 denotes the real 64. -/
theorem ofBits_64 : Ideal.ofBits .f32 0x42800000#32 = ((64 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  show (if (64 : ℝ) < 0 then (⊥ : EReal) else ((Real.sqrt 64 : ℝ) : EReal)) = _
  rw [if_neg (by norm_num), show (64 : ℝ) = 8 ^ 2 by norm_num, Real.sqrt_sq (by norm_num)]

/-- Dividing by the square root of the word of 64 is multiplying by the word of 1/8. -/
theorem div_sqrt_64 (x : EReal) :
    Ideal.div x (Ideal.sqrt (Ideal.ofBits .f32 0x42800000#32)) = x * Cert.AttnSpec.scale := by
  rw [ofBits_64, sqrt_64, Ideal.div_coe (by norm_num : (8 : ℝ) ≠ 0), Cert.AttnSpec.scale, ofBits_eighth]

end Cert.RefScale

end
-- ==== Proof.RefScores.lean ====
/-
  The reference's attention scores, read at an index.

  In the head of column e, the score of query row i against key row j is the inner product of the head's 64 columns
  of the two projected rows, divided by the square root of the word of 64: the specification's score, which
  multiplies by the word of 1/8 instead.
-/
import proofs.«142345_j19559281066284_2_alg».proof.Proof.RefProj
import proofs.«142345_j19559281066284_2_alg».proof.Proof.RefScale

noncomputable section

open scoped BigOperators

namespace Cert.RefSpec

open Cert.ReferenceIdeal Cert.ReferenceIdeal.Read Idealize.ShloMosaic Idealize.ShloMosaic.ValueIdx Cert.AttnSpec

/-- The score of query row i against key row j in the head of column e. -/
theorem scores_read (x : AX) (Wq : AW) (bq : AB) (Wk : AW) (bk : AB) (bi : Fin 4) (e : Fin 1024) (i j : Fin 2048) :
    val_main_v21 (F := Ideal) x Wq bq Wk bk (ix4 bi (headOf e) i j) = score (lin x Wq bq) (lin x Wk bk) bi e i j := by
  have hl : ∀ k : Fin 64, lidx_main_v18 (ix4 bi (headOf e) i j) k = ix4 bi (headOf e) i k := fun k =>
    funext fun a => Fin.ext (by match a with | ⟨0, _⟩ => rfl | ⟨1, _⟩ => rfl | ⟨2, _⟩ => rfl | ⟨3, _⟩ => rfl)
  have hr : ∀ k : Fin 64, ridx_main_v18 (ix4 bi (headOf e) i j) k = ix4 bi (headOf e) j k := fun k =>
    funext fun a => Fin.ext (by match a with | ⟨0, _⟩ => rfl | ⟨1, _⟩ => rfl | ⟨2, _⟩ => rfl | ⟨3, _⟩ => rfl)
  rw [val_main_v21_apply, val_main_v18_apply, val_main_v20_apply, val_main_v19_apply, val_main_cst_apply,
    Finset.sum_congr rfl fun k _ => by
      rw [hl k, hr k, v11_eq, heads_read x Wq bq bi (headOf e) i k (hcol e k) (hcol_val e k),
        heads_read x Wk bk bi (headOf e) j k (hcol e k) (hcol_val e k)]]
  show Ideal.div _ (Ideal.sqrt (Ideal.ofBits .f32 0x42800000#32)) = _
  rw [Cert.RefScale.div_sqrt_64]
  rfl

end Cert.RefSpec

end
-- ==== Proof.RefSoftmax.lean ====
/-
  The reference's softmax over the key rows, read at an index.

  For a batch bi, a head h and a query row i the reference folds the maximum of the 2048 scores of the row from the
  word of -∞, joins it once more with that word, takes it off every score and exponentiates; then it sums the
  exponentials from the zero word and divides each by the sum. Read at (bi, h, i, j) this is the softmax weight of
  entry j in the row of scores: the extra join changes nothing, and the sum's starting value is zero.
-/
import proofs.«142345_j19559281066284_2_alg».proof.Proof.Gen.ReferenceIdeal.Read
import proofs.«142345_j19559281066284_2_alg».proof.Proof.LibRowSoftmax
import Idealize.ShloMosaic.PureOps.Reduce

noncomputable section

open scoped BigOperators

namespace Cert.RefSpec

open Cert.ReferenceIdeal Cert.ReferenceIdeal.Read Cert.ReferenceIdeal.Gen Idealize.ShloMosaic Idealize.ShloMosaic.ValueIdx
  Idealize.ShloMosaic.RowSoftmax

section
variable (x : (⟨S4x2048x1024, .f32⟩ : BufTy).Contents (Elt Ideal))
  (Wq : (⟨S1024x1024, .f32⟩ : BufTy).Contents (Elt Ideal)) (bq : (⟨S1024, .f32⟩ : BufTy).Contents (Elt Ideal))
  (Wk : (⟨S1024x1024, .f32⟩ : BufTy).Contents (Elt Ideal)) (bk : (⟨S1024, .f32⟩ : BufTy).Contents (Elt Ideal))
  (bi : Fin 4) (h : Fin 16) (i : Fin 2048)

/-- The row (bi, h, i) with column k put back is (bi, h, i, k). -/
theorem lift_scores (hR : S4x16x2048x2048.Reduces [3] S4x16x2048) (k : Fin (S4x16x2048x2048.size 3)) :
    hR.lift (ix3 bi h i) k = ix4 bi h i (⟨k.val, k.isLt⟩ : Fin 2048) := by
  funext c; apply Fin.ext
  match c with
  | ⟨0, _⟩ => rfl
  | ⟨1, _⟩ => rfl
  | ⟨2, _⟩ => rfl
  | ⟨3, _⟩ => rfl

/-- The maximum of the row of scores (bi, h, i), folded from the word of -∞. -/
theorem rowmax_read :
    val_main_v22 (F := Ideal) x Wq bq Wk bk (ix3 bi h i)
      = rowMax 0xFF800000#32 (fun j : Fin 2048 => val_main_v21 (F := Ideal) x Wq bq Wk bk (ix4 bi h i j)) := by
  unfold val_main_v22
  generalize val_main_v21 (F := Ideal) x Wq bq Wk bk = S
  have hR : S4x16x2048x2048.Reduces [3] S4x16x2048 := by decide
  refine (Host.reduce_eq_fold_single (α := Ideal .f32) FloatOps.maximumf (S : S4x16x2048x2048.Idx → Ideal .f32)
    (val_main_cst_0 (F := Ideal)) reducesTo_S4x16x2048x2048_S4x16x2048_d3 hR h_S_ (ix3 bi h i)).trans ?_
  have hf : (S ∘ hR.lift (ix3 bi h i)) = fun k : Fin 2048 => S (ix4 bi h i k) :=
    funext fun k => congrArg S (lift_scores bi h i hR k)
  exact congrArg (fun f => Finset.fold max (Ideal.ofBits .f32 0xFF800000#32) f (Finset.univ : Finset (Fin 2048))) hf

/-- The exponential of a score less its row's maximum. -/
theorem expo_read (j : Fin 2048) :
    val_main_v28 (F := Ideal) x Wq bq Wk bk (ix4 bi h i j)
      = expo 0xFF800000#32 (fun j' : Fin 2048 => val_main_v21 (F := Ideal) x Wq bq Wk bk (ix4 bi h i j')) j := by
  have hi : idx_main_v25 (idx_main_v26 (ix4 bi h i j)) = ix3 bi h i := funext fun a => Fin.ext (by
    match a with | ⟨0, _⟩ => rfl | ⟨1, _⟩ => rfl | ⟨2, _⟩ => rfl)
  rw [val_main_v28_apply, val_main_v27_apply, val_main_v26_apply, val_main_v25_apply, hi, val_main_v24_apply,
    val_main_v23_apply, rowmax_read]
  show Ideal.exp (val_main_v21 (F := Ideal) x Wq bq Wk bk (ix4 bi h i j)
    - max (Ideal.ofBits .f32 0xFF800000#32)
        (rowMax 0xFF800000#32 fun j' : Fin 2048 => val_main_v21 (F := Ideal) x Wq bq Wk bk (ix4 bi h i j'))) = _
  rw [max_init_rowMax]
  rfl

/-- The softmax weight of entry j in the row of scores (bi, h, i). -/
theorem weights_read (j : Fin 2048) :
    val_main_v32 (F := Ideal) x Wq bq Wk bk (ix4 bi h i j)
      = weight 0xFF800000#32 (fun j' : Fin 2048 => val_main_v21 (F := Ideal) x Wq bq Wk bk (ix4 bi h i j')) j := by
  have hi : idx_main_v30 (idx_main_v31 (ix4 bi h i j)) = ix3 bi h i := funext fun a => Fin.ext (by
    match a with | ⟨0, _⟩ => rfl | ⟨1, _⟩ => rfl | ⟨2, _⟩ => rfl)
  have hk : ∀ k : Fin 2048, idx_main_v29 (ix3 bi h i) k = ix4 bi h i k := fun k => funext fun a => Fin.ext (by
    match a with | ⟨0, _⟩ => rfl | ⟨1, _⟩ => rfl | ⟨2, _⟩ => rfl | ⟨3, _⟩ => rfl)
  rw [val_main_v32_apply, val_main_v31_apply, val_main_v30_apply, hi, val_main_v29_apply, expo_read,
    Finset.sum_congr rfl fun k _ => by rw [hk k, expo_read]]
  show Ideal.div _ (Ideal.ofBits .f32 0x00000000#32 + _) = _
  rw [Ideal.ofBits_zero_f32, zero_add]
  rfl

end

end Cert.RefSpec

end
-- ==== Proof.RefCtx.lean ====
/-
  The reference's context rows and the residual, read at an index.

  In each head the softmax weights of query row s are contracted with the head's value rows over the 2048 key rows;
  the heads are then moved back behind the row axis and laid side by side as 1024 features, so feature e of row
  (bi, s) is lane e mod 64 of head e / 64: the specification's context at column e. The output projection of the
  context rows plus the input row is the specification's residual.
-/
import proofs.«142345_j19559281066284_2_alg».proof.Proof.RefScores
import proofs.«142345_j19559281066284_2_alg».proof.Proof.RefSoftmax

noncomputable section

open scoped BigOperators

namespace Cert.RefSpec

open Cert.ReferenceIdeal Cert.ReferenceIdeal.Read Idealize.ShloMosaic Idealize.ShloMosaic.ValueIdx Cert.AttnSpec
  Idealize.ShloMosaic.RowSoftmax

/-- The context at row (bi, s), column e. -/
theorem ctx_read (x : AX) (Wq : AW) (bq : AB) (Wk : AW) (bk : AB) (Wv : AW) (bv : AB)
    (bi : Fin 4) (s : Fin 2048) (e : Fin 1024) :
    val_main_v35 (F := Ideal) x Wq bq Wk bk Wv bv (ix3 bi s e)
      = ctx (lin x Wq bq) (lin x Wk bk) (lin x Wv bv) bi s e := by
  have h35 : idx_main_v35 (ix3 bi s e) = ix4 bi s (headOf e) (laneOf e) := funext fun a => Fin.ext (by
    have h0 := bi.isLt; have h1 := s.isLt; have h2 := e.isLt
    match a with
    | ⟨0, _⟩ => show ((bi.val * 2048 + s.val) * 1024 + e.val) / 2097152 = bi.val; omega
    | ⟨1, _⟩ => show ((bi.val * 2048 + s.val) * 1024 + e.val) / 1024 % 2048 = s.val; omega
    | ⟨2, _⟩ => show ((bi.val * 2048 + s.val) * 1024 + e.val) / 64 % 16 = e.val / 64; omega
    | ⟨3, _⟩ => show ((bi.val * 2048 + s.val) * 1024 + e.val) % 64 = e.val % 64; omega)
  have h34 : idx_main_v34 (ix4 bi s (headOf e) (laneOf e)) = ix4 bi (headOf e) s (laneOf e) :=
    funext fun a => Fin.ext (by match a with | ⟨0, _⟩ => rfl | ⟨1, _⟩ => rfl | ⟨2, _⟩ => rfl | ⟨3, _⟩ => rfl)
  have hl : ∀ j : Fin 2048, lidx_main_v33 (ix4 bi (headOf e) s (laneOf e)) j = ix4 bi (headOf e) s j := fun j =>
    funext fun a => Fin.ext (by match a with | ⟨0, _⟩ => rfl | ⟨1, _⟩ => rfl | ⟨2, _⟩ => rfl | ⟨3, _⟩ => rfl)
  have hr : ∀ j : Fin 2048, ridx_main_v33 (ix4 bi (headOf e) s (laneOf e)) j = ix4 bi (headOf e) j (laneOf e) :=
    fun j => funext fun a => Fin.ext (by
      match a with | ⟨0, _⟩ => rfl | ⟨1, _⟩ => rfl | ⟨2, _⟩ => rfl | ⟨3, _⟩ => rfl)
  have hs : (fun j' : Fin 2048 => val_main_v21 (F := Ideal) x Wq bq Wk bk (ix4 bi (headOf e) s j'))
      = fun j' : Fin 2048 => score (lin x Wq bq) (lin x Wk bk) bi e s j' :=
    funext fun j' => scores_read x Wq bq Wk bk bi e s j'
  rw [val_main_v35_apply, h35, val_main_v34_apply, h34, val_main_v33_apply]
  unfold ctx
  refine Finset.sum_congr rfl fun j _ => ?_
  rw [hl j, hr j, weights_read, hs, v17_eq, heads_read x Wv bv bi (headOf e) j (laneOf e) e (head_lane e)]

/-- The output projection is the affine map of the context rows with its own weights and bias. -/
theorem v39_eq (x : AX) (Wq : AW) (bq : AB) (Wk : AW) (bk : AB) (Wv : AW) (bv : AB) (Wo : AW) (bo : AB) :
    val_main_v39 (F := Ideal) x Wq bq Wk bk Wv bv Wo bo
      = val_main_v3 (F := Ideal) (val_main_v35 (F := Ideal) x Wq bq Wk bk Wv bv) Wo bo := rfl

/-- The residual at row (bi, s), feature e. -/
theorem resid_read (x : AX) (Wq : AW) (bq : AB) (Wk : AW) (bk : AB) (Wv : AW) (bv : AB) (Wo : AW) (bo : AB)
    (bi : Fin 4) (s : Fin 2048) (e : Fin 1024) :
    val_main_v40 (F := Ideal) x Wq bq Wk bk Wv bv Wo bo (ix3 bi s e)
      = resid (ctx (lin x Wq bq) (lin x Wk bk) (lin x Wv bv)) x Wo bo bi s e := by
  have hsum : (∑ d : Fin 1024, val_main_v35 (F := Ideal) x Wq bq Wk bk Wv bv (ix3 bi s d) * Wo (ix2 e d))
      = ∑ d : Fin 1024, ctx (lin x Wq bq) (lin x Wk bk) (lin x Wv bv) bi s d * Wo (ix2 e d) :=
    Finset.sum_congr rfl fun d _ => by rw [ctx_read]
  rw [val_main_v40_apply, v39_eq, proj_read]
  show ((∑ d : Fin 1024, val_main_v35 (F := Ideal) x Wq bq Wk bk Wv bv (ix3 bi s d) * Wo (ix2 e d)) + bo (ix1 e))
    + x (ix3 bi s e) = _
  rw [hsum]
  rfl

end Cert.RefSpec

end
-- ==== Proof.RefNorm.lean ====
/-
  The reference's layer norm, read at an index.

  Over the 1024 features y of a row the reference sums the features from the zero word and divides by the word of
  1024 (the mean), takes the mean off every feature, sums the squares of the deviations from the zero word and
  divides by the word of 1024 (the mean square deviation), adds the word of 1e-5, takes the reciprocal square root,
  and multiplies the deviations by it, by gamma, and adds beta. Read at row (bi, s), feature e, this is the
  specification's normalised row of the residual row y.
-/
import proofs.«142345_j19559281066284_2_alg».proof.Proof.Gen.ReferenceIdeal.Read
import proofs.«142345_j19559281066284_2_alg».proof.Proof.AttnSpec

noncomputable section

open scoped BigOperators

namespace Cert.RefSpec

open Cert.ReferenceIdeal Cert.ReferenceIdeal.Read Idealize.ShloMosaic Idealize.ShloMosaic.ValueIdx Cert.AttnSpec

section
variable (x0 : (⟨S4x2048x1024, .f32⟩ : BufTy).Contents (Elt Ideal))
  (x1 : (⟨S1024x1024, .f32⟩ : BufTy).Contents (Elt Ideal)) (x2 : (⟨S1024, .f32⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))
  (bi : Fin 4) (s : Fin 2048)

/-- The mean of the residual row (bi, s). -/
theorem mean_read :
    val_main_v44 (F := Ideal) x0 x1 x2 x3 x4 x5 x6 x7 x8 (ix3 bi s (0 : Fin 1))
      = mean (fun e' : Fin 1024 => val_main_v40 (F := Ideal) x0 x1 x2 x3 x4 x5 x6 x7 x8 (ix3 bi s e')) := by
  have hi : idx_main_v42 (ix3 bi s (0 : Fin 1)) = ix2 bi s := funext fun a => Fin.ext (by
    match a with | ⟨0, _⟩ => rfl | ⟨1, _⟩ => rfl)
  have hk : ∀ k : Fin 1024, idx_main_v41 (ix2 bi s) k = ix3 bi s k := fun k => funext fun a => Fin.ext (by
    match a with | ⟨0, _⟩ => rfl | ⟨1, _⟩ => rfl | ⟨2, _⟩ => rfl)
  rw [val_main_v44_apply, val_main_v42_apply, hi, val_main_v41_apply, val_main_v43_apply, val_main_cst_4_apply,
    val_main_cst_3_apply, Finset.sum_congr rfl fun k _ => by rw [hk k]]
  show Ideal.div (Ideal.ofBits .f32 0x00000000#32 + _) _ = _
  rw [Ideal.ofBits_zero_f32, zero_add]
  rfl

/-- A feature's deviation from the mean of its row, as the reference computes it for the squares. -/
theorem dev_read (e : Fin 1024) :
    val_main_v46 (F := Ideal) x0 x1 x2 x3 x4 x5 x6 x7 x8 (ix3 bi s e)
      = val_main_v40 (F := Ideal) x0 x1 x2 x3 x4 x5 x6 x7 x8 (ix3 bi s e)
        - mean (fun e' : Fin 1024 => val_main_v40 (F := Ideal) x0 x1 x2 x3 x4 x5 x6 x7 x8 (ix3 bi s e')) := by
  have hi : idx_main_v45 (ix3 bi s e) = ix3 bi s (0 : Fin 1) := funext fun a => Fin.ext (by
    match a with | ⟨0, _⟩ => rfl | ⟨1, _⟩ => rfl | ⟨2, _⟩ => rfl)
  rw [val_main_v46_apply, val_main_v45_apply, hi, mean_read]
  rfl

/-- The same deviation, as the reference computes it again for the output. -/
theorem dev_read' (e : Fin 1024) :
    val_main_v53 (F := Ideal) x0 x1 x2 x3 x4 x5 x6 x7 x8 (ix3 bi s e)
      = val_main_v40 (F := Ideal) x0 x1 x2 x3 x4 x5 x6 x7 x8 (ix3 bi s e)
        - mean (fun e' : Fin 1024 => val_main_v40 (F := Ideal) x0 x1 x2 x3 x4 x5 x6 x7 x8 (ix3 bi s e')) := by
  have hi : idx_main_v52 (ix3 bi s e) = ix3 bi s (0 : Fin 1) := funext fun a => Fin.ext (by
    match a with | ⟨0, _⟩ => rfl | ⟨1, _⟩ => rfl | ⟨2, _⟩ => rfl)
  rw [val_main_v53_apply, val_main_v52_apply, hi, mean_read]
  rfl

/-- The mean square deviation of the residual row (bi, s). -/
theorem var_read :
    val_main_v51 (F := Ideal) x0 x1 x2 x3 x4 x5 x6 x7 x8 (ix3 bi s (0 : Fin 1))
      = mean (fun e' : Fin 1024 =>
          (val_main_v40 (F := Ideal) x0 x1 x2 x3 x4 x5 x6 x7 x8 (ix3 bi s e')
            - mean (fun e'' : Fin 1024 => val_main_v40 (F := Ideal) x0 x1 x2 x3 x4 x5 x6 x7 x8 (ix3 bi s e'')))
          * (val_main_v40 (F := Ideal) x0 x1 x2 x3 x4 x5 x6 x7 x8 (ix3 bi s e')
            - mean (fun e'' : Fin 1024 => val_main_v40 (F := Ideal) x0 x1 x2 x3 x4 x5 x6 x7 x8 (ix3 bi s e'')))) := by
  have hi : idx_main_v49 (ix3 bi s (0 : Fin 1)) = ix2 bi s := funext fun a => Fin.ext (by
    match a with | ⟨0, _⟩ => rfl | ⟨1, _⟩ => rfl)
  have hk : ∀ k : Fin 1024, idx_main_v48 (ix2 bi s) k = ix3 bi s k := fun k => funext fun a => Fin.ext (by
    match a with | ⟨0, _⟩ => rfl | ⟨1, _⟩ => rfl | ⟨2, _⟩ => rfl)
  rw [val_main_v51_apply, val_main_v49_apply, hi, val_main_v48_apply, val_main_v50_apply, val_main_cst_6_apply,
    val_main_cst_5_apply, Finset.sum_congr rfl fun k _ => by rw [hk k, val_main_v47_apply, dev_read]]
  show Ideal.div (Ideal.ofBits .f32 0x00000000#32 + _) _ = _
  rw [Ideal.ofBits_zero_f32, zero_add]
  rfl

/-- The reference's result at row (bi, s), feature e: the normalised residual row, scaled and shifted. -/
theorem lnorm_read (x9 x10 : (⟨S1024, .f32⟩ : BufTy).Contents (Elt Ideal)) (e : Fin 1024) :
    val_main_v64 (F := Ideal) x0 x1 x2 x3 x4 x5 x6 x7 x8 x9 x10 (ix3 bi s e)
      = lnorm (fun e' : Fin 1024 => val_main_v40 (F := Ideal) x0 x1 x2 x3 x4 x5 x6 x7 x8 (ix3 bi s e')) x9 x10 e := by
  have h57 : idx_main_v57 (ix3 bi s e) = ix3 bi s (0 : Fin 1) := funext fun a => Fin.ext (by
    match a with | ⟨0, _⟩ => rfl | ⟨1, _⟩ => rfl | ⟨2, _⟩ => rfl)
  have h60 : idx_main_v59 (idx_main_v60 (ix3 bi s e)) = ix1 e := funext fun a => Fin.ext (by
    match a with | ⟨0, _⟩ => rfl)
  have h63 : idx_main_v62 (idx_main_v63 (ix3 bi s e)) = ix1 e := funext fun a => Fin.ext (by
    match a with | ⟨0, _⟩ => rfl)
  rw [val_main_v64_apply, val_main_v61_apply, val_main_v58_apply, dev_read', val_main_v57_apply, h57,
    val_main_v56_apply, val_main_v55_apply, var_read, val_main_v54_apply, val_main_cst_7_apply,
    val_main_v60_apply, val_main_v59_apply, h60, val_main_v63_apply, val_main_v62_apply, h63]
  rfl

end

end Cert.RefSpec

end
-- ==== Proof.RefSpec.lean ====
/-
  The reference computes the specification.

  Read at the ideal instance, index by index, the reference's result is the attention function followed by the
  residual layer norm: the layer norm of the residual rows, whose context rows are the softmax-weighted value rows
  with scores scaled by the word of 1/8.
-/
import proofs.«142345_j19559281066284_2_alg».proof.Proof.RefCtx
import proofs.«142345_j19559281066284_2_alg».proof.Proof.RefNorm

noncomputable section

namespace Cert.RefSpec

open Cert.ReferenceIdeal Cert.ReferenceIdeal.Read Idealize.ShloMosaic Idealize.ShloMosaic.ValueIdx Cert.AttnSpec

/-- The reference's result array is the specification's array. -/
theorem ref_is_spec (x0 : (⟨S4x2048x1024, .f32⟩ : BufTy).Contents (Elt Ideal))
    (x1 : (⟨S1024x1024, .f32⟩ : BufTy).Contents (Elt Ideal)) (x2 : (⟨S1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024, .f32⟩ : BufTy).Contents (Elt Ideal)) (x10 : (⟨S1024, .f32⟩ : BufTy).Contents (Elt Ideal)) :
    Cert.ReferenceIdeal.Read.val_main_v64 (F := Ideal) x0 x1 x2 x3 x4 x5 x6 x7 x8 x9 x10
      = Cert.AttnSpec.outArr x0 x1 x2 x3 x4 x5 x6 x7 x8 x9 x10 := by
  funext i
  obtain ⟨bi, s, e, rfl⟩ : ∃ (bi : Fin 4) (s : Fin 2048) (e : Fin 1024), i = ix3 bi s e :=
    ⟨i 0, i 1, i 2, eq_ix3 i⟩
  rw [outArr_ix3, lnorm_read]
  exact congrArg (fun y => lnorm y x9 x10 e) (funext fun e' => resid_read x0 x1 x2 x3 x4 x5 x6 x7 x8 bi s e')

end Cert.RefSpec

end
-- ==== Proof.lean ====
/-
  Multi-head attention with a residual layer norm, computed by three pipelined kernels, against the plain program.

  x is 4 sequences of 2048 rows of 1024 features; the 1024 features are 16 heads of 64 columns. The kernel program
  stacks the three weight matrices, and its first kernel computes the queries, keys and values x·Wᵀ + b on blocks of 512
  of the 8192 rows; its second kernel, for each sequence and each block of 256 query rows, takes the heads two at a time:
  scores q·kᵀ scaled by the f32 word of 1/8, the softmax along the 2048 key rows, the weighted sum of the value rows,
  each pair of heads stored as 128 columns; its third kernel adds the output projection of the context rows, the bias
  and x, and normalises each row (mean and mean square deviation over the 1024 features, the word of 1e-5 under the
  reciprocal square root, gamma, beta). The reference computes the same with whole-array operations on the
  [4, 16, 2048, 64] layout, dividing the scores by the square root of 64 where the kernels multiply by 1/8.

  Over the extended reals both programs compute ONE function of the argument arrays (AttnSpec.lean): no sum is
  regrouped and no factor is moved across a sum, so the precondition is not used; the only difference of values is
  x / sqrt 64 = x · (1/8), which holds for every extended real. The kernel side is read off the run of the three
  regions (every unscoped buffer's final contents named), region by region: the affine maps (ValR0), the context rows
  (AttnHead, AttnPieces, AttnArray, KernelCtx), the normalised rows (ValR2), joined in KernelValue; the reference side
  is its operations read one at a time (RefSpec). The frames of the two kernel programs are the same run with
  everything but the arguments forgotten; the reference's frame is its run with the result forgotten.
-/
import proofs.«142345_j19559281066284_2_alg».proof.Defs
import proofs.«142345_j19559281066284_2_alg».proof.Proof.Gen.Kernel
import proofs.«142345_j19559281066284_2_alg».proof.Proof.Gen.KernelIdeal
import proofs.«142345_j19559281066284_2_alg».proof.Proof.Gen.ReferenceIdeal
import proofs.«142345_j19559281066284_2_alg».proof.Proof.Gen.ReferenceIdeal.Run
import proofs.«142345_j19559281066284_2_alg».proof.Proof.Gen.ReferenceIdeal.Read
import proofs.«142345_j19559281066284_2_alg».proof.Proof.Gen.Pre_finite_inputs
import proofs.«142345_j19559281066284_2_alg».proof.Proof.KFrameRun
import proofs.«142345_j19559281066284_2_alg».proof.Proof.IFrameRun
import proofs.«142345_j19559281066284_2_alg».proof.Proof.KernelValue
import proofs.«142345_j19559281066284_2_alg».proof.Proof.RefSpec
import Idealize.ShloMosaic.Adequacy
import Idealize.ShloMosaic.Init

noncomputable section

namespace Cert.Proof

open Idealize.ShloMosaic Idealize.SL.Sem

/-- The word-level kernel program runs to the end, faults nowhere and leaves its arguments as launched. -/
theorem frame_kernel : Cert.frame_Kernel := fun m ρ _ => Cert.Kernel.Fr.frame m ρ

/-- So does the idealized kernel program. -/
theorem frame_kernelIdeal : Cert.frame_KernelIdeal := fun m ρ _ => Cert.KernelIdeal.Fr.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the specification's function of the arguments in their result arrays. -/
theorem algebraic : Cert.algebraic_KernelIdeal_ReferenceIdeal := by
  intro m ρ m' ρ' _ hagree
  refine ⟨fun c => Cert.KernelIdeal.KV.result m c, ?_, ?_⟩
  · exact (θ_run _ _ _).mono (fun r h c =>
      ⟨(h c _ (Cert.KernelIdeal.Fr.mem_uc Cert.KernelIdeal.main_v18 (by decide))).trans (Cert.KernelIdeal.KV.W7_result m ρ c),
       (h c _ (Cert.KernelIdeal.Fr.mem_uc Cert.KernelIdeal.main_arg0 (by decide))).trans (Cert.KernelIdeal.Fr.W7_main_arg0 m ρ c),
       (h c _ (Cert.KernelIdeal.Fr.mem_uc Cert.KernelIdeal.main_arg1 (by decide))).trans (Cert.KernelIdeal.Fr.W7_main_arg1 m ρ c),
       (h c _ (Cert.KernelIdeal.Fr.mem_uc Cert.KernelIdeal.main_arg2 (by decide))).trans (Cert.KernelIdeal.Fr.W7_main_arg2 m ρ c),
       (h c _ (Cert.KernelIdeal.Fr.mem_uc Cert.KernelIdeal.main_arg3 (by decide))).trans (Cert.KernelIdeal.Fr.W7_main_arg3 m ρ c),
       (h c _ (Cert.KernelIdeal.Fr.mem_uc Cert.KernelIdeal.main_arg4 (by decide))).trans (Cert.KernelIdeal.Fr.W7_main_arg4 m ρ c),
       (h c _ (Cert.KernelIdeal.Fr.mem_uc Cert.KernelIdeal.main_arg5 (by decide))).trans (Cert.KernelIdeal.Fr.W7_main_arg5 m ρ c),
       (h c _ (Cert.KernelIdeal.Fr.mem_uc Cert.KernelIdeal.main_arg6 (by decide))).trans (Cert.KernelIdeal.Fr.W7_main_arg6 m ρ c),
       (h c _ (Cert.KernelIdeal.Fr.mem_uc Cert.KernelIdeal.main_arg7 (by decide))).trans (Cert.KernelIdeal.Fr.W7_main_arg7 m ρ c),
       (h c _ (Cert.KernelIdeal.Fr.mem_uc Cert.KernelIdeal.main_arg8 (by decide))).trans (Cert.KernelIdeal.Fr.W7_main_arg8 m ρ c),
       (h c _ (Cert.KernelIdeal.Fr.mem_uc Cert.KernelIdeal.main_arg9 (by decide))).trans (Cert.KernelIdeal.Fr.W7_main_arg9 m ρ c),
       (h c _ (Cert.KernelIdeal.Fr.mem_uc Cert.KernelIdeal.main_arg10 (by decide))).trans (Cert.KernelIdeal.Fr.W7_main_arg10 m ρ c)⟩)
      (Cert.KernelIdeal.Fr.run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v64_eq, Cert.RefSpec.ref_is_spec, e0, e1, e2, e3, e4, e5, e6, e7, e8, e9, e10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
